-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v106)) (v2 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_v107) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x128 : Shape := ⟨2, ![8192, 128]⟩
abbrev S60000x64 : Shape := ⟨2, ![60000, 64]⟩
abbrev S40000x64 : Shape := ⟨2, ![40000, 64]⟩
abbrev S60000x256 : Shape := ⟨2, ![60000, 256]⟩
abbrev S40000x256 : Shape := ⟨2, ![40000, 256]⟩
abbrev S128x32 : Shape := ⟨2, ![128, 32]⟩
abbrev S32 : Shape := ⟨1, ![32]⟩
abbrev S32x128 : Shape := ⟨2, ![32, 128]⟩
abbrev S128 : Shape := ⟨1, ![128]⟩
abbrev S1600000 : Shape := ⟨1, ![1600000]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S60000x64 : S_.BroadcastsInDim S60000x64 (![] : Fin 0 → Fin S60000x64.rank)
  reducesTo_S60000x64_S_d0_1 : S60000x64.ReducesTo [0, 1] S_
  bcast_S_S40000x64 : S_.BroadcastsInDim S40000x64 (![] : Fin 0 → Fin S40000x64.rank)
  reducesTo_S40000x64_S_d0_1 : S40000x64.ReducesTo [0, 1] S_
  bcast_S_S60000x256 : S_.BroadcastsInDim S60000x256 (![] : Fin 0 → Fin S60000x256.rank)
  reducesTo_S60000x256_S_d0_1 : S60000x256.ReducesTo [0, 1] S_
  bcast_S_S40000x256 : S_.BroadcastsInDim S40000x256 (![] : Fin 0 → Fin S40000x256.rank)
  reducesTo_S40000x256_S_d0_1 : S40000x256.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S32 .f32) (main_arg11 : FVec F S32x128 .f32) (main_arg12 : FVec F S128 .f32) (main_v33 : IVec S_ 1) : IVec S_ 1 :=
  let main_v34 : FVec F S32 .f32 := Host.absf main_arg10
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x128 .f32 := Host.absf main_arg11
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S60000x256 .f32) (main_arg8 : FVec F S40000x256 .f32) (main_arg9 : FVec F S128x32 .f32) (main_arg10 : FVec F S32 .f32) (main_arg11 : FVec F S32x128 .f32) (main_arg12 : FVec F S128 .f32) (main_v13 : IVec S_ 1) (main_v16 : IVec S40000x64 1) : IVec S_ 1 :=
  let main_c_5 : IVec S_ 1 := constantI S_ 1 1#1
  let main_v17 : IVec S_ 1 := (fun x v => Host.reduce IntOp.andi x v reducesTo_S40000x64_S_d0_1 h_S_) main_v16 main_c_5
  let main_v18 : IVec S_ 1 := andi main_v13 main_v17
  let main_v19 : FVec F S60000x256 .f32 := Host.absf main_arg7
  let main_cst_6 : FVec F S_ .f32 := constant S_ .f32 0x7F800000#32
  let main_v20 : FVec F S60000x256 .f32 := broadcastInDim S60000x256 ![] bcast_S_S60000x256 main_cst_6
  let main_v21 : IVec S60000x256 1 := cmpf .olt main_v19 main_v20
  let main_c_7 : IVec S_ 1 := constantI S_ 1 1#1
  let main_v22 : IVec S_ 1 := (fun x v => Host.reduce IntOp.andi x v reducesTo_S60000x256_S_d0_1 h_S_) main_v21 main_c_7
  let main_v23 : IVec S_ 1 := andi main_v18 main_v22
  let main_v24 : FVec F S40000x256 .f32 := Host.absf main_arg8
  let main_cst_8 : FVec F S_ .f32 := constant S_ .f32 0x7F800000#32
  let main_v25 : FVec F S40000x256 .f32 := broadcastInDim S40000x256 ![] bcast_S_S40000x256 main_cst_8
  let main_v26 : IVec S40000x256 1 := cmpf .olt main_v24 main_v25
  let main_c_9 : IVec S_ 1 := constantI S_ 1 1#1
  let main_v27 : IVec S_ 1 := (fun x v => Host.reduce IntOp.andi x v reducesTo_S40000x256_S_d0_1 h_S_) main_v26 main_c_9
  let main_v28 : IVec S_ 1 := andi main_v23 main_v27
  let main_v29 : FVec F S128x32 .f32 := Host.absf main_arg9
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg10 main_arg11 main_arg12 main_v33

def fn {F : FTy → Type} [FloatOps F] (main_arg0 : IVec S8192 32) (main_arg1 : IVec S8192 32) (main_arg2 : IVec S8192 32) (main_arg3 : FVec F S8192x128 .f32) (main_arg4 : FVec F S8192x128 .f32) (main_arg5 : FVec F S60000x64 .f32) (main_arg6 : FVec F S40000x64 .f32) (main_arg7 : FVec F S60000x256 .f32) (main_arg8 : FVec F S40000x256 .f32) (main_arg9 : FVec F S128x32 .f32) (main_arg10 : FVec F S32 .f32) (main_arg11 : FVec F S32x128 .f32) (main_arg12 : FVec F S128 .f32) (main_arg13 : IVec S1600000 32) (main_arg14 : IVec S1600000 32) : IVec S_ 1 :=
  let main_v0 : FVec F S8192x128 .f32 := Host.absf main_arg3
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg4
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S60000x64 .f32 := Host.absf main_arg5
  let main_cst_2 : FVec F S_ .f32 := constant S_ .f32 0x7F800000#32
  let main_v10 : FVec F S60000x64 .f32 := broadcastInDim S60000x64 ![] bcast_S_S60000x64 main_cst_2
  let main_v11 : IVec S60000x64 1 := cmpf .olt main_v9 main_v10
  let main_c_3 : IVec S_ 1 := constantI S_ 1 1#1
  let main_v12 : IVec S_ 1 := (fun x v => Host.reduce IntOp.andi x v reducesTo_S60000x64_S_d0_1 h_S_) main_v11 main_c_3
  let main_v13 : IVec S_ 1 := andi main_v8 main_v12
  let main_v14 : FVec F S40000x64 .f32 := Host.absf main_arg6
  let main_cst_4 : FVec F S_ .f32 := constant S_ .f32 0x7F800000#32
  let main_v15 : FVec F S40000x64 .f32 := broadcastInDim S40000x64 ![] bcast_S_S40000x64 main_cst_4
  let main_v16 : IVec S40000x64 1 := cmpf .olt main_v14 main_v15
  fn_part1 (F := F) main_arg7 main_arg8 main_arg9 main_arg10 main_arg11 main_arg12 main_v13 main_v16
-- ==== Kernel.lean ====
abbrev S8192 : Shape := ⟨1, ![8192]⟩
abbrev S8192x128 : Shape := ⟨2, ![8192, 128]⟩
abbrev S60000x64 : Shape := ⟨2, ![60000, 64]⟩
abbrev S40000x64 : Shape := ⟨2, ![40000, 64]⟩
abbrev S60000x256 : Shape := ⟨2, ![60000, 256]⟩
abbrev S40000x256 : Shape := ⟨2, ![40000, 256]⟩
abbrev S128x32 : Shape := ⟨2, ![128, 32]⟩
abbrev S32 : Shape := ⟨1, ![32]⟩
abbrev S32x128 : Shape := ⟨2, ![32, 128]⟩
abbrev S128 : Shape := ⟨1, ![128]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S8192x1 : Shape := ⟨2, ![8192, 1]⟩
abbrev S8192x64 : Shape := ⟨2, ![8192, 64]⟩
abbrev S8192x256 : Shape := ⟨2, ![8192, 256]⟩
abbrev S1x32 : Shape := ⟨2, ![1, 32]⟩
abbrev S1x128 : Shape := ⟨2, ![1, 128]⟩
abbrev S2048x128 : Shape := ⟨2, ![2048, 128]⟩
abbrev S2048x256 : Shape := ⟨2, ![2048, 256]⟩
abbrev S2048x32 : Shape := ⟨2, ![2048, 32]⟩
abbrev S1x1 : Shape := ⟨2, ![1, 1]⟩
abbrev S1024x64 : Shape := ⟨2, ![1024, 64]⟩
abbrev S1024x256 : Shape := ⟨2, ![1024, 256]⟩
abbrev S1024x1 : Shape := ⟨2, ![1024, 1]⟩
abbrev S1024 : Shape := ⟨1, ![1024]⟩
abbrev S1 : Shape := ⟨1, ![1]⟩

abbrev nBuf : Space → Nat
  | .hbm => 155
  | .vmem => 37
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S8192x128, .f32⟩
  | 4 => ⟨S8192x128, .f32⟩
  | 5 => ⟨S60000x64, .f32⟩
  | 6 => ⟨S40000x64, .f32⟩
  | 7 => ⟨S60000x256, .f32⟩
  | 8 => ⟨S40000x256, .f32⟩
  | 9 => ⟨S128x32, .f32⟩
  | 10 => ⟨S32, .f32⟩
  | 11 => ⟨S32x128, .f32⟩
  | 12 => ⟨S128, .f32⟩
  | 13 => ⟨S1600000, .i32⟩
  | 14 => ⟨S1600000, .i32⟩
  | 15 => ⟨S100000x64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000x64, .f32⟩
  | 50 => ⟨S100000x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000x64, .f32⟩
  | 66 => ⟨S100000x64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S60000x64, .f32⟩
  | 88 => ⟨S40000x64, .f32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192x64, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x64, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x64, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x64, .f32⟩
  | 125 => ⟨S_, .i32⟩
  | 126 => ⟨S8192, .i32⟩
  | 127 => ⟨S8192, .i1⟩
  | _ => ⟨S8192, .i32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S8192x256, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x256, .f32⟩
  | 15 => ⟨S1x32, .f32⟩
  | 16 => ⟨S1x128, .f32⟩
  | 17 => ⟨S8192x256, .f32⟩
  | 18 => ⟨S1x32, .f32⟩
  | 19 => ⟨S1x128, .f32⟩
  | 20 => ⟨S8192x256, .f32⟩
  | 21 => ⟨S8192x1, .f32⟩
  | 22 => ⟨S8192x1, .f32⟩
  | 23 => ⟨S1x1, .f32⟩
  | 24 => ⟨S8192, .f32⟩
  | 25 => ⟨S8192, .f32⟩
  | 26 => ⟨S_, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x32, .f32⟩
  | .local _ .vmem, ⟨3, _⟩ => ⟨S1x32, .f32⟩
  | .local _ .vmem, ⟨4, _⟩ => ⟨S32x128, .f32⟩
  | .local _ .vmem, ⟨5, _⟩ => ⟨S1x128, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | .local _ .vmem, ⟨9, _⟩ => ⟨S2048x128, .f32⟩
  | .local _ .vmem, ⟨10, _⟩ => ⟨S128x32, .f32⟩
  | .local _ .vmem, ⟨11, _⟩ => ⟨S1x32, .f32⟩
  | .local _ .vmem, ⟨12, _⟩ => ⟨S32x128, .f32⟩
  | .local _ .vmem, ⟨13, _⟩ => ⟨S1x128, .f32⟩
  | .local _ .vmem, ⟨14, _⟩ => ⟨S2048x256, .f32⟩
  | .local _ .vmem, ⟨15, _⟩ => ⟨S2048x256, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x1, .f32⟩
  | .local _ .vmem, ⟨33, _⟩ => ⟨S1024x1, .f32⟩
  | .local _ .vmem, ⟨34, _⟩ => ⟨S1024x1, .f32⟩
  | .local _ .vmem, ⟨35, _⟩ => ⟨S1024x1, .f32⟩
  | .local _ .vmem, ⟨36, _⟩ => ⟨S1x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_c_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_c_11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_14 : Ref sig .tc := ⟨.hbm, 89, rfl⟩
abbrev main_v56 : Ref sig .tc := ⟨.hbm, 90, rfl⟩
abbrev main_v57 : Ref sig .tc := ⟨.hbm, 91, rfl⟩
abbrev main_c_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_c_17 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_18 : Ref sig .tc := ⟨.hbm, 107, rfl⟩
abbrev main_v70 : Ref sig .tc := ⟨.hbm, 108, rfl⟩
abbrev main_v71 : Ref sig .tc := ⟨.hbm, 109, rfl⟩
abbrev main_c_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_20 : Ref sig .tc := ⟨.hbm, 116, rfl⟩
abbrev main_v77 : Ref sig .tc := ⟨.hbm, 117, rfl⟩
abbrev main_v78 : Ref sig .tc := ⟨.hbm, 118, rfl⟩
abbrev main_c_21 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_22 : Ref sig .tc := ⟨.hbm, 125, rfl⟩
abbrev main_v84 : Ref sig .tc := ⟨.hbm, 126, rfl⟩
abbrev main_v85 : Ref sig .tc := ⟨.hbm, 127, rfl⟩
abbrev main_c_23 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_24 : Ref sig .tc := ⟨.hbm, 134, rfl⟩
abbrev main_v91 : Ref sig .tc := ⟨.hbm, 135, rfl⟩
abbrev main_v92 : Ref sig .tc := ⟨.hbm, 136, rfl⟩
abbrev main_c_25 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104_0 : Ref sig .tc := ⟨.hbm, 149, rfl⟩
abbrev main_v104_1 : Ref sig .tc := ⟨.hbm, 150, rfl⟩
abbrev main_v104_2 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc2_sem10_0 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1024x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1024x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  concatenates_S60000x64_S40000x64_S100000x64_d0 : Shape.Concatenates [S60000x64, S40000x64] S100000x64 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S100000x64_S60000x64_0_0 : S100000x64.Slices ![0, 0] S60000x64
  slices_S100000x64_S40000x64_60000_0 : S100000x64.Slices ![60000, 0] S40000x64
  bcast_S_S8192 : S_.BroadcastsInDim S8192 (![] : Fin 0 → Fin S8192.rank)
  bcast_S8192_S8192x1_0 : S8192.BroadcastsInDim S8192x1 (![0] : Fin 1 → Fin S8192x1.rank)
  shapeCasts_S32_S1x32 : S32.ShapeCasts S1x32
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x256_S2048x128_0_0 : ∀ a, (![0, 0] : Fin 2 → Nat) a + S2048x128.size a ≤ S2048x256.size a
  inb_S2048x256_S2048x128_0_128 : ∀ a, (![0, 128] : Fin 2 → Nat) a + S2048x128.size a ≤ S2048x256.size a
  inb_S1x1_S1x1_0_0 : ∀ a, (![0, 0] : Fin 2 → Nat) a + S1x1.size a ≤ S1x1.size a
  h_S1x1 : 0 < S1x1.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  reduces_S1024x1_S1 : S1024x1.Reduces [0] S1
  shapeCasts_S1_S1x1 : S1.ShapeCasts S1x1
  shapeCasts_S1x1_S1x1 : S1x1.ShapeCasts S1x1
  shapeCasts_S8192x1_S8192 : S8192x1.ShapeCasts S8192
  shapeCasts_S1x1_S_ : S1x1.ShapeCasts S_
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S60000x64_S8192x1_S8192x64_1_0_n_n_0_1_164_wf : GatherDims.WF S60000x64 S8192x1 S8192x64 [1] [0] [] [0] [] 1 ![1, 64]
  gather_S40000x64_S8192x1_S8192x64_1_0_n_n_0_1_164_wf : GatherDims.WF S40000x64 S8192x1 S8192x64 [1] [0] [] [0] [] 1 ![1, 64]
  gather_S60000x256_S8192x1_S8192x256_1_0_n_n_0_1_1256_wf : GatherDims.WF S60000x256 S8192x1 S8192x256 [1] [0] [] [0] [] 1 ![1, 256]
  gather_S40000x256_S8192x1_S8192x256_1_0_n_n_0_1_1256_wf : GatherDims.WF S40000x256 S8192x1 S8192x256 [1] [0] [] [0] [] 1 ![1, 256]
  dot_S2048x128_S128x32_S2048x32_1_0_0_1_n_n_wf : DotDims.WF S2048x128 S128x32 S2048x32 [1] [0] [0] [1] [] []
  dot_S2048x32_S32x128_S2048x128_1_0_0_1_n_n_wf : DotDims.WF S2048x32 S32x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S8192x256.size a
  hwx0_5 : ∀ i : grid0.Coords, EltTy.bits .f32 = 32 ∨ (Rect.block (s := S8192x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S8192x256.size a
  hwx1_5 : ∀ i : grid1.Coords, EltTy.bits .f32 = 32 ∨ (Rect.block (s := S8192x256) S2048x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S8192x256.size a
  hwx2_4 : ∀ i : grid2.Coords, EltTy.bits .f32 = 32 ∨ (Rect.block (s := S8192x256) S1024x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x64.size a ≤ S8192x64.size a
  hwx2_6 : ∀ i : grid2.Coords, EltTy.bits .f32 = 32 ∨ (Rect.block (s := S8192x64) S1024x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x64.size a ≤ S8192x64.size a
  hwx2_7 : ∀ i : grid2.Coords, EltTy.bits .f32 = 32 ∨ (Rect.block (s := S8192x64) S1024x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x1.size a ≤ S8192x1.size a
  hwx2_8 : ∀ i : grid2.Coords, EltTy.bits .f32 = 32 ∨ (Rect.block (s := S8192x1) S1024x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x1.size a ≤ S8192x1.size a
  hwx2_9 : ∀ i : grid2.Coords, EltTy.bits .f32 = 32 ∨ (Rect.block (s := S8192x1) S1024x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf
def gather_S60000x256_S8192x1_S8192x256_1_0_n_n_0_1_1256 : GatherDims S60000x256 S8192x1 S8192x256 where
  offsetDims := [1]
  collapsedSliceDims := [0]
  operandBatchingDims := []
  startIndicesBatchingDims := []
  startIndexMap := [0]
  indexVectorDim := 1
  sliceSizes := ![1, 256]
  wf := gather_S60000x256_S8192x1_S8192x256_1_0_n_n_0_1_1256_wf
def gather_S40000x256_S8192x1_S8192x256_1_0_n_n_0_1_1256 : GatherDims S40000x256 S8192x1 S8192x256 where
  offsetDims := [1]
  collapsedSliceDims := [0]
  operandBatchingDims := []
  startIndicesBatchingDims := []
  startIndexMap := [0]
  indexVectorDim := 1
  sliceSizes := ![1, 256]
  wf := gather_S40000x256_S8192x1_S8192x256_1_0_n_n_0_1_1256_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf

abbrev win0_0 : Pipeline.Window sig grid0 :=
  Pipeline.Window.ofSpec (Memref.whole main_arg3) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v98) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v99) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v100) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg4) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v101) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v102) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v103) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v76) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v97) S1024x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v100) S1024x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v103) S1024x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1024x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v69) S1024x64.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v104_0) S1024x1.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v104_1) S1024x1.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v104_2) S1x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S8192 : Shape := ⟨1, ![8192]⟩
abbrev S8192x128 : Shape := ⟨2, ![8192, 128]⟩
abbrev S60000x64 : Shape := ⟨2, ![60000, 64]⟩
abbrev S40000x64 : Shape := ⟨2, ![40000, 64]⟩
abbrev S60000x256 : Shape := ⟨2, ![60000, 256]⟩
abbrev S40000x256 : Shape := ⟨2, ![40000, 256]⟩
abbrev S128x32 : Shape := ⟨2, ![128, 32]⟩
abbrev S32 : Shape := ⟨1, ![32]⟩
abbrev S32x128 : Shape := ⟨2, ![32, 128]⟩
abbrev S128 : Shape := ⟨1, ![128]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S8192x1 : Shape := ⟨2, ![8192, 1]⟩
abbrev S8192x64 : Shape := ⟨2, ![8192, 64]⟩
abbrev S8192x256 : Shape := ⟨2, ![8192, 256]⟩
abbrev S8192x32 : Shape := ⟨2, ![8192, 32]⟩
abbrev S1x32 : Shape := ⟨2, ![1, 32]⟩
abbrev S1x128 : Shape := ⟨2, ![1, 128]⟩

abbrev nBuf : Space → Nat
  | .hbm => 212
  | .vmem => 0
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S8192x128, .f32⟩
  | 4 => ⟨S8192x128, .f32⟩
  | 5 => ⟨S60000x64, .f32⟩
  | 6 => ⟨S40000x64, .f32⟩
  | 7 => ⟨S60000x256, .f32⟩
  | 8 => ⟨S40000x256, .f32⟩
  | 9 => ⟨S128x32, .f32⟩
  | 10 => ⟨S32, .f32⟩
  | 11 => ⟨S32x128, .f32⟩
  | 12 => ⟨S128, .f32⟩
  | 13 => ⟨S1600000, .i32⟩
  | 14 => ⟨S1600000, .i32⟩
  | 15 => ⟨S100000x64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000x64, .f32⟩
  | 50 => ⟨S100000x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000x64, .f32⟩
  | 66 => ⟨S100000x64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S60000x64, .f32⟩
  | 88 => ⟨S40000x64, .f32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192x64, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x64, .f32⟩
  | 107 => ⟨S8192x64, .f32⟩
  | 108 => ⟨S_, .f32⟩
  | 109 => ⟨S8192, .f32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S8192x256, .f32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S8192x256, .f32⟩
  | _ => ⟨S8192, .i32⟩

abbrev hbmTy0_1 (i : Nat) : BufTy := match i % 128 with
  | 0 => ⟨S8192x32, .f32⟩
  | 1 => ⟨S1x32, .f32⟩
  | 2 => ⟨S8192x32, .f32⟩
  | 3 => ⟨S8192x32, .f32⟩
  | 4 => ⟨S_, .f32⟩
  | 5 => ⟨S8192x32, .f32⟩
  | 6 => ⟨S8192x32, .f32⟩
  | 7 => ⟨S8192x128, .f32⟩
  | 8 => ⟨S1x128, .f32⟩
  | 9 => ⟨S8192x128, .f32⟩
  | 10 => ⟨S8192x128, .f32⟩
  | 11 => ⟨S8192x256, .f32⟩
  | 12 => ⟨S8192x32, .f32⟩
  | 13 => ⟨S1x32, .f32⟩
  | 14 => ⟨S8192x32, .f32⟩
  | 15 => ⟨S8192x32, .f32⟩
  | 16 => ⟨S_, .f32⟩
  | 17 => ⟨S8192x32, .f32⟩
  | 18 => ⟨S8192x32, .f32⟩
  | 19 => ⟨S8192x128, .f32⟩
  | 20 => ⟨S1x128, .f32⟩
  | 21 => ⟨S8192x128, .f32⟩
  | 22 => ⟨S8192x128, .f32⟩
  | 23 => ⟨S8192x256, .f32⟩
  | 24 => ⟨S8192x256, .f32⟩
  | 25 => ⟨S_, .f32⟩
  | 26 => ⟨S8192, .f32⟩
  | 27 => ⟨S8192x256, .f32⟩
  | 28 => ⟨S_, .f32⟩
  | 29 => ⟨S8192, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x64, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x64, .f32⟩
  | 48 => ⟨S8192x64, .f32⟩
  | 49 => ⟨S_, .f32⟩
  | 50 => ⟨S_, .f32⟩
  | 51 => ⟨S8192x64, .f32⟩
  | 52 => ⟨S_, .f32⟩
  | 53 => ⟨S_, .f32⟩
  | 54 => ⟨S_, .f32⟩
  | 55 => ⟨S8192x256, .f32⟩
  | 56 => ⟨S_, .f32⟩
  | 57 => ⟨S_, .f32⟩
  | 58 => ⟨S_, .f32⟩
  | 59 => ⟨S8192x256, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S8192, .f32⟩
  | 68 => ⟨S8192, .f32⟩
  | 69 => ⟨S_, .f32⟩
  | 70 => ⟨S8192, .f32⟩
  | 71 => ⟨S8192, .f32⟩
  | 72 => ⟨S_, .f32⟩
  | 73 => ⟨S8192, .f32⟩
  | 74 => ⟨S8192, .f32⟩
  | 75 => ⟨S8192, .f32⟩
  | 76 => ⟨S8192, .f32⟩
  | 77 => ⟨S8192, .f32⟩
  | 78 => ⟨S_, .f32⟩
  | 79 => ⟨S8192, .f32⟩
  | 80 => ⟨S8192, .f32⟩
  | 81 => ⟨S_, .f32⟩
  | 82 => ⟨S8192, .f32⟩
  | 83 => ⟨S8192, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_c_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_c_11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_14 : Ref sig .tc := ⟨.hbm, 89, rfl⟩
abbrev main_v56 : Ref sig .tc := ⟨.hbm, 90, rfl⟩
abbrev main_v57 : Ref sig .tc := ⟨.hbm, 91, rfl⟩
abbrev main_c_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_c_17 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_c_19 : Ref sig .tc := ⟨.hbm, 110, rfl⟩
abbrev main_v72 : Ref sig .tc := ⟨.hbm, 111, rfl⟩
abbrev main_v73 : Ref sig .tc := ⟨.hbm, 112, rfl⟩
abbrev main_c_20 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_21 : Ref sig .tc := ⟨.hbm, 119, rfl⟩
abbrev main_v79 : Ref sig .tc := ⟨.hbm, 120, rfl⟩
abbrev main_v80 : Ref sig .tc := ⟨.hbm, 121, rfl⟩
abbrev main_c_22 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call1_cst : Ref sig .tc := ⟨.hbm, 132, rfl⟩
abbrev main_call1_v0 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call2_cst : Ref sig .tc := ⟨.hbm, 144, rfl⟩
abbrev main_call2_v0 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_23 : Ref sig .tc := ⟨.hbm, 153, rfl⟩
abbrev main_v107 : Ref sig .tc := ⟨.hbm, 154, rfl⟩
abbrev main_v108 : Ref sig .tc := ⟨.hbm, 155, rfl⟩
abbrev main_cst_24 : Ref sig .tc := ⟨.hbm, 156, rfl⟩
abbrev main_v109 : Ref sig .tc := ⟨.hbm, 157, rfl⟩
abbrev main_c_25 : Ref sig .tc := ⟨.hbm, 158, rfl⟩
abbrev main_v110 : Ref sig .tc := ⟨.hbm, 159, rfl⟩
abbrev main_v111 : Ref sig .tc := ⟨.hbm, 160, rfl⟩
abbrev main_c_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_c_27 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_29 : Ref sig .tc := ⟨.hbm, 177, rfl⟩
abbrev main_v125 : Ref sig .tc := ⟨.hbm, 178, rfl⟩
abbrev main_v126 : Ref sig .tc := ⟨.hbm, 179, rfl⟩
abbrev main_cst_30 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_31 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_32 : Ref sig .tc := ⟨.hbm, 188, rfl⟩
abbrev main_v133 : Ref sig .tc := ⟨.hbm, 189, rfl⟩
abbrev main_v134 : Ref sig .tc := ⟨.hbm, 190, rfl⟩
abbrev main_cst_33 : Ref sig .tc := ⟨.hbm, 191, rfl⟩
abbrev main_v135 : Ref sig .tc := ⟨.hbm, 192, rfl⟩
abbrev main_cst_34 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_35 : Ref sig .tc := ⟨.hbm, 197, rfl⟩
abbrev main_v139 : Ref sig .tc := ⟨.hbm, 198, rfl⟩
abbrev main_v140 : Ref sig .tc := ⟨.hbm, 199, rfl⟩
abbrev main_cst_36 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_37 : Ref sig .tc := ⟨.hbm, 206, rfl⟩
abbrev main_v146 : Ref sig .tc := ⟨.hbm, 207, rfl⟩
abbrev main_v147 : Ref sig .tc := ⟨.hbm, 208, rfl⟩
abbrev main_cst_38 : Ref sig .tc := ⟨.hbm, 209, rfl⟩
abbrev main_v148 : Ref sig .tc := ⟨.hbm, 210, rfl⟩
abbrev main_v149 : Ref sig .tc := ⟨.hbm, 211, rfl⟩

abbrev nD : Nat := 1
abbrev τ : Topo := Topo.v7x

variable {F : FTy → Type} [FloatOps F]

class Facts₀ : Prop where
  concatenates_S60000x64_S40000x64_S100000x64_d0 : Shape.Concatenates [S60000x64, S40000x64] S100000x64 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S100000x64_S60000x64_0_0 : S100000x64.Slices ![0, 0] S60000x64
  slices_S100000x64_S40000x64_60000_0 : S100000x64.Slices ![60000, 0] S40000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x128_S8192x128_S8192x256_d1 : Shape.Concatenates [S8192x128, S8192x128] S8192x256 1
  reducesTo_S8192x256_S8192_d1 : S8192x256.ReducesTo [1] S8192
  reducesTo_S8192x64_S_d0_1 : S8192x64.ReducesTo [0, 1] S_
  reducesTo_S8192x256_S_d0_1 : S8192x256.ReducesTo [0, 1] S_
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S60000x64_S8192x1_S8192x64_1_0_n_n_0_1_164_wf : GatherDims.WF S60000x64 S8192x1 S8192x64 [1] [0] [] [0] [] 1 ![1, 64]
  gather_S40000x64_S8192x1_S8192x64_1_0_n_n_0_1_164_wf : GatherDims.WF S40000x64 S8192x1 S8192x64 [1] [0] [] [0] [] 1 ![1, 64]
  gather_S60000x256_S8192x1_S8192x256_1_0_n_n_0_1_1256_wf : GatherDims.WF S60000x256 S8192x1 S8192x256 [1] [0] [] [0] [] 1 ![1, 256]
  gather_S40000x256_S8192x1_S8192x256_1_0_n_n_0_1_1256_wf : GatherDims.WF S40000x256 S8192x1 S8192x256 [1] [0] [] [0] [] 1 ![1, 256]
  dot_S8192x128_S128x32_S8192x32_1_0_0_1_n_n_wf : DotDims.WF S8192x128 S128x32 S8192x32 [1] [0] [0] [1] [] []
  dot_S8192x32_S32x128_S8192x128_1_0_0_1_n_n_wf : DotDims.WF S8192x32 S32x128 S8192x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf
def gather_S60000x256_S8192x1_S8192x256_1_0_n_n_0_1_1256 : GatherDims S60000x256 S8192x1 S8192x256 where
  offsetDims := [1]
  collapsedSliceDims := [0]
  operandBatchingDims := []
  startIndicesBatchingDims := []
  startIndexMap := [0]
  indexVectorDim := 1
  sliceSizes := ![1, 256]
  wf := gather_S60000x256_S8192x1_S8192x256_1_0_n_n_0_1_1256_wf
def gather_S40000x256_S8192x1_S8192x256_1_0_n_n_0_1_1256 : GatherDims S40000x256 S8192x1 S8192x256 where
  offsetDims := [1]
  collapsedSliceDims := [0]
  operandBatchingDims := []
  startIndicesBatchingDims := []
  startIndexMap := [0]
  indexVectorDim := 1
  sliceSizes := ![1, 256]
  wf := gather_S40000x256_S8192x1_S8192x256_1_0_n_n_0_1_1256_wf
def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

class Facts : Prop extends Facts₀ where

variable [Facts]
-- ==== Proof.Spec.lean ====
import Idealize.ShloMosaic.PureOps.Ideal
import Idealize.ShloMosaic.Lib.ValueIdx

/-!
  The mathematics both programs compute, over the extended reals, written over plain coordinates
  (a batch row `i : Fin 8192`, a feature `k`), with no program imported.

  * `expand`: a trend row `t i` (128 numbers) followed by the two-layer perceptron of it,
    `max (t i · W1 + b1) 0 · W2 + b2` (128 numbers): 256 numbers in all.
  * `gm`: the logistic of the dot product of two 64-feature rows.
  * `tm`: the logistic of the sum of two dot products of 256-feature rows.
  * the regularizer: half the sum of the squares of four gathered tables, divided by the batch size —
    once as the whole sums divided by 8192 (`regWhole`), once as the eight partial sums over row blocks of
    1024, each halved, added up and multiplied by 2⁻¹³ (`regBlocked`).
-/

noncomputable section

open scoped BigOperators

namespace Cert.Spec

open Idealize.ShloMosaic

/-- The hidden layer at row `i`, unit `k`: `max (∑ₗ t i l · W1 l k + b1 k) 0`. -/
def hidden (t : Fin 8192 → Fin 128 → EReal) (W1 : Fin 128 → Fin 32 → EReal) (b1 : Fin 32 → EReal)
    (i : Fin 8192) (k : Fin 32) : EReal :=
  max ((∑ l : Fin 128, t i l * W1 l k) + b1 k) 0

/-- The perceptron's output at row `i`, feature `j`: `∑ₖ hidden i k · W2 k j + b2 j`. -/
def mlp (t : Fin 8192 → Fin 128 → EReal) (W1 : Fin 128 → Fin 32 → EReal) (b1 : Fin 32 → EReal)
    (W2 : Fin 32 → Fin 128 → EReal) (b2 : Fin 128 → EReal) (i : Fin 8192) (j : Fin 128) : EReal :=
  (∑ k : Fin 32, hidden t W1 b1 i k * W2 k j) + b2 j

/-- The expanded trend: the row itself in columns 0–127, the perceptron of it in columns 128–255. -/
def expand (t : Fin 8192 → Fin 128 → EReal) (W1 : Fin 128 → Fin 32 → EReal) (b1 : Fin 32 → EReal)
    (W2 : Fin 32 → Fin 128 → EReal) (b2 : Fin 128 → EReal) (i : Fin 8192) (j : Fin 256) : EReal :=
  if h : j.val < 128 then t i ⟨j.val, h⟩ else mlp t W1 b1 W2 b2 i ⟨j.val - 128, by omega⟩

/-- The embedding match of row `i`: the logistic of `∑ₖ ue i k · ie i k`. -/
def gm (ue ie : Fin 8192 → Fin 64 → EReal) (i : Fin 8192) : EReal :=
  Ideal.logistic (∑ k : Fin 64, ue i k * ie i k)

/-- The time match of row `i`: the logistic of `∑ₖ ute i k · ut i k + ∑ₖ ite i k · it i k`. -/
def tm (ute ite ut it : Fin 8192 → Fin 256 → EReal) (i : Fin 8192) : EReal :=
  Ideal.logistic ((∑ k : Fin 256, ute i k * ut i k) + ∑ k : Fin 256, ite i k * it i k)

/-- The sum of the squares of a whole table. -/
def sqsum {m : Nat} (x : Fin 8192 → Fin m → EReal) : EReal := ∑ i : Fin 8192, ∑ k : Fin m, x i k * x i k

/-- Row `r` of row block `t` (blocks of 1024 rows). -/
def blockRow (t : Fin 8) (r : Fin 1024) : Fin 8192 := ⟨1024 * t.val + r.val, by omega⟩

/-- The sum of the squares of the rows of block `t`: first along a row, then down the block's rows. -/
def blockSq {m : Nat} (x : Fin 8192 → Fin m → EReal) (t : Fin 8) : EReal :=
  ∑ r : Fin 1024, ∑ k : Fin m, x (blockRow t r) k * x (blockRow t r) k

/-- The float word of one half. -/
abbrev half : EReal := Ideal.ofBits .f32 0x3F000000#32

/-- What block `t` adds to the regularizer: half the four block sums, added left to right. -/
def partialReg (ue0 ie0 : Fin 8192 → Fin 64 → EReal) (ute ite : Fin 8192 → Fin 256 → EReal) (t : Fin 8) : EReal :=
  half * (((blockSq ue0 t + blockSq ie0 t) + blockSq ute t) + blockSq ite t)

/-- The regularizer as accumulated block by block: the eight partial values added up, times the word of 2⁻¹³. -/
def regBlocked (ue0 ie0 : Fin 8192 → Fin 64 → EReal) (ute ite : Fin 8192 → Fin 256 → EReal) : EReal :=
  (∑ t : Fin 8, partialReg ue0 ie0 ute ite t) * Ideal.ofBits .f32 0x39000000#32

/-- The regularizer as one expression: half the four whole sums, divided by the word of 8192. -/
def regWhole (ue0 ie0 : Fin 8192 → Fin 64 → EReal) (ute ite : Fin 8192 → Fin 256 → EReal) : EReal :=
  Ideal.div (half * (((sqsum ue0 + sqsum ie0) + sqsum ute) + sqsum ite)) (Ideal.ofBits .f32 0x46000000#32)

end Cert.Spec

end
-- ==== Proof.HostK.lean ====
import proofs.«111852_j28475633172831_1_alg».proof.Proof.Gen.KernelIdeal

/-!
  The host computations the two programs share, as functions of the argument arrays: the propagated embedding
  table and the six gathered arrays (rows of a table at the batch's indices). Spelt once per program, over that
  program's own shape and dimension records; the two spellings are one function.
-/

noncomputable section

namespace Cert.HostK

open Cert.KernelIdeal Cert.KernelIdeal.Gen Idealize.ShloMosaic Idealize.ShloMosaic.TcCoe Idealize.SL.Sem Idealize.ShloMosaic.StableHlo

variable {F : FTy → Type} [FloatOps F]

/-- The propagated embedding table, all 100000 rows: the two tables stacked, plus three hops of
    "sum the sources' rows into each edge's destination, times the destination's inverse in-degree (zero for an
    isolated node)", each hop fed by the hop before; the four tables' sum divided by the word of 4. -/
def graph (a5 : (⟨S60000x64, .f32⟩ : BufTy).Contents (Elt F)) (a6 : (⟨S40000x64, .f32⟩ : BufTy).Contents (Elt F))
    (a13 a14 : (⟨S1600000, .i32⟩ : BufTy).Contents (Elt F)) : (⟨S100000x64, .f32⟩ : BufTy).Contents (Elt F) :=
  Host.divf (addf (addf (addf (concatenate S100000x64 0 [⟨S60000x64, a5⟩, ⟨S40000x64, a6⟩] concatenates_S60000x64_S40000x64_S100000x64_d0) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (concatenate S100000x64 0 [⟨S60000x64, a5⟩, ⟨S40000x64, a6⟩] concatenates_S60000x64_S40000x64_S100000x64_d0) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))))))) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (concatenate S100000x64 0 [⟨S60000x64, a5⟩, ⟨S40000x64, a6⟩] concatenates_S60000x64_S40000x64_S100000x64_d0) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))))))) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (concatenate S100000x64 0 [⟨S60000x64, a5⟩, ⟨S40000x64, a6⟩] concatenates_S60000x64_S40000x64_S100000x64_d0) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))))))) (broadcastInDim S100000x64 ![] bcast_S_S100000x64 (constant S_ .f32 0x40800000#32))

/-- The propagated user rows at the batch's user indices (a negative index counted from the end). -/
def ue (a5 : (⟨S60000x64, .f32⟩ : BufTy).Contents (Elt F)) (a6 : (⟨S40000x64, .f32⟩ : BufTy).Contents (Elt F))
    (a13 a14 : (⟨S1600000, .i32⟩ : BufTy).Contents (Elt F)) (a0 : (⟨S8192, .i32⟩ : BufTy).Contents (Elt F)) :
    (⟨S8192x64, .f32⟩ : BufTy).Contents (Elt F) :=
  Host.gather gather_S60000x64_S8192x1_S8192x64_1_0_n_n_0_1_164 (extractStridedSlice S60000x64 ![0, 0] (graph a5 a6 a13 a14) slices_S100000x64_S60000x64_0_0) (broadcastInDim S8192x1 ![0] bcast_S8192_S8192x1_0 (select (cmpi .slt a0 (broadcastInDim S8192 ![] bcast_S_S8192 (constantI S_ 32 0#32))) (addi a0 (broadcastInDim S8192 ![] bcast_S_S8192 (constantI S_ 32 60000#32))) a0))

/-- The propagated item rows at the batch's item indices. -/
def ie (a5 : (⟨S60000x64, .f32⟩ : BufTy).Contents (Elt F)) (a6 : (⟨S40000x64, .f32⟩ : BufTy).Contents (Elt F))
    (a13 a14 : (⟨S1600000, .i32⟩ : BufTy).Contents (Elt F)) (a1 : (⟨S8192, .i32⟩ : BufTy).Contents (Elt F)) :
    (⟨S8192x64, .f32⟩ : BufTy).Contents (Elt F) :=
  Host.gather gather_S40000x64_S8192x1_S8192x64_1_0_n_n_0_1_164 (extractStridedSlice S40000x64 ![60000, 0] (graph a5 a6 a13 a14) slices_S100000x64_S40000x64_60000_0) (broadcastInDim S8192x1 ![0] bcast_S8192_S8192x1_0 (select (cmpi .slt a1 (broadcastInDim S8192 ![] bcast_S_S8192 (constantI S_ 32 0#32))) (addi a1 (broadcastInDim S8192 ![] bcast_S_S8192 (constantI S_ 32 40000#32))) a1))

/-- The user time table's rows at the batch's user indices. -/
def ute (a7 : (⟨S60000x256, .f32⟩ : BufTy).Contents (Elt F)) (a0 : (⟨S8192, .i32⟩ : BufTy).Contents (Elt F)) :
    (⟨S8192x256, .f32⟩ : BufTy).Contents (Elt F) :=
  Host.gather gather_S60000x256_S8192x1_S8192x256_1_0_n_n_0_1_1256 a7 (broadcastInDim S8192x1 ![0] bcast_S8192_S8192x1_0 (select (cmpi .slt a0 (broadcastInDim S8192 ![] bcast_S_S8192 (constantI S_ 32 0#32))) (addi a0 (broadcastInDim S8192 ![] bcast_S_S8192 (constantI S_ 32 60000#32))) a0))

/-- The item time table's rows at the batch's item indices. -/
def ite (a8 : (⟨S40000x256, .f32⟩ : BufTy).Contents (Elt F)) (a1 : (⟨S8192, .i32⟩ : BufTy).Contents (Elt F)) :
    (⟨S8192x256, .f32⟩ : BufTy).Contents (Elt F) :=
  Host.gather gather_S40000x256_S8192x1_S8192x256_1_0_n_n_0_1_1256 a8 (broadcastInDim S8192x1 ![0] bcast_S8192_S8192x1_0 (select (cmpi .slt a1 (broadcastInDim S8192 ![] bcast_S_S8192 (constantI S_ 32 0#32))) (addi a1 (broadcastInDim S8192 ![] bcast_S_S8192 (constantI S_ 32 40000#32))) a1))

/-- The raw user embedding rows at the batch's user indices. -/
def ue0 (a5 : (⟨S60000x64, .f32⟩ : BufTy).Contents (Elt F)) (a0 : (⟨S8192, .i32⟩ : BufTy).Contents (Elt F)) :
    (⟨S8192x64, .f32⟩ : BufTy).Contents (Elt F) :=
  Host.gather gather_S60000x64_S8192x1_S8192x64_1_0_n_n_0_1_164 a5 (broadcastInDim S8192x1 ![0] bcast_S8192_S8192x1_0 (select (cmpi .slt a0 (broadcastInDim S8192 ![] bcast_S_S8192 (constantI S_ 32 0#32))) (addi a0 (broadcastInDim S8192 ![] bcast_S_S8192 (constantI S_ 32 60000#32))) a0))

/-- The raw item embedding rows at the batch's item indices. -/
def ie0 (a6 : (⟨S40000x64, .f32⟩ : BufTy).Contents (Elt F)) (a1 : (⟨S8192, .i32⟩ : BufTy).Contents (Elt F)) :
    (⟨S8192x64, .f32⟩ : BufTy).Contents (Elt F) :=
  Host.gather gather_S40000x64_S8192x1_S8192x64_1_0_n_n_0_1_164 a6 (broadcastInDim S8192x1 ![0] bcast_S8192_S8192x1_0 (select (cmpi .slt a1 (broadcastInDim S8192 ![] bcast_S_S8192 (constantI S_ 32 0#32))) (addi a1 (broadcastInDim S8192 ![] bcast_S_S8192 (constantI S_ 32 40000#32))) a1))

end Cert.HostK

end
-- ==== Proof.HostR.lean ====
import proofs.«111852_j28475633172831_1_alg».proof.Proof.Gen.ReferenceIdeal

/-!
  The host computations the two programs share, as functions of the argument arrays: the propagated embedding
  table and the six gathered arrays (rows of a table at the batch's indices). Spelt once per program, over that
  program's own shape and dimension records; the two spellings are one function.
-/

noncomputable section

namespace Cert.HostR

open Cert.ReferenceIdeal Cert.ReferenceIdeal.Gen Idealize.ShloMosaic Idealize.ShloMosaic.TcCoe Idealize.SL.Sem Idealize.ShloMosaic.StableHlo

variable {F : FTy → Type} [FloatOps F]

/-- The propagated embedding table, all 100000 rows: the two tables stacked, plus three hops of
    "sum the sources' rows into each edge's destination, times the destination's inverse in-degree (zero for an
    isolated node)", each hop fed by the hop before; the four tables' sum divided by the word of 4. -/
def graph (a5 : (⟨S60000x64, .f32⟩ : BufTy).Contents (Elt F)) (a6 : (⟨S40000x64, .f32⟩ : BufTy).Contents (Elt F))
    (a13 a14 : (⟨S1600000, .i32⟩ : BufTy).Contents (Elt F)) : (⟨S100000x64, .f32⟩ : BufTy).Contents (Elt F) :=
  Host.divf (addf (addf (addf (concatenate S100000x64 0 [⟨S60000x64, a5⟩, ⟨S40000x64, a6⟩] concatenates_S60000x64_S40000x64_S100000x64_d0) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (concatenate S100000x64 0 [⟨S60000x64, a5⟩, ⟨S40000x64, a6⟩] concatenates_S60000x64_S40000x64_S100000x64_d0) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))))))) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (concatenate S100000x64 0 [⟨S60000x64, a5⟩, ⟨S40000x64, a6⟩] concatenates_S60000x64_S40000x64_S100000x64_d0) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))))))) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a14) (Host.gather gather_S100000x64_S1600000x1_S1600000x64_1_0_n_n_0_1_164 (concatenate S100000x64 0 [⟨S60000x64, a5⟩, ⟨S40000x64, a6⟩] concatenates_S60000x64_S40000x64_S100000x64_d0) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32))))))) (broadcastInDim S1600000x1 ![0] bcast_S1600000_S1600000x1_0 (select (cmpi .slt a13 (broadcastInDim S1600000 ![] bcast_S_S1600000 (constantI S_ 32 0#32))) (addi a13 (broadcastInDim S1600000 ![] bcast_S_S1600000 (constantI S_ 32 100000#32))) a13)))) (broadcastInDim S100000x64 ![0, 1] bcast_S100000x1_S100000x64_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a14) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))))))) (broadcastInDim S100000x64 ![] bcast_S_S100000x64 (constant S_ .f32 0x40800000#32))

/-- The propagated user rows at the batch's user indices (a negative index counted from the end). -/
def ue (a5 : (⟨S60000x64, .f32⟩ : BufTy).Contents (Elt F)) (a6 : (⟨S40000x64, .f32⟩ : BufTy).Contents (Elt F))
    (a13 a14 : (⟨S1600000, .i32⟩ : BufTy).Contents (Elt F)) (a0 : (⟨S8192, .i32⟩ : BufTy).Contents (Elt F)) :
    (⟨S8192x64, .f32⟩ : BufTy).Contents (Elt F) :=
  Host.gather gather_S60000x64_S8192x1_S8192x64_1_0_n_n_0_1_164 (extractStridedSlice S60000x64 ![0, 0] (graph a5 a6 a13 a14) slices_S100000x64_S60000x64_0_0) (broadcastInDim S8192x1 ![0] bcast_S8192_S8192x1_0 (select (cmpi .slt a0 (broadcastInDim S8192 ![] bcast_S_S8192 (constantI S_ 32 0#32))) (addi a0 (broadcastInDim S8192 ![] bcast_S_S8192 (constantI S_ 32 60000#32))) a0))

/-- The propagated item rows at the batch's item indices. -/
def ie (a5 : (⟨S60000x64, .f32⟩ : BufTy).Contents (Elt F)) (a6 : (⟨S40000x64, .f32⟩ : BufTy).Contents (Elt F))
    (a13 a14 : (⟨S1600000, .i32⟩ : BufTy).Contents (Elt F)) (a1 : (⟨S8192, .i32⟩ : BufTy).Contents (Elt F)) :
    (⟨S8192x64, .f32⟩ : BufTy).Contents (Elt F) :=
  Host.gather gather_S40000x64_S8192x1_S8192x64_1_0_n_n_0_1_164 (extractStridedSlice S40000x64 ![60000, 0] (graph a5 a6 a13 a14) slices_S100000x64_S40000x64_60000_0) (broadcastInDim S8192x1 ![0] bcast_S8192_S8192x1_0 (select (cmpi .slt a1 (broadcastInDim S8192 ![] bcast_S_S8192 (constantI S_ 32 0#32))) (addi a1 (broadcastInDim S8192 ![] bcast_S_S8192 (constantI S_ 32 40000#32))) a1))

/-- The user time table's rows at the batch's user indices. -/
def ute (a7 : (⟨S60000x256, .f32⟩ : BufTy).Contents (Elt F)) (a0 : (⟨S8192, .i32⟩ : BufTy).Contents (Elt F)) :
    (⟨S8192x256, .f32⟩ : BufTy).Contents (Elt F) :=
  Host.gather gather_S60000x256_S8192x1_S8192x256_1_0_n_n_0_1_1256 a7 (broadcastInDim S8192x1 ![0] bcast_S8192_S8192x1_0 (select (cmpi .slt a0 (broadcastInDim S8192 ![] bcast_S_S8192 (constantI S_ 32 0#32))) (addi a0 (broadcastInDim S8192 ![] bcast_S_S8192 (constantI S_ 32 60000#32))) a0))

/-- The item time table's rows at the batch's item indices. -/
def ite (a8 : (⟨S40000x256, .f32⟩ : BufTy).Contents (Elt F)) (a1 : (⟨S8192, .i32⟩ : BufTy).Contents (Elt F)) :
    (⟨S8192x256, .f32⟩ : BufTy).Contents (Elt F) :=
  Host.gather gather_S40000x256_S8192x1_S8192x256_1_0_n_n_0_1_1256 a8 (broadcastInDim S8192x1 ![0] bcast_S8192_S8192x1_0 (select (cmpi .slt a1 (broadcastInDim S8192 ![] bcast_S_S8192 (constantI S_ 32 0#32))) (addi a1 (broadcastInDim S8192 ![] bcast_S_S8192 (constantI S_ 32 40000#32))) a1))

/-- The raw user embedding rows at the batch's user indices. -/
def ue0 (a5 : (⟨S60000x64, .f32⟩ : BufTy).Contents (Elt F)) (a0 : (⟨S8192, .i32⟩ : BufTy).Contents (Elt F)) :
    (⟨S8192x64, .f32⟩ : BufTy).Contents (Elt F) :=
  Host.gather gather_S60000x64_S8192x1_S8192x64_1_0_n_n_0_1_164 a5 (broadcastInDim S8192x1 ![0] bcast_S8192_S8192x1_0 (select (cmpi .slt a0 (broadcastInDim S8192 ![] bcast_S_S8192 (constantI S_ 32 0#32))) (addi a0 (broadcastInDim S8192 ![] bcast_S_S8192 (constantI S_ 32 60000#32))) a0))

/-- The raw item embedding rows at the batch's item indices. -/
def ie0 (a6 : (⟨S40000x64, .f32⟩ : BufTy).Contents (Elt F)) (a1 : (⟨S8192, .i32⟩ : BufTy).Contents (Elt F)) :
    (⟨S8192x64, .f32⟩ : BufTy).Contents (Elt F) :=
  Host.gather gather_S40000x64_S8192x1_S8192x64_1_0_n_n_0_1_164 a6 (broadcastInDim S8192x1 ![0] bcast_S8192_S8192x1_0 (select (cmpi .slt a1 (broadcastInDim S8192 ![] bcast_S_S8192 (constantI S_ 32 0#32))) (addi a1 (broadcastInDim S8192 ![] bcast_S_S8192 (constantI S_ 32 40000#32))) a1))

end Cert.HostR

end
-- ==== Proof.RefOut.lean ====
import proofs.«111852_j28475633172831_1_alg».proof.Proof.HostR

/-!
  The reference's three results as functions of its argument arrays: the logistic (spelt 1 / (1 + exp (-x))) of a row's
  dot product; the same of the sum of two dot products with the expanded trends; half the four sums of squares over
  the word of 8192.
-/

noncomputable section

namespace Cert.RefOut

open Cert.ReferenceIdeal Cert.ReferenceIdeal.Gen Cert.HostR Idealize.ShloMosaic Idealize.ShloMosaic.TcCoe Idealize.SL.Sem Idealize.ShloMosaic.StableHlo

variable {F : FTy → Type} [FloatOps F]

/-- The embedding match, one number per batch row. -/
def out0 (a0 a1 : (⟨S8192, .i32⟩ : BufTy).Contents (Elt F)) (a5 : (⟨S60000x64, .f32⟩ : BufTy).Contents (Elt F)) (a6 : (⟨S40000x64, .f32⟩ : BufTy).Contents (Elt F))
    (a13 a14 : (⟨S1600000, .i32⟩ : BufTy).Contents (Elt F)) : (⟨S8192, .f32⟩ : BufTy).Contents (Elt F) :=
  Host.divf (broadcastInDim S8192 ![] bcast_S_S8192 (constant S_ .f32 0x3F800000#32)) (addf (broadcastInDim S8192 ![] bcast_S_S8192 (constant S_ .f32 0x3F800000#32)) (Host.exp (Host.negf (Host.reduceAdd (mulf ((ue a5 a6 a13 a14 a0)) ((ie a5 a6 a13 a14 a1))) (constant S_ .f32 0x00000000#32) reducesTo_S8192x64_S8192_d1 h_S_))))

/-- The time match, one number per batch row. -/
def out1 (a0 a1 : (⟨S8192, .i32⟩ : BufTy).Contents (Elt F)) (a3 a4 : (⟨S8192x128, .f32⟩ : BufTy).Contents (Elt F)) (a7 : (⟨S60000x256, .f32⟩ : BufTy).Contents (Elt F)) (a8 : (⟨S40000x256, .f32⟩ : BufTy).Contents (Elt F))
    (a9 : (⟨S128x32, .f32⟩ : BufTy).Contents (Elt F)) (a10 : (⟨S32, .f32⟩ : BufTy).Contents (Elt F)) (a11 : (⟨S32x128, .f32⟩ : BufTy).Contents (Elt F)) (a12 : (⟨S128, .f32⟩ : BufTy).Contents (Elt F)) : (⟨S8192, .f32⟩ : BufTy).Contents (Elt F) :=
  Host.divf (broadcastInDim S8192 ![] bcast_S_S8192 (constant S_ .f32 0x3F800000#32)) (addf (broadcastInDim S8192 ![] bcast_S_S8192 (constant S_ .f32 0x3F800000#32)) (Host.exp (Host.negf (addf (Host.reduceAdd (mulf ((ute a7 a0)) (concatenate S8192x256 1 [⟨S8192x128, a3⟩, ⟨S8192x128, (addf (Host.dotGeneral dot_S8192x32_S32x128_S8192x128_1_0_0_1_n_n none (maximumf (addf (Host.dotGeneral dot_S8192x128_S128x32_S8192x32_1_0_0_1_n_n none a3 a9) (broadcastInDim S8192x32 ![0, 1] bcast_S1x32_S8192x32_0_1 (broadcastInDim S1x32 ![1] bcast_S32_S1x32_1 a10))) (broadcastInDim S8192x32 ![] bcast_S_S8192x32 (constant S_ .f32 0x00000000#32))) a11) (broadcastInDim S8192x128 ![0, 1] bcast_S1x128_S8192x128_0_1 (broadcastInDim S1x128 ![1] bcast_S128_S1x128_1 a12)))⟩] concatenates_S8192x128_S8192x128_S8192x256_d1)) (constant S_ .f32 0x00000000#32) reducesTo_S8192x256_S8192_d1 h_S_) (Host.reduceAdd (mulf ((ite a8 a1)) (concatenate S8192x256 1 [⟨S8192x128, a4⟩, ⟨S8192x128, (addf (Host.dotGeneral dot_S8192x32_S32x128_S8192x128_1_0_0_1_n_n none (maximumf (addf (Host.dotGeneral dot_S8192x128_S128x32_S8192x32_1_0_0_1_n_n none a4 a9) (broadcastInDim S8192x32 ![0, 1] bcast_S1x32_S8192x32_0_1 (broadcastInDim S1x32 ![1] bcast_S32_S1x32_1 a10))) (broadcastInDim S8192x32 ![] bcast_S_S8192x32 (constant S_ .f32 0x00000000#32))) a11) (broadcastInDim S8192x128 ![0, 1] bcast_S1x128_S8192x128_0_1 (broadcastInDim S1x128 ![1] bcast_S128_S1x128_1 a12)))⟩] concatenates_S8192x128_S8192x128_S8192x256_d1)) (constant S_ .f32 0x00000000#32) reducesTo_S8192x256_S8192_d1 h_S_)))))

/-- The regularizer, one number. -/
def out2 (a0 a1 : (⟨S8192, .i32⟩ : BufTy).Contents (Elt F)) (a5 : (⟨S60000x64, .f32⟩ : BufTy).Contents (Elt F)) (a6 : (⟨S40000x64, .f32⟩ : BufTy).Contents (Elt F))
    (a7 : (⟨S60000x256, .f32⟩ : BufTy).Contents (Elt F)) (a8 : (⟨S40000x256, .f32⟩ : BufTy).Contents (Elt F)) : (⟨S_, .f32⟩ : BufTy).Contents (Elt F) :=
  Host.divf (mulf (constant S_ .f32 0x3F000000#32) (addf (addf (addf (Host.reduceAdd (mulf ((ue0 a5 a0)) ((ue0 a5 a0))) (constant S_ .f32 0x00000000#32) reducesTo_S8192x64_S_d0_1 h_S_) (Host.reduceAdd (mulf ((ie0 a6 a1)) ((ie0 a6 a1))) (constant S_ .f32 0x00000000#32) reducesTo_S8192x64_S_d0_1 h_S_)) (Host.reduceAdd (mulf ((ute a7 a0)) ((ute a7 a0))) (constant S_ .f32 0x00000000#32) reducesTo_S8192x256_S_d0_1 h_S_)) (Host.reduceAdd (mulf ((ite a8 a1)) ((ite a8 a1))) (constant S_ .f32 0x00000000#32) reducesTo_S8192x256_S_d0_1 h_S_))) (constant S_ .f32 0x46000000#32)

end Cert.RefOut

end
-- ==== Proof.Algebra.lean ====
import proofs.«111852_j28475633172831_1_alg».proof.Proof.Spec

/-!
  The one law that joins the two spellings of the regularizer: over the extended reals a nonnegative real factor
  distributes over any finite sum, the 8192 rows are the 8 blocks of 1024 rows, and multiplying by 2⁻¹³ is dividing
  by 8192. No finiteness of the summands is needed.
-/

noncomputable section

open scoped BigOperators

namespace Cert.Alg

open Idealize.ShloMosaic Cert.Spec

/-- The word 0x3F000000 denotes one half. -/
theorem ofBits_half : Ideal.ofBits .f32 0x3F000000#32 = ((1 / 2 : ℝ) : EReal) := by
  simp [Ideal.ofBits, Ideal.ieee, -EReal.coe_mul]; norm_num

/-- The word 0x46000000 denotes 8192. -/
theorem ofBits_8192 : Ideal.ofBits .f32 0x46000000#32 = ((8192 : ℝ) : EReal) := by
  simp [Ideal.ofBits, Ideal.ieee, -EReal.coe_mul]; norm_num

/-- The word 0x39000000 denotes 1 / 8192. -/
theorem ofBits_inv8192 : Ideal.ofBits .f32 0x39000000#32 = ((1 / 8192 : ℝ) : EReal) := by
  simp [Ideal.ofBits, Ideal.ieee, -EReal.coe_mul]; norm_num

/-- The word 0x3F800000 denotes one. -/
theorem ofBits_one : Ideal.ofBits .f32 0x3F800000#32 = 1 := by
  simp [Ideal.ofBits, Ideal.ieee, -EReal.coe_mul]; norm_num

/-- A nonnegative real factor distributes over a finite sum of extended reals. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (EReal.coe_nonneg.mpr hr) (EReal.coe_ne_top r), ih]

/-- A sum over the 8192 rows is the sum over the 8 blocks of the sums over each block's 1024 rows. -/
theorem sum_blocks {M : Type*} [AddCommMonoid M] (f : Fin 8192 → M) :
    ∑ i : Fin 8192, f i = ∑ t : Fin 8, ∑ r : Fin 1024, f (blockRow t r) := by
  calc ∑ i : Fin 8192, f i
      = ∑ p : Fin 8 × Fin 1024, f (finProdFinEquiv (m := 8) (n := 1024) p) :=
        (Equiv.sum_comp (finProdFinEquiv (m := 8) (n := 1024)) f).symm
    _ = ∑ t : Fin 8, ∑ r : Fin 1024, f (finProdFinEquiv (m := 8) (n := 1024) (t, r)) := Fintype.sum_prod_type _
    _ = _ := by
        refine Finset.sum_congr rfl fun t _ => Finset.sum_congr rfl fun r _ => congrArg f (Fin.ext ?_)
        show r.val + 1024 * t.val = 1024 * t.val + r.val
        omega

/-- The whole table's sum of squares is the sum of its eight blocks' sums of squares. -/
theorem sqsum_blocks {m : Nat} (x : Fin 8192 → Fin m → EReal) : sqsum x = ∑ t : Fin 8, blockSq x t := by
  unfold sqsum blockSq
  exact sum_blocks fun i => ∑ k : Fin m, x i k * x i k

/-- The regularizer accumulated block by block is the regularizer as one expression. -/
theorem regBlocked_eq_regWhole (ue0 ie0 : Fin 8192 → Fin 64 → EReal) (ute ite : Fin 8192 → Fin 256 → EReal) :
    regBlocked ue0 ie0 ute ite = regWhole ue0 ie0 ute ite := by
  unfold regBlocked regWhole partialReg
  rw [ofBits_inv8192, ofBits_8192, Ideal.div_coe (by norm_num : (8192 : ℝ) ≠ 0)]
  refine congrArg (· * ((1 / 8192 : ℝ) : EReal)) ?_
  show ∑ t : Fin 8, Ideal.ofBits .f32 0x3F000000#32 * _ = Ideal.ofBits .f32 0x3F000000#32 * _
  rw [ofBits_half, ← coe_mul_sum Finset.univ (1 / 2) (by norm_num)]
  refine congrArg (((1 / 2 : ℝ) : EReal) * ·) ?_
  rw [Finset.sum_add_distrib, Finset.sum_add_distrib, Finset.sum_add_distrib,
    ← sqsum_blocks, ← sqsum_blocks, ← sqsum_blocks, ← sqsum_blocks]

end Cert.Alg

end
-- ==== Proof.HostEq.lean ====
import proofs.«111852_j28475633172831_1_alg».proof.Proof.HostK
import proofs.«111852_j28475633172831_1_alg».proof.Proof.HostR

/-!
  The two programs' spellings of the shared host computations are one function: the kernel program's shapes and
  dimension records and the reference's are the same literals under different names.
-/

noncomputable section

namespace Cert.HostEq

open Idealize.ShloMosaic

variable {F : FTy → Type} [FloatOps F]

theorem graph_eq (a5 : (⟨Cert.KernelIdeal.S60000x64, .f32⟩ : BufTy).Contents (Elt F)) (a6 : (⟨Cert.KernelIdeal.S40000x64, .f32⟩ : BufTy).Contents (Elt F))
    (a13 a14 : (⟨Cert.KernelIdeal.S1600000, .i32⟩ : BufTy).Contents (Elt F)) :
    Cert.HostK.graph (F := F) a5 a6 a13 a14 = Cert.HostR.graph (F := F) a5 a6 a13 a14 := rfl

theorem ue_eq (a5 : (⟨Cert.KernelIdeal.S60000x64, .f32⟩ : BufTy).Contents (Elt F)) (a6 : (⟨Cert.KernelIdeal.S40000x64, .f32⟩ : BufTy).Contents (Elt F))
    (a13 a14 : (⟨Cert.KernelIdeal.S1600000, .i32⟩ : BufTy).Contents (Elt F)) (a0 : (⟨Cert.KernelIdeal.S8192, .i32⟩ : BufTy).Contents (Elt F)) :
    Cert.HostK.ue (F := F) a5 a6 a13 a14 a0 = Cert.HostR.ue (F := F) a5 a6 a13 a14 a0 := rfl

theorem ie_eq (a5 : (⟨Cert.KernelIdeal.S60000x64, .f32⟩ : BufTy).Contents (Elt F)) (a6 : (⟨Cert.KernelIdeal.S40000x64, .f32⟩ : BufTy).Contents (Elt F))
    (a13 a14 : (⟨Cert.KernelIdeal.S1600000, .i32⟩ : BufTy).Contents (Elt F)) (a1 : (⟨Cert.KernelIdeal.S8192, .i32⟩ : BufTy).Contents (Elt F)) :
    Cert.HostK.ie (F := F) a5 a6 a13 a14 a1 = Cert.HostR.ie (F := F) a5 a6 a13 a14 a1 := rfl

theorem ute_eq (a7 : (⟨Cert.KernelIdeal.S60000x256, .f32⟩ : BufTy).Contents (Elt F)) (a0 : (⟨Cert.KernelIdeal.S8192, .i32⟩ : BufTy).Contents (Elt F)) :
    Cert.HostK.ute (F := F) a7 a0 = Cert.HostR.ute (F := F) a7 a0 := rfl

theorem ite_eq (a8 : (⟨Cert.KernelIdeal.S40000x256, .f32⟩ : BufTy).Contents (Elt F)) (a1 : (⟨Cert.KernelIdeal.S8192, .i32⟩ : BufTy).Contents (Elt F)) :
    Cert.HostK.ite (F := F) a8 a1 = Cert.HostR.ite (F := F) a8 a1 := rfl

theorem ue0_eq (a5 : (⟨Cert.KernelIdeal.S60000x64, .f32⟩ : BufTy).Contents (Elt F)) (a0 : (⟨Cert.KernelIdeal.S8192, .i32⟩ : BufTy).Contents (Elt F)) :
    Cert.HostK.ue0 (F := F) a5 a0 = Cert.HostR.ue0 (F := F) a5 a0 := rfl

theorem ie0_eq (a6 : (⟨Cert.KernelIdeal.S40000x64, .f32⟩ : BufTy).Contents (Elt F)) (a1 : (⟨Cert.KernelIdeal.S8192, .i32⟩ : BufTy).Contents (Elt F)) :
    Cert.HostK.ie0 (F := F) a6 a1 = Cert.HostR.ie0 (F := F) a6 a1 := rfl

end Cert.HostEq

end
-- ==== Proof.KRun.lean ====
import proofs.«111852_j28475633172831_1_alg».proof.Proof.Gen.KernelIdeal.Frame
import proofs.«111852_j28475633172831_1_alg».proof.Proof.HostK
import Idealize.ShloMosaic.Lib.StableHlo.Run
import Idealize.ShloMosaic.Lib.Pipeline.Value
import Idealize.ShloMosaic.Lib.ValueIdx

/-!
  The kernel program's host side: its run with the three result buffers named, and what every region finds in
  its arrays when it is entered, as functions of the argument arrays.
-/

set_option maxRecDepth 16384

noncomputable section

namespace Cert.KRun

open Cert.KernelIdeal Cert.KernelIdeal.Gen Idealize.ShloMosaic Idealize.ShloMosaic.TcCoe Idealize.SL.Sem Idealize.ShloMosaic.StableHlo Idealize.ShloMosaic.ValueIdx
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the three result buffers named -/

-- the launch theorem's implicit arguments are found by unifying its conclusion with this one, which takes unfolding
-- plain definitions in a metavariable's type
set_option backward.isDefEq.respectTransparency.types false in
/-- Every weakly fair execution of the program from a memory with zero counters terminates without a fault; in the
    final state the three result buffers hold the fold's last contents and the fifteen argument arrays are as
    launched. -/
theorem run_named : θ_run defs (onTc (τ := τ) (main (F := F))) ⟨m, fun _ => 0, ρ⟩ (fun r => ∀ c : Dev nD,
      r.2.mem ((c.tc : Thread nD τ).loc main_v105) = W8 m ρ c (Proc.devRef .tc main_v105)
      ∧ r.2.mem ((c.tc : Thread nD τ).loc main_v106) = W8 m ρ c (Proc.devRef .tc main_v106)
      ∧ r.2.mem ((c.tc : Thread nD τ).loc main_v107) = W8 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v105 (by decide)),
       h c _ (mem_uc main_v106 (by decide)),
       h c _ (mem_uc main_v107 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

/-! ## The host tail: three reshapes of the last region's three outputs -/

/-- A column `[8192, 1]` reshaped to a vector reads, at `i`, the column's row `i`. -/
theorem tail_v105 (W : Valuation τ sig (Elt F)) (i : Fin 8192) :
    StableHlo.after hostOps3 W (Proc.devRef .tc main_v105) (ix1 i) = W (Proc.devRef .tc main_v104_0) (ix2 i (0 : Fin 1)) := by
  dsimp only [hostOps3]
  after_results
  exact shapeCast_apply _ _ _ _ (by
    show ((⟨2, ![8192, 1]⟩ : Shape).rowMajor (ix2 i (0 : Fin 1))).val = ((⟨1, ![8192]⟩ : Shape).rowMajor (ix1 i)).val
    rw [Shape.rowMajor_val_two, Shape.rowMajor_val_one]
    show i.val * 1 + 0 = i.val
    omega)
theorem tail_v106 (W : Valuation τ sig (Elt F)) (i : Fin 8192) :
    StableHlo.after hostOps3 W (Proc.devRef .tc main_v106) (ix1 i) = W (Proc.devRef .tc main_v104_1) (ix2 i (0 : Fin 1)) := by
  dsimp only [hostOps3]
  after_results
  exact shapeCast_apply _ _ _ _ (by
    show ((⟨2, ![8192, 1]⟩ : Shape).rowMajor (ix2 i (0 : Fin 1))).val = ((⟨1, ![8192]⟩ : Shape).rowMajor (ix1 i)).val
    rw [Shape.rowMajor_val_two, Shape.rowMajor_val_one]
    show i.val * 1 + 0 = i.val
    omega)
/-- A `[1, 1]` array reshaped to a scalar is its one entry. -/
theorem tail_v107 (W : Valuation τ sig (Elt F)) :
    StableHlo.after hostOps3 W (Proc.devRef .tc main_v107) ix0 = W (Proc.devRef .tc main_v104_2) (ix2 (0 : Fin 1) (0 : Fin 1)) := by
  dsimp only [hostOps3]
  after_results
  exact shapeCast_apply _ _ _ _ (by
    show ((⟨2, ![1, 1]⟩ : Shape).rowMajor (ix2 (0 : Fin 1) (0 : Fin 1))).val = ((⟨0, ![]⟩ : Shape).rowMajor ix0).val
    rw [Shape.rowMajor_val_two]
    have h : ((⟨0, ![]⟩ : Shape).rowMajor ix0).val < 1 := ((⟨0, ![]⟩ : Shape).rowMajor ix0).isLt
    show 0 * 1 + 0 = _
    omega)

theorem W8_v105 (c : Dev nD) (i : Fin 8192) :
    W8 m ρ c (Proc.devRef .tc main_v105) (ix1 i) = V7 m ρ c main_v104_0 (ix2 i (0 : Fin 1)) := tail_v105 (W7 m ρ c) i
theorem W8_v106 (c : Dev nD) (i : Fin 8192) :
    W8 m ρ c (Proc.devRef .tc main_v106) (ix1 i) = V7 m ρ c main_v104_1 (ix2 i (0 : Fin 1)) := tail_v106 (W7 m ρ c) i
theorem W8_v107 (c : Dev nD) :
    W8 m ρ c (Proc.devRef .tc main_v107) ix0 = V7 m ρ c main_v104_2 (ix2 (0 : Fin 1) (0 : Fin 1)) := tail_v107 (W7 m ρ c)

/-- The last region's three outputs are its pipeline's write-backs folded over all the grid points. -/
theorem V7_v104_0 (c : Dev nD) : V7 m ρ c main_v104_0 = (dat2 (V6 m ρ) c).arrAt 8 cfg2.N := W7_arr m ρ c 8
theorem V7_v104_1 (c : Dev nD) : V7 m ρ c main_v104_1 = (dat2 (V6 m ρ) c).arrAt 9 cfg2.N := W7_arr m ρ c 9
theorem V7_v104_2 (c : Dev nD) : V7 m ρ c main_v104_2 = (dat2 (V6 m ρ) c).arrAt 10 cfg2.N := W7_arr m ρ c 10

/-! ## The argument arrays through the fold

No host operation writes an argument array, and a region leaves the arrays of its input windows as it found them,
so the fold read at an argument walks back to the launch memory. -/

/-- A buffer that no operation of a literal stretch writes keeps its contents through it: the stretch's writes are
    listed and each compared with the buffer. -/
macro "keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem W2_arg0 (c : Dev nD) : W2 m ρ c (Proc.devRef .tc main_arg0) = m ((c.tc : Thread nD τ).loc main_arg0) :=
  calc W2 m ρ c (Proc.devRef .tc main_arg0)
    _ = W1 m ρ c (Proc.devRef .tc main_arg0) := by keeps hostOps0_1
    _ = W0 m ρ c (Proc.devRef .tc main_arg0) := by keeps hostOps0
    _ = m ((c.tc : Thread nD τ).loc main_arg0) := rfl
theorem W2_arg1 (c : Dev nD) : W2 m ρ c (Proc.devRef .tc main_arg1) = m ((c.tc : Thread nD τ).loc main_arg1) :=
  calc W2 m ρ c (Proc.devRef .tc main_arg1)
    _ = W1 m ρ c (Proc.devRef .tc main_arg1) := by keeps hostOps0_1
    _ = W0 m ρ c (Proc.devRef .tc main_arg1) := by keeps hostOps0
    _ = m ((c.tc : Thread nD τ).loc main_arg1) := rfl
theorem W2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := by keeps hostOps0_1
    _ = W0 m ρ c (Proc.devRef .tc main_arg3) := by keeps hostOps0
    _ = m ((c.tc : Thread nD τ).loc main_arg3) := rfl
theorem W2_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := by keeps hostOps0_1
    _ = W0 m ρ c (Proc.devRef .tc main_arg4) := by keeps hostOps0
    _ = m ((c.tc : Thread nD τ).loc main_arg4) := rfl
theorem W2_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := by keeps hostOps0_1
    _ = W0 m ρ c (Proc.devRef .tc main_arg5) := by keeps hostOps0
    _ = m ((c.tc : Thread nD τ).loc main_arg5) := rfl
theorem W2_arg6 (c : Dev nD) : W2 m ρ c (Proc.devRef .tc main_arg6) = m ((c.tc : Thread nD τ).loc main_arg6) :=
  calc W2 m ρ c (Proc.devRef .tc main_arg6)
    _ = W1 m ρ c (Proc.devRef .tc main_arg6) := by keeps hostOps0_1
    _ = W0 m ρ c (Proc.devRef .tc main_arg6) := by keeps hostOps0
    _ = m ((c.tc : Thread nD τ).loc main_arg6) := rfl
theorem W2_arg7 (c : Dev nD) : W2 m ρ c (Proc.devRef .tc main_arg7) = m ((c.tc : Thread nD τ).loc main_arg7) :=
  calc W2 m ρ c (Proc.devRef .tc main_arg7)
    _ = W1 m ρ c (Proc.devRef .tc main_arg7) := by keeps hostOps0_1
    _ = W0 m ρ c (Proc.devRef .tc main_arg7) := by keeps hostOps0
    _ = m ((c.tc : Thread nD τ).loc main_arg7) := rfl
theorem W2_arg8 (c : Dev nD) : W2 m ρ c (Proc.devRef .tc main_arg8) = m ((c.tc : Thread nD τ).loc main_arg8) :=
  calc W2 m ρ c (Proc.devRef .tc main_arg8)
    _ = W1 m ρ c (Proc.devRef .tc main_arg8) := by keeps hostOps0_1
    _ = W0 m ρ c (Proc.devRef .tc main_arg8) := by keeps hostOps0
    _ = m ((c.tc : Thread nD τ).loc main_arg8) := rfl
theorem W2_arg9 (c : Dev nD) : W2 m ρ c (Proc.devRef .tc main_arg9) = m ((c.tc : Thread nD τ).loc main_arg9) :=
  calc W2 m ρ c (Proc.devRef .tc main_arg9)
    _ = W1 m ρ c (Proc.devRef .tc main_arg9) := by keeps hostOps0_1
    _ = W0 m ρ c (Proc.devRef .tc main_arg9) := by keeps hostOps0
    _ = m ((c.tc : Thread nD τ).loc main_arg9) := rfl
theorem W2_arg10 (c : Dev nD) : W2 m ρ c (Proc.devRef .tc main_arg10) = m ((c.tc : Thread nD τ).loc main_arg10) :=
  calc W2 m ρ c (Proc.devRef .tc main_arg10)
    _ = W1 m ρ c (Proc.devRef .tc main_arg10) := by keeps hostOps0_1
    _ = W0 m ρ c (Proc.devRef .tc main_arg10) := by keeps hostOps0
    _ = m ((c.tc : Thread nD τ).loc main_arg10) := rfl
theorem W2_arg11 (c : Dev nD) : W2 m ρ c (Proc.devRef .tc main_arg11) = m ((c.tc : Thread nD τ).loc main_arg11) :=
  calc W2 m ρ c (Proc.devRef .tc main_arg11)
    _ = W1 m ρ c (Proc.devRef .tc main_arg11) := by keeps hostOps0_1
    _ = W0 m ρ c (Proc.devRef .tc main_arg11) := by keeps hostOps0
    _ = m ((c.tc : Thread nD τ).loc main_arg11) := rfl
theorem W2_arg12 (c : Dev nD) : W2 m ρ c (Proc.devRef .tc main_arg12) = m ((c.tc : Thread nD τ).loc main_arg12) :=
  calc W2 m ρ c (Proc.devRef .tc main_arg12)
    _ = W1 m ρ c (Proc.devRef .tc main_arg12) := by keeps hostOps0_1
    _ = W0 m ρ c (Proc.devRef .tc main_arg12) := by keeps hostOps0
    _ = m ((c.tc : Thread nD τ).loc main_arg12) := rfl
theorem W2_arg13 (c : Dev nD) : W2 m ρ c (Proc.devRef .tc main_arg13) = m ((c.tc : Thread nD τ).loc main_arg13) :=
  calc W2 m ρ c (Proc.devRef .tc main_arg13)
    _ = W1 m ρ c (Proc.devRef .tc main_arg13) := by keeps hostOps0_1
    _ = W0 m ρ c (Proc.devRef .tc main_arg13) := by keeps hostOps0
    _ = m ((c.tc : Thread nD τ).loc main_arg13) := rfl
theorem W2_arg14 (c : Dev nD) : W2 m ρ c (Proc.devRef .tc main_arg14) = m ((c.tc : Thread nD τ).loc main_arg14) :=
  calc W2 m ρ c (Proc.devRef .tc main_arg14)
    _ = W1 m ρ c (Proc.devRef .tc main_arg14) := by keeps hostOps0_1
    _ = W0 m ρ c (Proc.devRef .tc main_arg14) := by keeps hostOps0
    _ = m ((c.tc : Thread nD τ).loc main_arg14) := rfl
theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := by keeps hostOps0_2
    _ = m ((c.tc : Thread nD τ).loc main_arg3) := W2_arg3 m ρ c
theorem W3_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := by keeps hostOps0_2
    _ = m ((c.tc : Thread nD τ).loc main_arg4) := W2_arg4 m ρ c
theorem W3_arg9 (c : Dev nD) : W3 m ρ c (Proc.devRef .tc main_arg9) = m ((c.tc : Thread nD τ).loc main_arg9) :=
  calc W3 m ρ c (Proc.devRef .tc main_arg9)
    _ = W2 m ρ c (Proc.devRef .tc main_arg9) := by keeps hostOps0_2
    _ = m ((c.tc : Thread nD τ).loc main_arg9) := W2_arg9 m ρ c
theorem W3_arg10 (c : Dev nD) : W3 m ρ c (Proc.devRef .tc main_arg10) = m ((c.tc : Thread nD τ).loc main_arg10) :=
  calc W3 m ρ c (Proc.devRef .tc main_arg10)
    _ = W2 m ρ c (Proc.devRef .tc main_arg10) := by keeps hostOps0_2
    _ = m ((c.tc : Thread nD τ).loc main_arg10) := W2_arg10 m ρ c
theorem W3_arg11 (c : Dev nD) : W3 m ρ c (Proc.devRef .tc main_arg11) = m ((c.tc : Thread nD τ).loc main_arg11) :=
  calc W3 m ρ c (Proc.devRef .tc main_arg11)
    _ = W2 m ρ c (Proc.devRef .tc main_arg11) := by keeps hostOps0_2
    _ = m ((c.tc : Thread nD τ).loc main_arg11) := W2_arg11 m ρ c
theorem W3_arg12 (c : Dev nD) : W3 m ρ c (Proc.devRef .tc main_arg12) = m ((c.tc : Thread nD τ).loc main_arg12) :=
  calc W3 m ρ c (Proc.devRef .tc main_arg12)
    _ = W2 m ρ c (Proc.devRef .tc main_arg12) := by keeps hostOps0_2
    _ = m ((c.tc : Thread nD τ).loc main_arg12) := W2_arg12 m ρ c
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg10 (c : Dev nD) : W4 m ρ c (Proc.devRef .tc main_arg10) = m ((c.tc : Thread nD τ).loc main_arg10) :=
  (W4_of_ne m ρ c main_arg10 (by decide)).trans (W3_arg10 m ρ c)
theorem W4_arg12 (c : Dev nD) : W4 m ρ c (Proc.devRef .tc main_arg12) = m ((c.tc : Thread nD τ).loc main_arg12) :=
  (W4_of_ne m ρ c main_arg12 (by decide)).trans (W3_arg12 m ρ c)
theorem W4_arg9 (c : Dev nD) : W4 m ρ c (Proc.devRef .tc main_arg9) = m ((c.tc : Thread nD τ).loc main_arg9) :=
  ((W4_arr m ρ c 1).trans (((dat0 (V3 m ρ) c).arrAt_in 1 rfl _).trans (A_eq0 (V3 m ρ) c 1))).trans (W3_arg9 m ρ c)
theorem W4_arg11 (c : Dev nD) : W4 m ρ c (Proc.devRef .tc main_arg11) = m ((c.tc : Thread nD τ).loc main_arg11) :=
  ((W4_arr m ρ c 3).trans (((dat0 (V3 m ρ) c).arrAt_in 3 rfl _).trans (A_eq0 (V3 m ρ) c 3))).trans (W3_arg11 m ρ c)
theorem W5_arg4 (c : Dev nD) : W5 m ρ c (Proc.devRef .tc main_arg4) = m ((c.tc : Thread nD τ).loc main_arg4) :=
  calc W5 m ρ c (Proc.devRef .tc main_arg4)
    _ = W4 m ρ c (Proc.devRef .tc main_arg4) := by keeps hostOps1
    _ = m ((c.tc : Thread nD τ).loc main_arg4) := W4_arg4 m ρ c
theorem W5_arg9 (c : Dev nD) : W5 m ρ c (Proc.devRef .tc main_arg9) = m ((c.tc : Thread nD τ).loc main_arg9) :=
  calc W5 m ρ c (Proc.devRef .tc main_arg9)
    _ = W4 m ρ c (Proc.devRef .tc main_arg9) := by keeps hostOps1
    _ = m ((c.tc : Thread nD τ).loc main_arg9) := W4_arg9 m ρ c
theorem W5_arg11 (c : Dev nD) : W5 m ρ c (Proc.devRef .tc main_arg11) = m ((c.tc : Thread nD τ).loc main_arg11) :=
  calc W5 m ρ c (Proc.devRef .tc main_arg11)
    _ = W4 m ρ c (Proc.devRef .tc main_arg11) := by keeps hostOps1
    _ = m ((c.tc : Thread nD τ).loc main_arg11) := W4_arg11 m ρ c

/-! ## What the first two regions find in their arrays -/

theorem V3_arg3 (c : Dev nD) : V3 m ρ c main_arg3 = m ((c.tc : Thread nD τ).loc main_arg3) := W3_arg3 m ρ c
theorem V3_arg9 (c : Dev nD) : V3 m ρ c main_arg9 = m ((c.tc : Thread nD τ).loc main_arg9) := W3_arg9 m ρ c
theorem V3_arg11 (c : Dev nD) : V3 m ρ c main_arg11 = m ((c.tc : Thread nD τ).loc main_arg11) := W3_arg11 m ρ c
theorem V5_arg4 (c : Dev nD) : V5 m ρ c main_arg4 = m ((c.tc : Thread nD τ).loc main_arg4) := W5_arg4 m ρ c
theorem V5_arg9 (c : Dev nD) : V5 m ρ c main_arg9 = m ((c.tc : Thread nD τ).loc main_arg9) := W5_arg9 m ρ c
theorem V5_arg11 (c : Dev nD) : V5 m ρ c main_arg11 = m ((c.tc : Thread nD τ).loc main_arg11) := W5_arg11 m ρ c

/-- A vector `[a]` reshaped to one row `[1, a]` reads, at `(0, k)`, the vector's entry `k`. -/
theorem row_of_vec {a : ℕ} {α : Type} (x : (⟨1, ![a]⟩ : Shape).Idx → α) (h : (⟨1, ![a]⟩ : Shape).ShapeCasts ⟨2, ![1, a]⟩) (k : Fin a) :
    shapeCast ⟨2, ![1, a]⟩ x h (ix2 (0 : Fin 1) k) = x (ix1 k) :=
  shapeCast_apply x h _ _ (by
    rw [Shape.rowMajor_val_two, Shape.rowMajor_val_one]
    show k.val = 0 * a + k.val
    omega)

theorem ops1_v101 (W : Valuation τ sig (Elt F)) (k : Fin 32) :
    StableHlo.after hostOps1 W (Proc.devRef .tc main_v101) (ix2 (0 : Fin 1) k) = W (Proc.devRef .tc main_arg10) (ix1 k) := by
  dsimp only [hostOps1]
  after_results
  exact row_of_vec _ _ k
theorem ops1_v102 (W : Valuation τ sig (Elt F)) (j : Fin 128) :
    StableHlo.after hostOps1 W (Proc.devRef .tc main_v102) (ix2 (0 : Fin 1) j) = W (Proc.devRef .tc main_arg12) (ix1 j) := by
  dsimp only [hostOps1]
  after_results
  exact row_of_vec _ _ j
theorem V5_v101 (c : Dev nD) (k : Fin 32) : V5 m ρ c main_v101 (ix2 (0 : Fin 1) k) = m ((c.tc : Thread nD τ).loc main_arg10) (ix1 k) :=
  (ops1_v101 (W4 m ρ c) k).trans (congrFun (W4_arg10 m ρ c) _)
theorem V5_v102 (c : Dev nD) (j : Fin 128) : V5 m ρ c main_v102 (ix2 (0 : Fin 1) j) = m ((c.tc : Thread nD τ).loc main_arg12) (ix1 j) :=
  (ops1_v102 (W4 m ρ c) j).trans (congrFun (W4_arg12 m ρ c) _)

set_option maxHeartbeats 4000000 in
theorem ops02_v98 (W : Valuation τ sig (Elt F)) (k : Fin 32) :
    StableHlo.after hostOps0_2 W (Proc.devRef .tc main_v98) (ix2 (0 : Fin 1) k) = W (Proc.devRef .tc main_arg10) (ix1 k) := by
  dsimp only [hostOps0_2]
  after_results_simp
  exact row_of_vec _ _ k
set_option maxHeartbeats 4000000 in
theorem ops02_v99 (W : Valuation τ sig (Elt F)) (j : Fin 128) :
    StableHlo.after hostOps0_2 W (Proc.devRef .tc main_v99) (ix2 (0 : Fin 1) j) = W (Proc.devRef .tc main_arg12) (ix1 j) := by
  dsimp only [hostOps0_2]
  after_results_simp
  exact row_of_vec _ _ j
theorem V3_v98 (c : Dev nD) (k : Fin 32) : V3 m ρ c main_v98 (ix2 (0 : Fin 1) k) = m ((c.tc : Thread nD τ).loc main_arg10) (ix1 k) :=
  (ops02_v98 (W2 m ρ c) k).trans (congrFun (W2_arg10 m ρ c) _)
theorem V3_v99 (c : Dev nD) (j : Fin 128) : V3 m ρ c main_v99 (ix2 (0 : Fin 1) j) = m ((c.tc : Thread nD τ).loc main_arg12) (ix1 j) :=
  (ops02_v99 (W2 m ρ c) j).trans (congrFun (W2_arg12 m ρ c) _)

/-! ## The first two regions' outputs, as the last region finds them -/

/-- The first region's output array: written by that region only; the second region and the two reshapes between
    them leave it alone. -/
theorem V6_v100 (c : Dev nD) : V6 m ρ c main_v100 = (dat0 (V3 m ρ) c).arrAt 5 cfg0.N :=
  calc W6 m ρ c (Proc.devRef .tc main_v100)
    _ = W5 m ρ c (Proc.devRef .tc main_v100) := W6_of_ne m ρ c main_v100 (by decide)
    _ = W4 m ρ c (Proc.devRef .tc main_v100) := by keeps hostOps1
    _ = (dat0 (V3 m ρ) c).arrAt 5 cfg0.N := W4_arr m ρ c 5
/-- The second region's output array. -/
theorem V6_v103 (c : Dev nD) : V6 m ρ c main_v103 = (dat1 (V5 m ρ) c).arrAt 5 cfg1.N := W6_arr m ρ c 5

end Cert.KRun

end
-- ==== Proof.KHost.lean ====
import proofs.«111852_j28475633172831_1_alg».proof.Proof.KRun

/-!
  What the finalize region finds in its six gathered input arrays: reading the kernel program's host operations
  before the first region — the degree count, the three propagation hops, the division by four, the two slices and the
  six row gathers — gives, for each array, the shared host function of the argument arrays.
-/

set_option maxRecDepth 16384

noncomputable section

namespace Cert.KHost

open Cert.KernelIdeal Cert.KernelIdeal.Gen Cert.KRun Idealize.ShloMosaic Idealize.ShloMosaic.TcCoe Idealize.SL.Sem Idealize.ShloMosaic.StableHlo Idealize.ShloMosaic.ValueIdx

variable {F : FTy → Type} [FloatOps F]

/-- The long host stretch up to and including the propagated table divided by four (52 operations). -/
abbrev opsA : List (HloOp τ sig (Elt F)) := (hostOps0_2 (F := F)).take 52
/-- The rest of it: the two slices, the six gathers and the two bias reshapes (58 operations). -/
abbrev opsB : List (HloOp τ sig (Elt F)) := (hostOps0_2 (F := F)).drop 52

theorem split : (hostOps0_2 : List (HloOp τ sig (Elt F))) = opsA ++ opsB := (List.take_append_drop 52 _).symm

set_option maxHeartbeats 8000000 in
/-- After the first 72 host operations the propagated table is the shared function of the two embedding tables and
    the edge lists. -/
theorem A_v53 (W : Valuation τ sig (Elt F)) :
    StableHlo.after (opsA (F := F)) (StableHlo.after hostOps0_1 (StableHlo.after hostOps0 W)) (Proc.devRef .tc main_v53)
      = Cert.HostK.graph (W (Proc.devRef .tc main_arg5)) (W (Proc.devRef .tc main_arg6)) (W (Proc.devRef .tc main_arg13)) (W (Proc.devRef .tc main_arg14)) := by
  rw [← StableHlo.after_append, ← StableHlo.after_append]
  simp only [opsA, hostOps0, hostOps0_1, hostOps0_2, List.take_succ_cons, List.take_zero, List.cons_append, List.nil_append]
  unfold Cert.HostK.graph
  after_results_simp
  first | rfl | (simp only [TRef.toBuf, TRef.ofBuf, cast_eq]; rfl)

set_option maxHeartbeats 8000000 in
/-- Those operations write none of the batch's index arrays and none of the four tables. -/
theorem A_keep (W : Valuation τ sig (Elt F)) :
    StableHlo.after (opsA (F := F)) (StableHlo.after hostOps0_1 (StableHlo.after hostOps0 W)) (Proc.devRef .tc main_arg0) = W (Proc.devRef .tc main_arg0)
    ∧ StableHlo.after (opsA (F := F)) (StableHlo.after hostOps0_1 (StableHlo.after hostOps0 W)) (Proc.devRef .tc main_arg1) = W (Proc.devRef .tc main_arg1)
    ∧ StableHlo.after (opsA (F := F)) (StableHlo.after hostOps0_1 (StableHlo.after hostOps0 W)) (Proc.devRef .tc main_arg5) = W (Proc.devRef .tc main_arg5)
    ∧ StableHlo.after (opsA (F := F)) (StableHlo.after hostOps0_1 (StableHlo.after hostOps0 W)) (Proc.devRef .tc main_arg6) = W (Proc.devRef .tc main_arg6)
    ∧ StableHlo.after (opsA (F := F)) (StableHlo.after hostOps0_1 (StableHlo.after hostOps0 W)) (Proc.devRef .tc main_arg7) = W (Proc.devRef .tc main_arg7)
    ∧ StableHlo.after (opsA (F := F)) (StableHlo.after hostOps0_1 (StableHlo.after hostOps0 W)) (Proc.devRef .tc main_arg8) = W (Proc.devRef .tc main_arg8) := by
  rw [← StableHlo.after_append, ← StableHlo.after_append]
  simp only [opsA, hostOps0, hostOps0_1, hostOps0_2, List.take_succ_cons, List.take_zero, List.cons_append, List.nil_append]
  refine ⟨?_, ?_, ?_, ?_, ?_, ?_⟩ <;> after_results_simp

set_option maxHeartbeats 8000000 in
/-- The last 58 operations, over any contents: the six gathered arrays from the propagated table, the four tables
    and the two index arrays. -/
theorem B_read (W : Valuation τ sig (Elt F)) :
    StableHlo.after (opsB (F := F)) W (Proc.devRef .tc main_v76) = Host.gather gather_S60000x64_S8192x1_S8192x64_1_0_n_n_0_1_164 (extractStridedSlice S60000x64 ![0, 0] (W (Proc.devRef .tc main_v53) : (⟨S100000x64, .f32⟩ : BufTy).Contents (Elt F)) slices_S100000x64_S60000x64_0_0) (broadcastInDim S8192x1 ![0] bcast_S8192_S8192x1_0 (select (cmpi .slt (W (Proc.devRef .tc main_arg0) : (⟨S8192, .i32⟩ : BufTy).Contents (Elt F)) (broadcastInDim S8192 ![] bcast_S_S8192 (constantI S_ 32 0#32))) (addi (W (Proc.devRef .tc main_arg0) : (⟨S8192, .i32⟩ : BufTy).Contents (Elt F)) (broadcastInDim S8192 ![] bcast_S_S8192 (constantI S_ 32 60000#32))) (W (Proc.devRef .tc main_arg0) : (⟨S8192, .i32⟩ : BufTy).Contents (Elt F))))
    ∧ StableHlo.after (opsB (F := F)) W (Proc.devRef .tc main_v83) = Host.gather gather_S40000x64_S8192x1_S8192x64_1_0_n_n_0_1_164 (extractStridedSlice S40000x64 ![60000, 0] (W (Proc.devRef .tc main_v53) : (⟨S100000x64, .f32⟩ : BufTy).Contents (Elt F)) slices_S100000x64_S40000x64_60000_0) (broadcastInDim S8192x1 ![0] bcast_S8192_S8192x1_0 (select (cmpi .slt (W (Proc.devRef .tc main_arg1) : (⟨S8192, .i32⟩ : BufTy).Contents (Elt F)) (broadcastInDim S8192 ![] bcast_S_S8192 (constantI S_ 32 0#32))) (addi (W (Proc.devRef .tc main_arg1) : (⟨S8192, .i32⟩ : BufTy).Contents (Elt F)) (broadcastInDim S8192 ![] bcast_S_S8192 (constantI S_ 32 40000#32))) (W (Proc.devRef .tc main_arg1) : (⟨S8192, .i32⟩ : BufTy).Contents (Elt F))))
    ∧ StableHlo.after (opsB (F := F)) W (Proc.devRef .tc main_v90) = Host.gather gather_S60000x256_S8192x1_S8192x256_1_0_n_n_0_1_1256 (W (Proc.devRef .tc main_arg7) : (⟨S60000x256, .f32⟩ : BufTy).Contents (Elt F)) (broadcastInDim S8192x1 ![0] bcast_S8192_S8192x1_0 (select (cmpi .slt (W (Proc.devRef .tc main_arg0) : (⟨S8192, .i32⟩ : BufTy).Contents (Elt F)) (broadcastInDim S8192 ![] bcast_S_S8192 (constantI S_ 32 0#32))) (addi (W (Proc.devRef .tc main_arg0) : (⟨S8192, .i32⟩ : BufTy).Contents (Elt F)) (broadcastInDim S8192 ![] bcast_S_S8192 (constantI S_ 32 60000#32))) (W (Proc.devRef .tc main_arg0) : (⟨S8192, .i32⟩ : BufTy).Contents (Elt F))))
    ∧ StableHlo.after (opsB (F := F)) W (Proc.devRef .tc main_v97) = Host.gather gather_S40000x256_S8192x1_S8192x256_1_0_n_n_0_1_1256 (W (Proc.devRef .tc main_arg8) : (⟨S40000x256, .f32⟩ : BufTy).Contents (Elt F)) (broadcastInDim S8192x1 ![0] bcast_S8192_S8192x1_0 (select (cmpi .slt (W (Proc.devRef .tc main_arg1) : (⟨S8192, .i32⟩ : BufTy).Contents (Elt F)) (broadcastInDim S8192 ![] bcast_S_S8192 (constantI S_ 32 0#32))) (addi (W (Proc.devRef .tc main_arg1) : (⟨S8192, .i32⟩ : BufTy).Contents (Elt F)) (broadcastInDim S8192 ![] bcast_S_S8192 (constantI S_ 32 40000#32))) (W (Proc.devRef .tc main_arg1) : (⟨S8192, .i32⟩ : BufTy).Contents (Elt F))))
    ∧ StableHlo.after (opsB (F := F)) W (Proc.devRef .tc main_v62) = Host.gather gather_S60000x64_S8192x1_S8192x64_1_0_n_n_0_1_164 (W (Proc.devRef .tc main_arg5) : (⟨S60000x64, .f32⟩ : BufTy).Contents (Elt F)) (broadcastInDim S8192x1 ![0] bcast_S8192_S8192x1_0 (select (cmpi .slt (W (Proc.devRef .tc main_arg0) : (⟨S8192, .i32⟩ : BufTy).Contents (Elt F)) (broadcastInDim S8192 ![] bcast_S_S8192 (constantI S_ 32 0#32))) (addi (W (Proc.devRef .tc main_arg0) : (⟨S8192, .i32⟩ : BufTy).Contents (Elt F)) (broadcastInDim S8192 ![] bcast_S_S8192 (constantI S_ 32 60000#32))) (W (Proc.devRef .tc main_arg0) : (⟨S8192, .i32⟩ : BufTy).Contents (Elt F))))
    ∧ StableHlo.after (opsB (F := F)) W (Proc.devRef .tc main_v69) = Host.gather gather_S40000x64_S8192x1_S8192x64_1_0_n_n_0_1_164 (W (Proc.devRef .tc main_arg6) : (⟨S40000x64, .f32⟩ : BufTy).Contents (Elt F)) (broadcastInDim S8192x1 ![0] bcast_S8192_S8192x1_0 (select (cmpi .slt (W (Proc.devRef .tc main_arg1) : (⟨S8192, .i32⟩ : BufTy).Contents (Elt F)) (broadcastInDim S8192 ![] bcast_S_S8192 (constantI S_ 32 0#32))) (addi (W (Proc.devRef .tc main_arg1) : (⟨S8192, .i32⟩ : BufTy).Contents (Elt F)) (broadcastInDim S8192 ![] bcast_S_S8192 (constantI S_ 32 40000#32))) (W (Proc.devRef .tc main_arg1) : (⟨S8192, .i32⟩ : BufTy).Contents (Elt F)))) := by
  simp only [opsB, hostOps0_2, List.drop_succ_cons, List.drop_zero]
  refine ⟨?_, ?_, ?_, ?_, ?_, ?_⟩ <;> after_results_simp <;> rfl

variable (m : (ℓ : Loc nD τ sig) → Buf (Elt F) ℓ) (ρ : Dev nD → PrngReg)

/-- Region 0's entry contents, split at the propagated table. -/
theorem W3_eq (c : Dev nD) : W3 m ρ c = StableHlo.after (opsB (F := F)) (StableHlo.after (opsA (F := F)) (StableHlo.after hostOps0_1 (StableHlo.after hostOps0 (W0 m ρ c)))) := by
  show StableHlo.after hostOps0_2 _ = _
  rw [split, StableHlo.after_append]

/-- A buffer none of region 0, the two bias reshapes after it and region 1 writes is, at region 2's entry, what it
    was at region 0's entry. -/
theorem V6_of_W3 (c : Dev nD) (b : Ref sig .tc) (h0 : ∀ w, Pipeline.arrRef spec0 w ≠ b) (h1 : ∀ w, Pipeline.arrRef spec1 w ≠ b)
    (hb101 : b ≠ main_v101) (hb102 : b ≠ main_v102) : V6 m ρ c b = W3 m ρ c (Proc.devRef .tc b) := by
  show W6 m ρ c (Proc.devRef .tc b) = _
  rw [W6_of_ne m ρ c b h1]
  show StableHlo.after hostOps1 (W4 m ρ c) (Proc.devRef .tc b) = _
  rw [show StableHlo.after hostOps1 (W4 m ρ c) (Proc.devRef .tc b) = W4 m ρ c (Proc.devRef .tc b) from by
    refine StableHlo.after_of_forall_not_mem _ _ (List.forall_iff_forall_mem.mp ?_)
    simp only [hostOps1, List.Forall, StableHlo.reshape_writes, Finset.mem_singleton]
    exact ⟨StableHlo.devRef_ne_of_ne hb101, StableHlo.devRef_ne_of_ne hb102⟩]
  exact W4_of_ne m ρ c b h0

theorem V6_v76 (c : Dev nD) : V6 m ρ c main_v76 = Cert.HostK.ue (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg0)) := by
  rw [V6_of_W3 m ρ c main_v76 (by decide) (by decide) (by decide) (by decide), W3_eq, (B_read _).1, A_v53, (A_keep _).1]
  rfl
theorem V6_v83 (c : Dev nD) : V6 m ρ c main_v83 = Cert.HostK.ie (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg1)) := by
  rw [V6_of_W3 m ρ c main_v83 (by decide) (by decide) (by decide) (by decide), W3_eq, (B_read _).2.1, A_v53, (A_keep _).2.1]
  rfl
theorem V6_v90 (c : Dev nD) : V6 m ρ c main_v90 = Cert.HostK.ute (m ((c.tc : Thread nD τ).loc main_arg7)) (m ((c.tc : Thread nD τ).loc main_arg0)) := by
  rw [V6_of_W3 m ρ c main_v90 (by decide) (by decide) (by decide) (by decide), W3_eq, (B_read _).2.2.1, (A_keep _).1, (A_keep _).2.2.2.2.1]
  rfl
theorem V6_v97 (c : Dev nD) : V6 m ρ c main_v97 = Cert.HostK.ite (m ((c.tc : Thread nD τ).loc main_arg8)) (m ((c.tc : Thread nD τ).loc main_arg1)) := by
  rw [V6_of_W3 m ρ c main_v97 (by decide) (by decide) (by decide) (by decide), W3_eq, (B_read _).2.2.2.1, (A_keep _).2.1, (A_keep _).2.2.2.2.2]
  rfl
theorem V6_v62 (c : Dev nD) : V6 m ρ c main_v62 = Cert.HostK.ue0 (m ((c.tc : Thread nD τ).loc main_arg5)) (m ((c.tc : Thread nD τ).loc main_arg0)) := by
  rw [V6_of_W3 m ρ c main_v62 (by decide) (by decide) (by decide) (by decide), W3_eq, (B_read _).2.2.2.2.1, (A_keep _).1, (A_keep _).2.2.1]
  rfl
theorem V6_v69 (c : Dev nD) : V6 m ρ c main_v69 = Cert.HostK.ie0 (m ((c.tc : Thread nD τ).loc main_arg6)) (m ((c.tc : Thread nD τ).loc main_arg1)) := by
  rw [V6_of_W3 m ρ c main_v69 (by decide) (by decide) (by decide) (by decide), W3_eq, (B_read _).2.2.2.2.2, (A_keep _).2.1, (A_keep _).2.2.2.1]
  rfl

end Cert.KHost

end
-- ==== Proof.KMlp0.lean ====
import proofs.«111852_j28475633172831_1_alg».proof.Proof.Gen.KernelIdeal.Frame
import proofs.«111852_j28475633172831_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The value of the first perceptron region: the array its write-backs leave is, index by index, the trend row
  followed by the two-layer perceptron of it (`Cert.Spec.expand`) of the arrays the region finds.

  * the stored payload at row `r`, feature `q` of a block is `∑ₖ max (∑ₗ x r l · W1 l k + b1 k) 0 · W2 k q + b2 q`;
  * the output block holds the trend block in columns 0–127 and the payload in columns 128–255;
  * block `t` of the trend window is rows `2048 t … 2048 t + 2047` of the trend array, the weights are whole;
  * so what point `t` writes back is block `t` of `expand`, and the four blocks cover the 8192 rows.
-/

noncomputable section

open Idealize.ShloMosaic Idealize.ShloMosaic.TcCoe Idealize.SL.Sem Idealize.ShloMosaic.ValueIdx
open Idealize.ShloMosaic.Pipeline (Dat)
open scoped BigOperators

namespace Cert.KMlp0

open Cert.KernelIdeal Cert.KernelIdeal.Gen

/-! ## The two contractions at an index -/

theorem mm1_l0 (i : S2048x32.Idx) (q : dot_S2048x128_S128x32_S2048x32_1_0_0_1_n_n.contr.Idx) : (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem mm1_l1 (i : S2048x32.Idx) (q : dot_S2048x128_S128x32_S2048x32_1_0_0_1_n_n.contr.Idx) : (dot_S2048x128_S128x32_S2048x32_1_0_0_1_n_n.lhsIdx i q 1).val = (q ⟨0, by decide⟩).val :=
  dot_S2048x128_S128x32_S2048x32_1_0_0_1_n_n.lhsIdx_val_of_single rfl i q
theorem mm1_r0 (i : S2048x32.Idx) (q : dot_S2048x128_S128x32_S2048x32_1_0_0_1_n_n.contr.Idx) : (dot_S2048x128_S128x32_S2048x32_1_0_0_1_n_n.rhsIdx i q 0).val = (q ⟨0, by decide⟩).val :=
  dot_S2048x128_S128x32_S2048x32_1_0_0_1_n_n.rhsIdx_val_of_single rfl i q
theorem mm1_r1 (i : S2048x32.Idx) (q : dot_S2048x128_S128x32_S2048x32_1_0_0_1_n_n.contr.Idx) : (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- The first contraction: row `r` of the block against column `c` of the first weight matrix. -/
theorem mm1_apply (a : FVec Ideal S2048x128 .bf16) (b : FVec Ideal S128x32 .bf16) (r : Fin 2048) (c : Fin 32) :
    matmul dot_S2048x128_S128x32_S2048x32_1_0_0_1_n_n none a b (constant (F := Ideal) S2048x32 .f32 0x00000000#32) (ix2 r c)
      = ∑ l : Fin 128, a (ix2 r l) * b (ix2 l c) := by
  refine (Ideal.matmul_constant_zero_apply dot_S2048x128_S128x32_S2048x32_1_0_0_1_n_n none a b (ix2 r c)).trans ?_
  rw [← Equiv.sum_comp (contrEquiv1 dot_S2048x128_S128x32_S2048x32_1_0_0_1_n_n 128 rfl rfl).symm]
  refine Finset.sum_congr rfl fun l _ => ?_
  have hk := contrEquiv1_symm_val dot_S2048x128_S128x32_S2048x32_1_0_0_1_n_n 128 rfl rfl l
  have el : dot_S2048x128_S128x32_S2048x32_1_0_0_1_n_n.lhsIdx (ix2 r c) ((contrEquiv1 dot_S2048x128_S128x32_S2048x32_1_0_0_1_n_n 128 rfl rfl).symm l) = ix2 r l :=
    funext fun d => Fin.ext (by
      match d with
      | ⟨0, _⟩ => exact mm1_l0 _ _
      | ⟨1, _⟩ => exact (mm1_l1 _ _).trans hk)
  have er : dot_S2048x128_S128x32_S2048x32_1_0_0_1_n_n.rhsIdx (ix2 r c) ((contrEquiv1 dot_S2048x128_S128x32_S2048x32_1_0_0_1_n_n 128 rfl rfl).symm l) = ix2 l c :=
    funext fun d => Fin.ext (by
      match d with
      | ⟨0, _⟩ => exact (mm1_r0 _ _).trans hk
      | ⟨1, _⟩ => exact mm1_r1 _ _)
  rw [el, er]

theorem mm2_l0 (i : S2048x128.Idx) (q : dot_S2048x32_S32x128_S2048x128_1_0_0_1_n_n.contr.Idx) : (dot_S2048x32_S32x128_S2048x128_1_0_0_1_n_n.lhsIdx i q 0).val = (i 0).val := by
  unfold DotDims.lhsIdx
  rw [dif_neg (show ¬(0 : Fin S2048x32.rank) ∈ dot_S2048x32_S32x128_S2048x128_1_0_0_1_n_n.lhsBatch by decide), dif_pos (show (0 : Fin S2048x32.rank) ∈ dot_S2048x32_S32x128_S2048x128_1_0_0_1_n_n.lhsNonContracting by decide)]
  rfl
theorem mm2_l1 (i : S2048x128.Idx) (q : dot_S2048x32_S32x128_S2048x128_1_0_0_1_n_n.contr.Idx) : (dot_S2048x32_S32x128_S2048x128_1_0_0_1_n_n.lhsIdx i q 1).val = (q ⟨0, by decide⟩).val :=
  dot_S2048x32_S32x128_S2048x128_1_0_0_1_n_n.lhsIdx_val_of_single rfl i q
theorem mm2_r0 (i : S2048x128.Idx) (q : dot_S2048x32_S32x128_S2048x128_1_0_0_1_n_n.contr.Idx) : (dot_S2048x32_S32x128_S2048x128_1_0_0_1_n_n.rhsIdx i q 0).val = (q ⟨0, by decide⟩).val :=
  dot_S2048x32_S32x128_S2048x128_1_0_0_1_n_n.rhsIdx_val_of_single rfl i q
theorem mm2_r1 (i : S2048x128.Idx) (q : dot_S2048x32_S32x128_S2048x128_1_0_0_1_n_n.contr.Idx) : (dot_S2048x32_S32x128_S2048x128_1_0_0_1_n_n.rhsIdx i q 1).val = (i 1).val := by
  unfold DotDims.rhsIdx
  rw [dif_neg (show ¬(1 : Fin S32x128.rank) ∈ dot_S2048x32_S32x128_S2048x128_1_0_0_1_n_n.rhsBatch by decide), dif_pos (show (1 : Fin S32x128.rank) ∈ dot_S2048x32_S32x128_S2048x128_1_0_0_1_n_n.rhsNonContracting by decide)]
  rfl

/-- The second contraction: row `r` of the hidden layer against column `c` of the second weight matrix. -/
theorem mm2_apply (a : FVec Ideal S2048x32 .bf16) (b : FVec Ideal S32x128 .bf16) (r : Fin 2048) (c : Fin 128) :
    matmul dot_S2048x32_S32x128_S2048x128_1_0_0_1_n_n none a b (constant (F := Ideal) S2048x128 .f32 0x00000000#32) (ix2 r c)
      = ∑ l : Fin 32, a (ix2 r l) * b (ix2 l c) := by
  refine (Ideal.matmul_constant_zero_apply dot_S2048x32_S32x128_S2048x128_1_0_0_1_n_n none a b (ix2 r c)).trans ?_
  rw [← Equiv.sum_comp (contrEquiv1 dot_S2048x32_S32x128_S2048x128_1_0_0_1_n_n 32 rfl rfl).symm]
  refine Finset.sum_congr rfl fun l _ => ?_
  have hk := contrEquiv1_symm_val dot_S2048x32_S32x128_S2048x128_1_0_0_1_n_n 32 rfl rfl l
  have el : dot_S2048x32_S32x128_S2048x128_1_0_0_1_n_n.lhsIdx (ix2 r c) ((contrEquiv1 dot_S2048x32_S32x128_S2048x128_1_0_0_1_n_n 32 rfl rfl).symm l) = ix2 r l :=
    funext fun d => Fin.ext (by
      match d with
      | ⟨0, _⟩ => exact mm2_l0 _ _
      | ⟨1, _⟩ => exact (mm2_l1 _ _).trans hk)
  have er : dot_S2048x32_S32x128_S2048x128_1_0_0_1_n_n.rhsIdx (ix2 r c) ((contrEquiv1 dot_S2048x32_S32x128_S2048x128_1_0_0_1_n_n 32 rfl rfl).symm l) = ix2 l c :=
    funext fun d => Fin.ext (by
      match d with
      | ⟨0, _⟩ => exact (mm2_r0 _ _).trans hk
      | ⟨1, _⟩ => exact mm2_r1 _ _)
  rw [el, er]

/-! ## The payload at an index -/

/-- The value stored in columns 128–255, at row `r`, feature `q`: the two-layer perceptron of row `r` of the block. -/
theorem pay_apply (x0 : Vec Ideal S2048x128 .f32) (x1 : Vec Ideal S128x32 .f32) (x2 : Vec Ideal S1x32 .f32)
    (x3 : Vec Ideal S32x128 .f32) (x4 : Vec Ideal S1x128 .f32) (r : Fin 2048) (q : Fin 128) :
    k0_pay1 (F := Ideal) x0 x1 x2 x3 x4 (ix2 r q)
      = (∑ k : Fin 32, max ((∑ l : Fin 128, x0 (ix2 r l) * x1 (ix2 l k)) + x2 (ix2 (0 : Fin 1) k)) 0 * x3 (ix2 k q))
        + x4 (ix2 (0 : Fin 1) q) := by
  unfold k0_pay1
  refine (addf_apply _ _ (ix2 r q)).trans ?_
  refine congrArg₂ (· + ·) ?_ ?_
  · refine (mm2_apply _ _ r q).trans ?_
    refine Finset.sum_congr rfl fun k _ => ?_
    refine congrArg₂ (· * ·) ?_ rfl
    show max ((matmul dot_S2048x128_S128x32_S2048x32_1_0_0_1_n_n none _ _ (constant (F := Ideal) S2048x32 .f32 0x00000000#32) (ix2 r k))
        + (broadcastTo S2048x32 (shapeCast S1x32 x2 shapeCasts_S1x32_S1x32) broadcasts_S1x32_S2048x32 (ix2 r k))) (Ideal.ofBits .f32 0x00000000#32) = _
    rw [Ideal.ofBits_zero_f32, shapeCast_self]
    refine congrArg₂ max (congrArg₂ (· + ·) ?_ ?_) rfl
    · exact mm1_apply _ _ r k
    · exact broadcastTo_1b_ab_apply x2 broadcasts_S1x32_S2048x32 r k
  · show broadcastTo S2048x128 (shapeCast S1x128 x4 shapeCasts_S1x128_S1x128) broadcasts_S1x128_S2048x128 (ix2 r q) = _
    rw [shapeCast_self]
    exact broadcastTo_1b_ab_apply x4 broadcasts_S1x128_S2048x128 r q

/-! ## The output block at an index -/

theorem zeros2 : (![0, 0] : Fin 2 → Nat) = fun _ => 0 := funext fun a => by
  match a with
  | ⟨0, _⟩ => rfl
  | ⟨1, _⟩ => rfl

/-- Row `r`, column `j` of the left half of the block is the image of `(r, j)` under the first store's rectangle. -/
theorem emb_left (r : Fin 2048) (j : Fin 128) (hj : j.val < 256) :
    r0_5.emb (ix2 r j) = (ix2 r (⟨j.val, hj⟩ : Fin 256) : S2048x256.Idx) := by
  funext a
  refine Fin.ext ?_
  match a with
  | ⟨0, _⟩ => show 0 + 1 * r.val = r.val; omega
  | ⟨1, _⟩ => show 0 + 1 * j.val = j.val; omega

/-- Row `r`, column `128 + j` of the block is the image of `(r, j)` under the second store's rectangle. -/
theorem emb_right (r : Fin 2048) (j : Fin 128) (hj : 128 + j.val < 256) :
    r0_6.emb (ix2 r j) = (ix2 r (⟨128 + j.val, hj⟩ : Fin 256) : S2048x256.Idx) := by
  funext a
  refine Fin.ext ?_
  match a with
  | ⟨0, _⟩ => show 0 + 1 * r.val = r.val; omega
  | ⟨1, _⟩ => show 128 + 1 * j.val = 128 + j.val; omega

/-- A column below 128 is outside the second store's rectangle. -/
theorem not_mem_right (r : Fin 2048) (j : Fin 256) (hj : j.val < 128) : (ix2 r j : S2048x256.Idx) ∉ r0_6.set := by
  rw [Rect.mem_set_unit]
  intro h
  have h1 := h ⟨1, Nat.one_lt_two⟩
  have e1 : ((ix2 r j : S2048x256.Idx) ⟨1, Nat.one_lt_two⟩ : ℕ) = j.val := rfl
  have e2 : (![0, 128] : Fin 2 → ℕ) ⟨1, Nat.one_lt_two⟩ = 128 := rfl
  rw [e1, e2] at h1
  omega

/-- Two stores side by side, the right half's last, read back: the first store's value in columns 0–127, the second's in
    columns 128–255. -/
theorem canon_two (p1 p0 : Vec Ideal S2048x128 .f32) (r : Fin 2048) (j : Fin 256) :
    View.canon ([⟨r0_6, p1⟩, ⟨r0_5, p0⟩] : List (View.Piece (Elt Ideal) S2048x256 .f32)) (ix2 r j)
      = if h : j.val < 128 then p0 (ix2 r (⟨j.val, h⟩ : Fin 128)) else p1 (ix2 r (⟨j.val - 128, by omega⟩ : Fin 128)) := by
  by_cases h : j.val < 128
  · rw [dif_pos h]
    refine (View.canon_cons_of_not_mem (⟨r0_6, p1⟩ : View.Piece (Elt Ideal) S2048x256 .f32) [⟨r0_5, p0⟩] (not_mem_right r j h)).trans ?_
    have e := emb_left r ⟨j.val, h⟩ j.isLt
    have ej : (ix2 r j : S2048x256.Idx) = ix2 r (⟨j.val, j.isLt⟩ : Fin 256) := rfl
    rw [ej, ← e]
    exact View.canon_cons_emb r0_5 p0 [] (ix2 r ⟨j.val, h⟩)
  · rw [dif_neg h]
    have e := emb_right r ⟨j.val - 128, by omega⟩ (by show 128 + (j.val - 128) < 256; omega)
    have ej : (ix2 r j : S2048x256.Idx) = ix2 r (⟨128 + (j.val - 128), by omega⟩ : Fin 256) :=
      congrArg (ix2 r) (Fin.ext (by show j.val = 128 + (j.val - 128); omega))
    rw [ej, ← e]
    exact View.canon_cons_emb r0_6 p1 [⟨r0_5, p0⟩] (ix2 r ⟨j.val - 128, by omega⟩)

/-- What the body leaves in the output block: the trend block in columns 0–127, the perceptron of it in columns 128–255. -/
theorem out_apply (x0 : Vec Ideal S2048x128 .f32) (x1 : Vec Ideal S128x32 .f32) (x2 : Vec Ideal S1x32 .f32)
    (x3 : Vec Ideal S32x128 .f32) (x4 : Vec Ideal S1x128 .f32) (r : Fin 2048) (j : Fin 256) :
    out0_5 (F := Ideal) x0 x1 x2 x3 x4 (ix2 r j)
      = if h : j.val < 128 then x0 (ix2 r (⟨j.val, h⟩ : Fin 128))
        else k0_pay1 (F := Ideal) x0 x1 x2 x3 x4 (ix2 r (⟨j.val - 128, by omega⟩ : Fin 128)) := by
  unfold out0_5
  simp only [View.ld_unit_zero (S := S2048x128) zeros2, View.ld_unit_zero (S := S128x32) zeros2, View.ld_unit_zero (S := S1x32) zeros2,
    View.ld_unit_zero (S := S32x128) zeros2, View.ld_unit_zero (S := S1x128) zeros2]
  exact canon_two _ x0 r j

/-! ## The windows' blocks as rows of the arrays -/

/-- The printed index maps, decided once over the grid: the trend window and the output window move down the rows with the
    point, the weights and biases stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Block `t` of the trend window is rows `2048 t … 2048 t + 2047` of the trend array. -/
theorem iblk_trend (c : Dev nD) (t : Fin cfg0.N) (r : Fin 2048) (l : Fin 128) (hr : 2048 * t.val + r.val < 8192) :
    (iblk0 (F := Ideal) V c 0 t : Vec Ideal S2048x128 .f32) (ix2 r l)
      = (V c main_arg3 : S8192x128.Idx → EReal) (ix2 (⟨2048 * t.val + r.val, hr⟩ : Fin 8192) l) := by
  obtain ⟨h0, h1, -⟩ := idx_facts t
  unfold iblk0
  rw [View.read_apply]
  show (V c main_arg3 : S8192x128.Idx → EReal) _ = _
  refine congrArg (V c main_arg3 : S8192x128.Idx → EReal) (funext fun a => Fin.ext ?_)
  match a with
  | ⟨0, _⟩ => show win0_0.index t (0 : Fin 2) * 2048 + 1 * r.val = 2048 * t.val + r.val; rw [h0]; omega
  | ⟨1, _⟩ => show win0_0.index t (1 : Fin 2) * 128 + 1 * l.val = l.val; rw [h1]; omega

/-- The first weight matrix's one block is the whole matrix. -/
theorem iblk_w1 (c : Dev nD) (t : Fin cfg0.N) (l : Fin 128) (k : Fin 32) :
    (iblk0 (F := Ideal) V c 1 t : Vec Ideal S128x32 .f32) (ix2 l k) = (V c main_arg9 : S128x32.Idx → EReal) (ix2 l k) := by
  obtain ⟨-, -, h0, h1, -⟩ := idx_facts t
  unfold iblk0
  rw [View.read_apply]
  show (V c main_arg9 : S128x32.Idx → EReal) _ = _
  refine congrArg (V c main_arg9 : S128x32.Idx → EReal) (funext fun a => Fin.ext ?_)
  match a with
  | ⟨0, _⟩ => show win0_1.index t (0 : Fin 2) * 128 + 1 * l.val = l.val; rw [h0]; omega
  | ⟨1, _⟩ => show win0_1.index t (1 : Fin 2) * 32 + 1 * k.val = k.val; rw [h1]; omega

/-- The first bias row's one block is the whole row. -/
theorem iblk_b1 (c : Dev nD) (t : Fin cfg0.N) (k : Fin 32) :
    (iblk0 (F := Ideal) V c 2 t : Vec Ideal S1x32 .f32) (ix2 (0 : Fin 1) k) = (V c main_v98 : S1x32.Idx → EReal) (ix2 (0 : Fin 1) k) := by
  obtain ⟨-, -, -, -, h0, h1, -⟩ := idx_facts t
  unfold iblk0
  rw [View.read_apply]
  show (V c main_v98 : S1x32.Idx → EReal) _ = _
  refine congrArg (V c main_v98 : S1x32.Idx → EReal) (funext fun a => Fin.ext ?_)
  match a with
  | ⟨0, _⟩ => show win0_2.index t (0 : Fin 2) * 1 + 1 * 0 = 0; rw [h0]
  | ⟨1, _⟩ => show win0_2.index t (1 : Fin 2) * 32 + 1 * k.val = k.val; rw [h1]; omega

/-- The second weight matrix's one block is the whole matrix. -/
theorem iblk_w2 (c : Dev nD) (t : Fin cfg0.N) (k : Fin 32) (q : Fin 128) :
    (iblk0 (F := Ideal) V c 3 t : Vec Ideal S32x128 .f32) (ix2 k q) = (V c main_arg11 : S32x128.Idx → EReal) (ix2 k q) := by
  obtain ⟨-, -, -, -, -, -, h0, h1, -⟩ := idx_facts t
  unfold iblk0
  rw [View.read_apply]
  show (V c main_arg11 : S32x128.Idx → EReal) _ = _
  refine congrArg (V c main_arg11 : S32x128.Idx → EReal) (funext fun a => Fin.ext ?_)
  match a with
  | ⟨0, _⟩ => show win0_3.index t (0 : Fin 2) * 32 + 1 * k.val = k.val; rw [h0]; omega
  | ⟨1, _⟩ => show win0_3.index t (1 : Fin 2) * 128 + 1 * q.val = q.val; rw [h1]; omega

/-- The second bias row's one block is the whole row. -/
theorem iblk_b2 (c : Dev nD) (t : Fin cfg0.N) (q : Fin 128) :
    (iblk0 (F := Ideal) V c 4 t : Vec Ideal S1x128 .f32) (ix2 (0 : Fin 1) q) = (V c main_v99 : S1x128.Idx → EReal) (ix2 (0 : Fin 1) q) := by
  obtain ⟨-, -, -, -, -, -, -, -, h0, h1, -⟩ := idx_facts t
  unfold iblk0
  rw [View.read_apply]
  show (V c main_v99 : S1x128.Idx → EReal) _ = _
  refine congrArg (V c main_v99 : S1x128.Idx → EReal) (funext fun a => Fin.ext ?_)
  match a with
  | ⟨0, _⟩ => show win0_4.index t (0 : Fin 2) * 1 + 1 * 0 = 0; rw [h0]
  | ⟨1, _⟩ => show win0_4.index t (1 : Fin 2) * 128 + 1 * q.val = q.val; rw [h1]; omega

/-! ## What a point writes back -/

/-- The output block over blocks that are rows of arrays: row `r` of the block, whose trend row is row `i` of the trend
    array `T`, is row `i` of the expanded trend. -/
theorem block_eq (x0 : Vec Ideal S2048x128 .f32) (x1 : Vec Ideal S128x32 .f32) (x2 : Vec Ideal S1x32 .f32)
    (x3 : Vec Ideal S32x128 .f32) (x4 : Vec Ideal S1x128 .f32)
    (T : Fin 8192 → Fin 128 → EReal) (W1 : Fin 128 → Fin 32 → EReal) (b1 : Fin 32 → EReal)
    (W2 : Fin 32 → Fin 128 → EReal) (b2 : Fin 128 → EReal) (i : Fin 8192) (r : Fin 2048)
    (h0 : ∀ l, x0 (ix2 r l) = T i l) (h1 : ∀ l k, x1 (ix2 l k) = W1 l k) (h2 : ∀ k, x2 (ix2 (0 : Fin 1) k) = b1 k)
    (h3 : ∀ k q, x3 (ix2 k q) = W2 k q) (h4 : ∀ q, x4 (ix2 (0 : Fin 1) q) = b2 q) (j : Fin 256) :
    out0_5 (F := Ideal) x0 x1 x2 x3 x4 (ix2 r j) = Cert.Spec.expand T W1 b1 W2 b2 i j := by
  rw [out_apply]
  unfold Cert.Spec.expand
  by_cases h : j.val < 128
  · rw [dif_pos h, dif_pos h]; exact h0 _
  · rw [dif_neg h, dif_neg h, pay_apply]
    unfold Cert.Spec.mlp Cert.Spec.hidden
    simp only [h0, h1, h2, h3, h4]

/-- The array the region leaves: the expanded trend of the arrays it finds, index by index. -/
def G (c : Dev nD) : S8192x256.Idx → EReal := fun y =>
  Cert.Spec.expand (fun a l => V c main_arg3 (ix2 a l)) (fun l k => V c main_arg9 (ix2 l k)) (fun k => V c main_v98 (ix2 (0 : Fin 1) k))
    (fun k j => V c main_arg11 (ix2 k j)) (fun j => V c main_v99 (ix2 (0 : Fin 1) j)) ⟨(y 0).val, idx2_lt0 y⟩ ⟨(y 1).val, idx2_lt1 y⟩

/-- What point `t` writes back is block `t` of that array. -/
theorem flushed_eq (c : Dev nD) (t : Fin cfg0.N) :
    (dat0 (F := Ideal) V c).flushed 5 t = ((cfg0.win 5).blk t).view.read (Elt Ideal) (G V c) := by
  have hN : grid0.N = 4 := N_0
  have ht : t.val < 4 := by have h : t.val < grid0.N := t.isLt; omega
  obtain ⟨-, -, -, -, -, -, -, -, -, -, h50, h51⟩ := idx_facts t
  show (cfg0.win 5).cut (grid0.coords t) ((dat0 V c).after 5 t) = _
  rw [after0_5]
  funext y
  obtain ⟨r, j, rfl⟩ : ∃ (r : Fin 2048) (j : Fin 256), y = ix2 r j := ⟨y 0, y 1, eq_ix2 y⟩
  rw [View.read_apply]
  have hr : 2048 * t.val + r.val < 8192 := by have := r.isLt; omega
  have hemb : ((cfg0.win 5).blk t).view.emb (ix2 r j) = (ix2 (⟨2048 * t.val + r.val, hr⟩ : Fin 8192) j : S8192x256.Idx) :=
    funext fun a => Fin.ext (by
      match a with
      | ⟨0, _⟩ => show win0_5.index t (0 : Fin 2) * 2048 + 1 * r.val = 2048 * t.val + r.val; rw [h50]; omega
      | ⟨1, _⟩ => show win0_5.index t (1 : Fin 2) * 256 + 1 * j.val = j.val; rw [h51]; omega)
  refine Eq.trans ?_ (congrArg (G V c) hemb).symm
  show out0_5 (iblk0 V c 0 t) (iblk0 V c 1 t) (iblk0 V c 2 t) (iblk0 V c 3 t) (iblk0 V c 4 t) (ix2 r j) = _
  exact block_eq (iblk0 V c 0 t) (iblk0 V c 1 t) (iblk0 V c 2 t) (iblk0 V c 3 t) (iblk0 V c 4 t)
    (fun a l => V c main_arg3 (ix2 a l)) (fun l k => V c main_arg9 (ix2 l k)) (fun k => V c main_v98 (ix2 (0 : Fin 1) k))
    (fun k j => V c main_arg11 (ix2 k j)) (fun j => V c main_v99 (ix2 (0 : Fin 1) j)) ⟨2048 * t.val + r.val, hr⟩ r
    (fun l => iblk_trend V c t r l hr) (fun l k => iblk_w1 V c t l k) (fun k => iblk_b1 V c t k)
    (fun k q => iblk_w2 V c t k q) (fun q => iblk_b2 V c t q) j

/-! ## The cover, and the array after the run -/

/-- An index of the array is in point `t`'s block iff each coordinate is in the block's range on its axis. -/
theorem mem_blk (t : Fin cfg0.N) (i : S8192x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v100).slice (win0_5.rect t)).set ↔ _
  rw [View.set_slice_whole, Rect.mem_set_unit]
  exact Iff.rfl

/-- Row `i` is in the block of point `i / 2048`, and every point writes back. -/
theorem cover (i : S8192x256.Idx) : ∃ t : Fin cfg0.N, (cfg0.win 5).flush t = true ∧ i ∈ ((cfg0.win 5).blk t).view.set := by
  have hN : grid0.N = 4 := N_0
  have hi0 : (i 0).val < 8192 := idx2_lt0 i
  have hi1 : (i 1).val < 256 := idx2_lt1 i
  have htN : (i 0).val / 2048 < cfg0.N := by show (i 0).val / 2048 < grid0.N; omega
  obtain ⟨-, -, -, -, -, -, -, -, -, -, h50, h51⟩ := idx_facts ⟨(i 0).val / 2048, htN⟩
  refine ⟨⟨(i 0).val / 2048, htN⟩, flush0_5 _, ?_⟩
  rw [mem_blk]
  intro a
  match a with
  | ⟨0, _⟩ =>
    show win0_5.index ⟨(i 0).val / 2048, htN⟩ (0 : Fin 2) * 2048 ≤ (i 0).val ∧ (i 0).val < win0_5.index ⟨(i 0).val / 2048, htN⟩ (0 : Fin 2) * 2048 + 2048
    rw [h50]; show (i 0).val / 2048 * 2048 ≤ (i 0).val ∧ (i 0).val < (i 0).val / 2048 * 2048 + 2048; omega
  | ⟨1, _⟩ =>
    show win0_5.index ⟨(i 0).val / 2048, htN⟩ (1 : Fin 2) * 256 ≤ (i 1).val ∧ (i 1).val < win0_5.index ⟨(i 0).val / 2048, htN⟩ (1 : Fin 2) * 256 + 256
    rw [h51]; omega

/-- THE ARRAY after the region: the expanded trend of the arrays the region finds. -/
theorem final (c : Dev nD) (i : Fin 8192) (j : Fin 256) :
    (dat0 (F := Ideal) V c).arrAt 5 cfg0.N (ix2 i j)
      = Cert.Spec.expand (fun a l => V c main_arg3 (ix2 a l)) (fun l k => V c main_arg9 (ix2 l k)) (fun k => V c main_v98 (ix2 (0 : Fin 1) k))
          (fun k j => V c main_arg11 (ix2 k j)) (fun j => V c main_v99 (ix2 (0 : Fin 1) j)) i j :=
  congrFun ((dat0 (F := Ideal) V c).arrAt_eq_of_cover 5 (G V c) (fun t _ => flushed_eq V c t) cover) (ix2 i j)

end Cert.KMlp0

end
-- ==== Proof.KMlp1.lean ====
import proofs.«111852_j28475633172831_1_alg».proof.Proof.Gen.KernelIdeal.Frame
import proofs.«111852_j28475633172831_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The value of the second perceptron region: the array its write-backs leave is, index by index, the trend row
  followed by the two-layer perceptron of it (`Cert.Spec.expand`) of the arrays the region finds.

  * the stored payload at row `r`, feature `q` of a block is `∑ₖ max (∑ₗ x r l · W1 l k + b1 k) 0 · W2 k q + b2 q`;
  * the output block holds the trend block in columns 0–127 and the payload in columns 128–255;
  * block `t` of the trend window is rows `2048 t … 2048 t + 2047` of the trend array, the weights are whole;
  * so what point `t` writes back is block `t` of `expand`, and the four blocks cover the 8192 rows.
-/

noncomputable section

open Idealize.ShloMosaic Idealize.ShloMosaic.TcCoe Idealize.SL.Sem Idealize.ShloMosaic.ValueIdx
open Idealize.ShloMosaic.Pipeline (Dat)
open scoped BigOperators

namespace Cert.KMlp1

open Cert.KernelIdeal Cert.KernelIdeal.Gen

/-! ## The two contractions at an index -/

theorem mm1_l0 (i : S2048x32.Idx) (q : dot_S2048x128_S128x32_S2048x32_1_0_0_1_n_n.contr.Idx) : (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem mm1_l1 (i : S2048x32.Idx) (q : dot_S2048x128_S128x32_S2048x32_1_0_0_1_n_n.contr.Idx) : (dot_S2048x128_S128x32_S2048x32_1_0_0_1_n_n.lhsIdx i q 1).val = (q ⟨0, by decide⟩).val :=
  dot_S2048x128_S128x32_S2048x32_1_0_0_1_n_n.lhsIdx_val_of_single rfl i q
theorem mm1_r0 (i : S2048x32.Idx) (q : dot_S2048x128_S128x32_S2048x32_1_0_0_1_n_n.contr.Idx) : (dot_S2048x128_S128x32_S2048x32_1_0_0_1_n_n.rhsIdx i q 0).val = (q ⟨0, by decide⟩).val :=
  dot_S2048x128_S128x32_S2048x32_1_0_0_1_n_n.rhsIdx_val_of_single rfl i q
theorem mm1_r1 (i : S2048x32.Idx) (q : dot_S2048x128_S128x32_S2048x32_1_0_0_1_n_n.contr.Idx) : (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- The first contraction: row `r` of the block against column `c` of the first weight matrix. -/
theorem mm1_apply (a : FVec Ideal S2048x128 .bf16) (b : FVec Ideal S128x32 .bf16) (r : Fin 2048) (c : Fin 32) :
    matmul dot_S2048x128_S128x32_S2048x32_1_0_0_1_n_n none a b (constant (F := Ideal) S2048x32 .f32 0x00000000#32) (ix2 r c)
      = ∑ l : Fin 128, a (ix2 r l) * b (ix2 l c) := by
  refine (Ideal.matmul_constant_zero_apply dot_S2048x128_S128x32_S2048x32_1_0_0_1_n_n none a b (ix2 r c)).trans ?_
  rw [← Equiv.sum_comp (contrEquiv1 dot_S2048x128_S128x32_S2048x32_1_0_0_1_n_n 128 rfl rfl).symm]
  refine Finset.sum_congr rfl fun l _ => ?_
  have hk := contrEquiv1_symm_val dot_S2048x128_S128x32_S2048x32_1_0_0_1_n_n 128 rfl rfl l
  have el : dot_S2048x128_S128x32_S2048x32_1_0_0_1_n_n.lhsIdx (ix2 r c) ((contrEquiv1 dot_S2048x128_S128x32_S2048x32_1_0_0_1_n_n 128 rfl rfl).symm l) = ix2 r l :=
    funext fun d => Fin.ext (by
      match d with
      | ⟨0, _⟩ => exact mm1_l0 _ _
      | ⟨1, _⟩ => exact (mm1_l1 _ _).trans hk)
  have er : dot_S2048x128_S128x32_S2048x32_1_0_0_1_n_n.rhsIdx (ix2 r c) ((contrEquiv1 dot_S2048x128_S128x32_S2048x32_1_0_0_1_n_n 128 rfl rfl).symm l) = ix2 l c :=
    funext fun d => Fin.ext (by
      match d with
      | ⟨0, _⟩ => exact (mm1_r0 _ _).trans hk
      | ⟨1, _⟩ => exact mm1_r1 _ _)
  rw [el, er]

theorem mm2_l0 (i : S2048x128.Idx) (q : dot_S2048x32_S32x128_S2048x128_1_0_0_1_n_n.contr.Idx) : (dot_S2048x32_S32x128_S2048x128_1_0_0_1_n_n.lhsIdx i q 0).val = (i 0).val := by
  unfold DotDims.lhsIdx
  rw [dif_neg (show ¬(0 : Fin S2048x32.rank) ∈ dot_S2048x32_S32x128_S2048x128_1_0_0_1_n_n.lhsBatch by decide), dif_pos (show (0 : Fin S2048x32.rank) ∈ dot_S2048x32_S32x128_S2048x128_1_0_0_1_n_n.lhsNonContracting by decide)]
  rfl
theorem mm2_l1 (i : S2048x128.Idx) (q : dot_S2048x32_S32x128_S2048x128_1_0_0_1_n_n.contr.Idx) : (dot_S2048x32_S32x128_S2048x128_1_0_0_1_n_n.lhsIdx i q 1).val = (q ⟨0, by decide⟩).val :=
  dot_S2048x32_S32x128_S2048x128_1_0_0_1_n_n.lhsIdx_val_of_single rfl i q
theorem mm2_r0 (i : S2048x128.Idx) (q : dot_S2048x32_S32x128_S2048x128_1_0_0_1_n_n.contr.Idx) : (dot_S2048x32_S32x128_S2048x128_1_0_0_1_n_n.rhsIdx i q 0).val = (q ⟨0, by decide⟩).val :=
  dot_S2048x32_S32x128_S2048x128_1_0_0_1_n_n.rhsIdx_val_of_single rfl i q
theorem mm2_r1 (i : S2048x128.Idx) (q : dot_S2048x32_S32x128_S2048x128_1_0_0_1_n_n.contr.Idx) : (dot_S2048x32_S32x128_S2048x128_1_0_0_1_n_n.rhsIdx i q 1).val = (i 1).val := by
  unfold DotDims.rhsIdx
  rw [dif_neg (show ¬(1 : Fin S32x128.rank) ∈ dot_S2048x32_S32x128_S2048x128_1_0_0_1_n_n.rhsBatch by decide), dif_pos (show (1 : Fin S32x128.rank) ∈ dot_S2048x32_S32x128_S2048x128_1_0_0_1_n_n.rhsNonContracting by decide)]
  rfl

/-- The second contraction: row `r` of the hidden layer against column `c` of the second weight matrix. -/
theorem mm2_apply (a : FVec Ideal S2048x32 .bf16) (b : FVec Ideal S32x128 .bf16) (r : Fin 2048) (c : Fin 128) :
    matmul dot_S2048x32_S32x128_S2048x128_1_0_0_1_n_n none a b (constant (F := Ideal) S2048x128 .f32 0x00000000#32) (ix2 r c)
      = ∑ l : Fin 32, a (ix2 r l) * b (ix2 l c) := by
  refine (Ideal.matmul_constant_zero_apply dot_S2048x32_S32x128_S2048x128_1_0_0_1_n_n none a b (ix2 r c)).trans ?_
  rw [← Equiv.sum_comp (contrEquiv1 dot_S2048x32_S32x128_S2048x128_1_0_0_1_n_n 32 rfl rfl).symm]
  refine Finset.sum_congr rfl fun l _ => ?_
  have hk := contrEquiv1_symm_val dot_S2048x32_S32x128_S2048x128_1_0_0_1_n_n 32 rfl rfl l
  have el : dot_S2048x32_S32x128_S2048x128_1_0_0_1_n_n.lhsIdx (ix2 r c) ((contrEquiv1 dot_S2048x32_S32x128_S2048x128_1_0_0_1_n_n 32 rfl rfl).symm l) = ix2 r l :=
    funext fun d => Fin.ext (by
      match d with
      | ⟨0, _⟩ => exact mm2_l0 _ _
      | ⟨1, _⟩ => exact (mm2_l1 _ _).trans hk)
  have er : dot_S2048x32_S32x128_S2048x128_1_0_0_1_n_n.rhsIdx (ix2 r c) ((contrEquiv1 dot_S2048x32_S32x128_S2048x128_1_0_0_1_n_n 32 rfl rfl).symm l) = ix2 l c :=
    funext fun d => Fin.ext (by
      match d with
      | ⟨0, _⟩ => exact (mm2_r0 _ _).trans hk
      | ⟨1, _⟩ => exact mm2_r1 _ _)
  rw [el, er]

/-! ## The payload at an index -/

/-- The value stored in columns 128–255, at row `r`, feature `q`: the two-layer perceptron of row `r` of the block. -/
theorem pay_apply (x0 : Vec Ideal S2048x128 .f32) (x1 : Vec Ideal S128x32 .f32) (x2 : Vec Ideal S1x32 .f32)
    (x3 : Vec Ideal S32x128 .f32) (x4 : Vec Ideal S1x128 .f32) (r : Fin 2048) (q : Fin 128) :
    k1_pay1 (F := Ideal) x0 x1 x2 x3 x4 (ix2 r q)
      = (∑ k : Fin 32, max ((∑ l : Fin 128, x0 (ix2 r l) * x1 (ix2 l k)) + x2 (ix2 (0 : Fin 1) k)) 0 * x3 (ix2 k q))
        + x4 (ix2 (0 : Fin 1) q) := by
  unfold k1_pay1
  refine (addf_apply _ _ (ix2 r q)).trans ?_
  refine congrArg₂ (· + ·) ?_ ?_
  · refine (mm2_apply _ _ r q).trans ?_
    refine Finset.sum_congr rfl fun k _ => ?_
    refine congrArg₂ (· * ·) ?_ rfl
    show max ((matmul dot_S2048x128_S128x32_S2048x32_1_0_0_1_n_n none _ _ (constant (F := Ideal) S2048x32 .f32 0x00000000#32) (ix2 r k))
        + (broadcastTo S2048x32 (shapeCast S1x32 x2 shapeCasts_S1x32_S1x32) broadcasts_S1x32_S2048x32 (ix2 r k))) (Ideal.ofBits .f32 0x00000000#32) = _
    rw [Ideal.ofBits_zero_f32, shapeCast_self]
    refine congrArg₂ max (congrArg₂ (· + ·) ?_ ?_) rfl
    · exact mm1_apply _ _ r k
    · exact broadcastTo_1b_ab_apply x2 broadcasts_S1x32_S2048x32 r k
  · show broadcastTo S2048x128 (shapeCast S1x128 x4 shapeCasts_S1x128_S1x128) broadcasts_S1x128_S2048x128 (ix2 r q) = _
    rw [shapeCast_self]
    exact broadcastTo_1b_ab_apply x4 broadcasts_S1x128_S2048x128 r q

/-! ## The output block at an index -/

theorem zeros2 : (![0, 0] : Fin 2 → Nat) = fun _ => 0 := funext fun a => by
  match a with
  | ⟨0, _⟩ => rfl
  | ⟨1, _⟩ => rfl

/-- Row `r`, column `j` of the left half of the block is the image of `(r, j)` under the first store's rectangle. -/
theorem emb_left (r : Fin 2048) (j : Fin 128) (hj : j.val < 256) :
    r1_5.emb (ix2 r j) = (ix2 r (⟨j.val, hj⟩ : Fin 256) : S2048x256.Idx) := by
  funext a
  refine Fin.ext ?_
  match a with
  | ⟨0, _⟩ => show 0 + 1 * r.val = r.val; omega
  | ⟨1, _⟩ => show 0 + 1 * j.val = j.val; omega

/-- Row `r`, column `128 + j` of the block is the image of `(r, j)` under the second store's rectangle. -/
theorem emb_right (r : Fin 2048) (j : Fin 128) (hj : 128 + j.val < 256) :
    r1_6.emb (ix2 r j) = (ix2 r (⟨128 + j.val, hj⟩ : Fin 256) : S2048x256.Idx) := by
  funext a
  refine Fin.ext ?_
  match a with
  | ⟨0, _⟩ => show 0 + 1 * r.val = r.val; omega
  | ⟨1, _⟩ => show 128 + 1 * j.val = 128 + j.val; omega

/-- A column below 128 is outside the second store's rectangle. -/
theorem not_mem_right (r : Fin 2048) (j : Fin 256) (hj : j.val < 128) : (ix2 r j : S2048x256.Idx) ∉ r1_6.set := by
  rw [Rect.mem_set_unit]
  intro h
  have h1 := h ⟨1, Nat.one_lt_two⟩
  have e1 : ((ix2 r j : S2048x256.Idx) ⟨1, Nat.one_lt_two⟩ : ℕ) = j.val := rfl
  have e2 : (![0, 128] : Fin 2 → ℕ) ⟨1, Nat.one_lt_two⟩ = 128 := rfl
  rw [e1, e2] at h1
  omega

/-- Two stores side by side, the right half's last, read back: the first store's value in columns 0–127, the second's in
    columns 128–255. -/
theorem canon_two (p1 p0 : Vec Ideal S2048x128 .f32) (r : Fin 2048) (j : Fin 256) :
    View.canon ([⟨r1_6, p1⟩, ⟨r1_5, p0⟩] : List (View.Piece (Elt Ideal) S2048x256 .f32)) (ix2 r j)
      = if h : j.val < 128 then p0 (ix2 r (⟨j.val, h⟩ : Fin 128)) else p1 (ix2 r (⟨j.val - 128, by omega⟩ : Fin 128)) := by
  by_cases h : j.val < 128
  · rw [dif_pos h]
    refine (View.canon_cons_of_not_mem (⟨r1_6, p1⟩ : View.Piece (Elt Ideal) S2048x256 .f32) [⟨r1_5, p0⟩] (not_mem_right r j h)).trans ?_
    have e := emb_left r ⟨j.val, h⟩ j.isLt
    have ej : (ix2 r j : S2048x256.Idx) = ix2 r (⟨j.val, j.isLt⟩ : Fin 256) := rfl
    rw [ej, ← e]
    exact View.canon_cons_emb r1_5 p0 [] (ix2 r ⟨j.val, h⟩)
  · rw [dif_neg h]
    have e := emb_right r ⟨j.val - 128, by omega⟩ (by show 128 + (j.val - 128) < 256; omega)
    have ej : (ix2 r j : S2048x256.Idx) = ix2 r (⟨128 + (j.val - 128), by omega⟩ : Fin 256) :=
      congrArg (ix2 r) (Fin.ext (by show j.val = 128 + (j.val - 128); omega))
    rw [ej, ← e]
    exact View.canon_cons_emb r1_6 p1 [⟨r1_5, p0⟩] (ix2 r ⟨j.val - 128, by omega⟩)

/-- What the body leaves in the output block: the trend block in columns 0–127, the perceptron of it in columns 128–255. -/
theorem out_apply (x0 : Vec Ideal S2048x128 .f32) (x1 : Vec Ideal S128x32 .f32) (x2 : Vec Ideal S1x32 .f32)
    (x3 : Vec Ideal S32x128 .f32) (x4 : Vec Ideal S1x128 .f32) (r : Fin 2048) (j : Fin 256) :
    out1_5 (F := Ideal) x0 x1 x2 x3 x4 (ix2 r j)
      = if h : j.val < 128 then x0 (ix2 r (⟨j.val, h⟩ : Fin 128))
        else k1_pay1 (F := Ideal) x0 x1 x2 x3 x4 (ix2 r (⟨j.val - 128, by omega⟩ : Fin 128)) := by
  unfold out1_5
  simp only [View.ld_unit_zero (S := S2048x128) zeros2, View.ld_unit_zero (S := S128x32) zeros2, View.ld_unit_zero (S := S1x32) zeros2,
    View.ld_unit_zero (S := S32x128) zeros2, View.ld_unit_zero (S := S1x128) zeros2]
  exact canon_two _ x0 r j

/-! ## The windows' blocks as rows of the arrays -/

/-- The printed index maps, decided once over the grid: the trend window and the output window move down the rows with the
    point, the weights and biases stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Block `t` of the trend window is rows `2048 t … 2048 t + 2047` of the trend array. -/
theorem iblk_trend (c : Dev nD) (t : Fin cfg1.N) (r : Fin 2048) (l : Fin 128) (hr : 2048 * t.val + r.val < 8192) :
    (iblk1 (F := Ideal) V c 0 t : Vec Ideal S2048x128 .f32) (ix2 r l)
      = (V c main_arg4 : S8192x128.Idx → EReal) (ix2 (⟨2048 * t.val + r.val, hr⟩ : Fin 8192) l) := by
  obtain ⟨h0, h1, -⟩ := idx_facts t
  unfold iblk1
  rw [View.read_apply]
  show (V c main_arg4 : S8192x128.Idx → EReal) _ = _
  refine congrArg (V c main_arg4 : S8192x128.Idx → EReal) (funext fun a => Fin.ext ?_)
  match a with
  | ⟨0, _⟩ => show win1_0.index t (0 : Fin 2) * 2048 + 1 * r.val = 2048 * t.val + r.val; rw [h0]; omega
  | ⟨1, _⟩ => show win1_0.index t (1 : Fin 2) * 128 + 1 * l.val = l.val; rw [h1]; omega

/-- The first weight matrix's one block is the whole matrix. -/
theorem iblk_w1 (c : Dev nD) (t : Fin cfg1.N) (l : Fin 128) (k : Fin 32) :
    (iblk1 (F := Ideal) V c 1 t : Vec Ideal S128x32 .f32) (ix2 l k) = (V c main_arg9 : S128x32.Idx → EReal) (ix2 l k) := by
  obtain ⟨-, -, h0, h1, -⟩ := idx_facts t
  unfold iblk1
  rw [View.read_apply]
  show (V c main_arg9 : S128x32.Idx → EReal) _ = _
  refine congrArg (V c main_arg9 : S128x32.Idx → EReal) (funext fun a => Fin.ext ?_)
  match a with
  | ⟨0, _⟩ => show win1_1.index t (0 : Fin 2) * 128 + 1 * l.val = l.val; rw [h0]; omega
  | ⟨1, _⟩ => show win1_1.index t (1 : Fin 2) * 32 + 1 * k.val = k.val; rw [h1]; omega

/-- The first bias row's one block is the whole row. -/
theorem iblk_b1 (c : Dev nD) (t : Fin cfg1.N) (k : Fin 32) :
    (iblk1 (F := Ideal) V c 2 t : Vec Ideal S1x32 .f32) (ix2 (0 : Fin 1) k) = (V c main_v101 : S1x32.Idx → EReal) (ix2 (0 : Fin 1) k) := by
  obtain ⟨-, -, -, -, h0, h1, -⟩ := idx_facts t
  unfold iblk1
  rw [View.read_apply]
  show (V c main_v101 : S1x32.Idx → EReal) _ = _
  refine congrArg (V c main_v101 : S1x32.Idx → EReal) (funext fun a => Fin.ext ?_)
  match a with
  | ⟨0, _⟩ => show win1_2.index t (0 : Fin 2) * 1 + 1 * 0 = 0; rw [h0]
  | ⟨1, _⟩ => show win1_2.index t (1 : Fin 2) * 32 + 1 * k.val = k.val; rw [h1]; omega

/-- The second weight matrix's one block is the whole matrix. -/
theorem iblk_w2 (c : Dev nD) (t : Fin cfg1.N) (k : Fin 32) (q : Fin 128) :
    (iblk1 (F := Ideal) V c 3 t : Vec Ideal S32x128 .f32) (ix2 k q) = (V c main_arg11 : S32x128.Idx → EReal) (ix2 k q) := by
  obtain ⟨-, -, -, -, -, -, h0, h1, -⟩ := idx_facts t
  unfold iblk1
  rw [View.read_apply]
  show (V c main_arg11 : S32x128.Idx → EReal) _ = _
  refine congrArg (V c main_arg11 : S32x128.Idx → EReal) (funext fun a => Fin.ext ?_)
  match a with
  | ⟨0, _⟩ => show win1_3.index t (0 : Fin 2) * 32 + 1 * k.val = k.val; rw [h0]; omega
  | ⟨1, _⟩ => show win1_3.index t (1 : Fin 2) * 128 + 1 * q.val = q.val; rw [h1]; omega

/-- The second bias row's one block is the whole row. -/
theorem iblk_b2 (c : Dev nD) (t : Fin cfg1.N) (q : Fin 128) :
    (iblk1 (F := Ideal) V c 4 t : Vec Ideal S1x128 .f32) (ix2 (0 : Fin 1) q) = (V c main_v102 : S1x128.Idx → EReal) (ix2 (0 : Fin 1) q) := by
  obtain ⟨-, -, -, -, -, -, -, -, h0, h1, -⟩ := idx_facts t
  unfold iblk1
  rw [View.read_apply]
  show (V c main_v102 : S1x128.Idx → EReal) _ = _
  refine congrArg (V c main_v102 : S1x128.Idx → EReal) (funext fun a => Fin.ext ?_)
  match a with
  | ⟨0, _⟩ => show win1_4.index t (0 : Fin 2) * 1 + 1 * 0 = 0; rw [h0]
  | ⟨1, _⟩ => show win1_4.index t (1 : Fin 2) * 128 + 1 * q.val = q.val; rw [h1]; omega

/-! ## What a point writes back -/

/-- The output block over blocks that are rows of arrays: row `r` of the block, whose trend row is row `i` of the trend
    array `T`, is row `i` of the expanded trend. -/
theorem block_eq (x0 : Vec Ideal S2048x128 .f32) (x1 : Vec Ideal S128x32 .f32) (x2 : Vec Ideal S1x32 .f32)
    (x3 : Vec Ideal S32x128 .f32) (x4 : Vec Ideal S1x128 .f32)
    (T : Fin 8192 → Fin 128 → EReal) (W1 : Fin 128 → Fin 32 → EReal) (b1 : Fin 32 → EReal)
    (W2 : Fin 32 → Fin 128 → EReal) (b2 : Fin 128 → EReal) (i : Fin 8192) (r : Fin 2048)
    (h0 : ∀ l, x0 (ix2 r l) = T i l) (h1 : ∀ l k, x1 (ix2 l k) = W1 l k) (h2 : ∀ k, x2 (ix2 (0 : Fin 1) k) = b1 k)
    (h3 : ∀ k q, x3 (ix2 k q) = W2 k q) (h4 : ∀ q, x4 (ix2 (0 : Fin 1) q) = b2 q) (j : Fin 256) :
    out1_5 (F := Ideal) x0 x1 x2 x3 x4 (ix2 r j) = Cert.Spec.expand T W1 b1 W2 b2 i j := by
  rw [out_apply]
  unfold Cert.Spec.expand
  by_cases h : j.val < 128
  · rw [dif_pos h, dif_pos h]; exact h0 _
  · rw [dif_neg h, dif_neg h, pay_apply]
    unfold Cert.Spec.mlp Cert.Spec.hidden
    simp only [h0, h1, h2, h3, h4]

/-- The array the region leaves: the expanded trend of the arrays it finds, index by index. -/
def G (c : Dev nD) : S8192x256.Idx → EReal := fun y =>
  Cert.Spec.expand (fun a l => V c main_arg4 (ix2 a l)) (fun l k => V c main_arg9 (ix2 l k)) (fun k => V c main_v101 (ix2 (0 : Fin 1) k))
    (fun k j => V c main_arg11 (ix2 k j)) (fun j => V c main_v102 (ix2 (0 : Fin 1) j)) ⟨(y 0).val, idx2_lt0 y⟩ ⟨(y 1).val, idx2_lt1 y⟩

/-- What point `t` writes back is block `t` of that array. -/
theorem flushed_eq (c : Dev nD) (t : Fin cfg1.N) :
    (dat1 (F := Ideal) V c).flushed 5 t = ((cfg1.win 5).blk t).view.read (Elt Ideal) (G V c) := by
  have hN : grid1.N = 4 := N_1
  have ht : t.val < 4 := by have h : t.val < grid1.N := t.isLt; omega
  obtain ⟨-, -, -, -, -, -, -, -, -, -, h50, h51⟩ := idx_facts t
  show (cfg1.win 5).cut (grid1.coords t) ((dat1 V c).after 5 t) = _
  rw [after1_5]
  funext y
  obtain ⟨r, j, rfl⟩ : ∃ (r : Fin 2048) (j : Fin 256), y = ix2 r j := ⟨y 0, y 1, eq_ix2 y⟩
  rw [View.read_apply]
  have hr : 2048 * t.val + r.val < 8192 := by have := r.isLt; omega
  have hemb : ((cfg1.win 5).blk t).view.emb (ix2 r j) = (ix2 (⟨2048 * t.val + r.val, hr⟩ : Fin 8192) j : S8192x256.Idx) :=
    funext fun a => Fin.ext (by
      match a with
      | ⟨0, _⟩ => show win1_5.index t (0 : Fin 2) * 2048 + 1 * r.val = 2048 * t.val + r.val; rw [h50]; omega
      | ⟨1, _⟩ => show win1_5.index t (1 : Fin 2) * 256 + 1 * j.val = j.val; rw [h51]; omega)
  refine Eq.trans ?_ (congrArg (G V c) hemb).symm
  show out1_5 (iblk1 V c 0 t) (iblk1 V c 1 t) (iblk1 V c 2 t) (iblk1 V c 3 t) (iblk1 V c 4 t) (ix2 r j) = _
  exact block_eq (iblk1 V c 0 t) (iblk1 V c 1 t) (iblk1 V c 2 t) (iblk1 V c 3 t) (iblk1 V c 4 t)
    (fun a l => V c main_arg4 (ix2 a l)) (fun l k => V c main_arg9 (ix2 l k)) (fun k => V c main_v101 (ix2 (0 : Fin 1) k))
    (fun k j => V c main_arg11 (ix2 k j)) (fun j => V c main_v102 (ix2 (0 : Fin 1) j)) ⟨2048 * t.val + r.val, hr⟩ r
    (fun l => iblk_trend V c t r l hr) (fun l k => iblk_w1 V c t l k) (fun k => iblk_b1 V c t k)
    (fun k q => iblk_w2 V c t k q) (fun q => iblk_b2 V c t q) j

/-! ## The cover, and the array after the run -/

/-- An index of the array is in point `t`'s block iff each coordinate is in the block's range on its axis. -/
theorem mem_blk (t : Fin cfg1.N) (i : S8192x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole main_v103).slice (win1_5.rect t)).set ↔ _
  rw [View.set_slice_whole, Rect.mem_set_unit]
  exact Iff.rfl

/-- Row `i` is in the block of point `i / 2048`, and every point writes back. -/
theorem cover (i : S8192x256.Idx) : ∃ t : Fin cfg1.N, (cfg1.win 5).flush t = true ∧ i ∈ ((cfg1.win 5).blk t).view.set := by
  have hN : grid1.N = 4 := N_1
  have hi0 : (i 0).val < 8192 := idx2_lt0 i
  have hi1 : (i 1).val < 256 := idx2_lt1 i
  have htN : (i 0).val / 2048 < cfg1.N := by show (i 0).val / 2048 < grid1.N; omega
  obtain ⟨-, -, -, -, -, -, -, -, -, -, h50, h51⟩ := idx_facts ⟨(i 0).val / 2048, htN⟩
  refine ⟨⟨(i 0).val / 2048, htN⟩, flush1_5 _, ?_⟩
  rw [mem_blk]
  intro a
  match a with
  | ⟨0, _⟩ =>
    show win1_5.index ⟨(i 0).val / 2048, htN⟩ (0 : Fin 2) * 2048 ≤ (i 0).val ∧ (i 0).val < win1_5.index ⟨(i 0).val / 2048, htN⟩ (0 : Fin 2) * 2048 + 2048
    rw [h50]; show (i 0).val / 2048 * 2048 ≤ (i 0).val ∧ (i 0).val < (i 0).val / 2048 * 2048 + 2048; omega
  | ⟨1, _⟩ =>
    show win1_5.index ⟨(i 0).val / 2048, htN⟩ (1 : Fin 2) * 256 ≤ (i 1).val ∧ (i 1).val < win1_5.index ⟨(i 0).val / 2048, htN⟩ (1 : Fin 2) * 256 + 256
    rw [h51]; omega

/-- THE ARRAY after the region: the expanded trend of the arrays the region finds. -/
theorem final (c : Dev nD) (i : Fin 8192) (j : Fin 256) :
    (dat1 (F := Ideal) V c).arrAt 5 cfg1.N (ix2 i j)
      = Cert.Spec.expand (fun a l => V c main_arg4 (ix2 a l)) (fun l k => V c main_arg9 (ix2 l k)) (fun k => V c main_v101 (ix2 (0 : Fin 1) k))
          (fun k j => V c main_arg11 (ix2 k j)) (fun j => V c main_v102 (ix2 (0 : Fin 1) j)) i j :=
  congrFun ((dat1 (F := Ideal) V c).arrAt_eq_of_cover 5 (G V c) (fun t _ => flushed_eq V c t) cover) (ix2 i j)

end Cert.KMlp1

end
-- ==== Proof.KFin.lean ====
import proofs.«111852_j28475633172831_1_alg».proof.Proof.Gen.KernelIdeal.Frame
import proofs.«111852_j28475633172831_1_alg».proof.Proof.Spec
import Idealize.ShloMosaic.Lib.Pipeline.Value
import Idealize.ShloMosaic.Lib.ValueIdx
import Idealize.ShloMosaic.Lib.Tactic
import Idealize.ShloMosaic.PureOps.Ideal.Laws

/-!
  The value of the finalize region, at the ideal instance, for any contents `V` of the buffers when the region is entered.

  The region walks eight row blocks of 1024 rows. At every block it stores two columns:
  the logistic of each row's dot product of two 64-feature tables, and the logistic of the sum of each row's two
  dot products of 256-feature tables; both are written back at every point, so the two result arrays end as one
  function of the input arrays, row by row (`final8`, `final9`).

  It also keeps a [1, 1] accumulator whose block never moves: zeroed at the first block, increased at every block by
  half the block's four sums of squares (each a sum along the rows, then down the rows), and multiplied by the word
  of 2⁻¹³ after the last block; it is written back once, after the last block (`final10`). The accumulator after
  block `n` is the sum of the first `n + 1` parts — an induction on the block number — so the result is the eight
  parts added up, times 2⁻¹³.

  A block of an input array read at `(r, k)` is the array at row `1024·t + r`, lane `k`.
-/

noncomputable section

open Idealize.ShloMosaic Idealize.ShloMosaic.TcCoe Idealize.SL.Sem Idealize.ShloMosaic.ValueIdx
open Idealize.ShloMosaic.Pipeline (Dat)
open scoped BigOperators

namespace Cert.KFin
open Cert.KernelIdeal Cert.KernelIdeal.Gen

/-! ## The arithmetic of one block, read at an index -/

/-- The index a lane reduction of a [1024, 64] vector inserts: row `r`, lane `k`. -/
theorem lift64 (r : Fin 1024) (k : Fin 64) : reduces_S1024x64_S1024.lift (ix1 r) k = ix2 r k := by
  funext a
  match a with
  | ⟨0, _⟩ => rfl
  | ⟨1, _⟩ => rfl

/-- The index a lane reduction of a [1024, 256] vector inserts: row `r`, lane `k`. -/
theorem lift256 (r : Fin 1024) (k : Fin 256) : reduces_S1024x256_S1024.lift (ix1 r) k = ix2 r k := by
  funext a
  match a with
  | ⟨0, _⟩ => rfl
  | ⟨1, _⟩ => rfl

/-- The index a sublane reduction of a [1024, 1] vector inserts: row `r`, column 0. -/
theorem liftCol (r : Fin 1024) : reduces_S1024x1_S1.lift (ix1 (0 : Fin 1)) r = ix2 r (0 : Fin 1) := by
  funext a
  match a with
  | ⟨0, _⟩ => rfl
  | ⟨1, _⟩ => rfl

/-- The sum along a row of 64 lanes. -/
theorem lane64 (v : FVec Ideal S1024x64 .f32) (hφ : FKind.Formats .f32)
    (hacc : (0x00000000#32 : BitVec 32) = FKind.add.neutral .f32 hφ) (r : Fin 1024) :
    Idealize.ShloMosaic.multiReduction .add [1] S1024 v 0x00000000#32 reduces_S1024x64_S1024 hφ hacc (ix1 r)
      = ∑ k : Fin 64, v (ix2 r k) := by
  refine (Ideal.multiReduction_add_single v 0x00000000#32 reduces_S1024x64_S1024 hφ hacc (ix1 r)).trans ?_
  exact Finset.sum_congr rfl fun k _ => congrArg v (lift64 r k)

/-- The sum along a row of 256 lanes. -/
theorem lane256 (v : FVec Ideal S1024x256 .f32) (hφ : FKind.Formats .f32)
    (hacc : (0x00000000#32 : BitVec 32) = FKind.add.neutral .f32 hφ) (r : Fin 1024) :
    Idealize.ShloMosaic.multiReduction .add [1] S1024 v 0x00000000#32 reduces_S1024x256_S1024 hφ hacc (ix1 r)
      = ∑ k : Fin 256, v (ix2 r k) := by
  refine (Ideal.multiReduction_add_single v 0x00000000#32 reduces_S1024x256_S1024 hφ hacc (ix1 r)).trans ?_
  exact Finset.sum_congr rfl fun k _ => congrArg v (lift256 r k)

/-- The sum down the 1024 rows of a column. -/
theorem sublane (v : FVec Ideal S1024x1 .f32) (hφ : FKind.Formats .f32)
    (hacc : (0x00000000#32 : BitVec 32) = FKind.add.neutral .f32 hφ) :
    Idealize.ShloMosaic.multiReduction .add [0] S1 v 0x00000000#32 reduces_S1024x1_S1 hφ hacc (ix1 (0 : Fin 1))
      = ∑ r : Fin 1024, v (ix2 r (0 : Fin 1)) := by
  refine (Ideal.multiReduction_add_single v 0x00000000#32 reduces_S1024x1_S1 hφ hacc (ix1 (0 : Fin 1))).trans ?_
  exact Finset.sum_congr rfl fun r _ => congrArg v (liftCol r)

/-- A vector of 1024 numbers written as a column: entry `(r, 0)` is entry `r`. -/
theorem col_apply {α : Type} (v : S1024.Idx → α) (r : Fin 1024) :
    shapeCast S1024x1 v shapeCasts_S1024_S1024x1 (ix2 r (0 : Fin 1)) = v (ix1 r) := by
  refine shapeCast_apply v shapeCasts_S1024_S1024x1 (ix2 r (0 : Fin 1)) (ix1 r) ?_
  rw [Shape.rowMajor_val_one, Shape.rowMajor_val_two]
  show r.val = r.val * 1 + 0
  omega

/-- One number written as a [1, 1] block. -/
theorem one_apply {α : Type} (v : S1.Idx → α) :
    shapeCast S1x1 v shapeCasts_S1_S1x1 (ix2 (0 : Fin 1) (0 : Fin 1)) = v (ix1 (0 : Fin 1)) := by
  refine shapeCast_apply v shapeCasts_S1_S1x1 (ix2 (0 : Fin 1) (0 : Fin 1)) (ix1 (0 : Fin 1)) ?_
  rw [Shape.rowMajor_val_one, Shape.rowMajor_val_two]
  rfl

/-- What the first store of the body writes at row `r`: the logistic of the row's dot product. -/
theorem pay4_apply (x0 x1 : Vec Ideal S1024x64 .f32) (r : Fin 1024) :
    k2_pay4 (F := Ideal) x0 x1 (ix2 r (0 : Fin 1)) = Ideal.logistic (∑ k : Fin 64, x0 (ix2 r k) * x1 (ix2 r k)) := by
  unfold k2_pay4
  refine congrArg Ideal.logistic ?_
  refine (col_apply _ r).trans ?_
  refine (lane64 _ _ _ r).trans ?_
  rw [shapeCast_self, shapeCast_self]
  rfl

/-- What the second store writes at row `r`: the logistic of the sum of the row's two dot products. -/
theorem pay7_apply (x2 x3 x4 x5 : Vec Ideal S1024x256 .f32) (r : Fin 1024) :
    k2_pay7 (F := Ideal) x2 x3 x4 x5 (ix2 r (0 : Fin 1))
      = Ideal.logistic ((∑ k : Fin 256, x2 (ix2 r k) * x4 (ix2 r k)) + ∑ k : Fin 256, x3 (ix2 r k) * x5 (ix2 r k)) := by
  unfold k2_pay7 k2_pay5 k2_pay6
  refine congrArg Ideal.logistic ?_
  refine congrArg₂ (· + ·) ?_ ?_
  · refine (col_apply _ r).trans ?_
    refine (lane256 _ _ _ r).trans ?_
    rw [shapeCast_self, shapeCast_self]
    rfl
  · refine (col_apply _ r).trans ?_
    refine (lane256 _ _ _ r).trans ?_
    rw [shapeCast_self, shapeCast_self]
    rfl

/-! ## What each case of the body leaves in each output's buffer, as the stored payloads -/

theorem hz : (![0, 0] : Fin 2 → Nat) = fun _ => 0 := funext fun a => by fin_cases a <;> rfl

section Found
variable {F : FTy → Type} [FloatOps F]

theorem found_A_8 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : cond2_0 i) (hc1 : ¬cond2_1 i)
    (x0 x1 : Vec F S1024x64 .f32) (x2 x3 x4 x5 : Vec F S1024x256 .f32) (x6 x7 : Vec F S1024x64 .f32) :
    out2_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k2_pay4 x0 x1 := by
  unfold out2_A_8
  rw [View.read_writes_eq_canon _ _ _ (cover2_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun2_A
  dsimp only
  rw [View.canon_unit_zero hz]
  simp only [View.readAt_eq_ld, harg1.read_unread, harg2.read_unread, View.ld_unit_zero (S := S1024x64) hz]

theorem found_A_9 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : cond2_0 i) (hc1 : ¬cond2_1 i)
    (x0 x1 : Vec F S1024x64 .f32) (x2 x3 x4 x5 : Vec F S1024x256 .f32) (x6 x7 : Vec F S1024x64 .f32) :
    out2_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k2_pay7 x2 x3 x4 x5 := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun2_A
  dsimp only
  rw [View.canon_unit_zero hz]
  simp only [View.readAt_eq_ld, harg3.read_unread, harg4.read_unread, harg5.read_unread, harg6.read_unread, View.ld_unit_zero (S := S1024x256) hz]

theorem found_B_8 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : ¬cond2_0 i) (hc1 : ¬cond2_1 i)
    (x0 x1 : Vec F S1024x64 .f32) (x2 x3 x4 x5 : Vec F S1024x256 .f32) (x6 x7 : Vec F S1024x64 .f32) (xo10 : Vec F S1x1 .f32) :
    out2_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10 = k2_pay4 x0 x1 := by
  unfold out2_B_8
  rw [View.read_writes_eq_canon _ _ _ (cover2_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
  unfold kernelRun2_B
  dsimp only
  rw [View.canon_unit_zero hz]
  simp only [View.readAt_eq_ld, harg1.read_unread, harg2.read_unread, View.ld_unit_zero (S := S1024x64) hz]

theorem found_B_9 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : ¬cond2_0 i) (hc1 : ¬cond2_1 i)
    (x0 x1 : Vec F S1024x64 .f32) (x2 x3 x4 x5 : Vec F S1024x256 .f32) (x6 x7 : Vec F S1024x64 .f32) (xo10 : Vec F S1x1 .f32) :
    out2_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10 = k2_pay7 x2 x3 x4 x5 := by
  unfold out2_B_9
  rw [View.read_writes_eq_canon _ _ _ (cover2_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
  unfold kernelRun2_B
  dsimp only
  rw [View.canon_unit_zero hz]
  simp only [View.readAt_eq_ld, harg3.read_unread, harg4.read_unread, harg5.read_unread, harg6.read_unread, View.ld_unit_zero (S := S1024x256) hz]

theorem found_C_8 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : ¬cond2_0 i) (hc1 : cond2_1 i)
    (x0 x1 : Vec F S1024x64 .f32) (x2 x3 x4 x5 : Vec F S1024x256 .f32) (x6 x7 : Vec F S1024x64 .f32) (xo10 : Vec F S1x1 .f32) :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10 = k2_pay4 x0 x1 := by
  unfold out2_C_8
  rw [View.read_writes_eq_canon _ _ _ (cover2_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
  unfold kernelRun2_C
  dsimp only
  rw [View.canon_unit_zero hz]
  simp only [View.readAt_eq_ld, harg1.read_unread, harg2.read_unread, View.ld_unit_zero (S := S1024x64) hz]

theorem found_C_9 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : ¬cond2_0 i) (hc1 : cond2_1 i)
    (x0 x1 : Vec F S1024x64 .f32) (x2 x3 x4 x5 : Vec F S1024x256 .f32) (x6 x7 : Vec F S1024x64 .f32) (xo10 : Vec F S1x1 .f32) :
    out2_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10 = k2_pay7 x2 x3 x4 x5 := by
  unfold out2_C_9
  rw [View.read_writes_eq_canon _ _ _ (cover2_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
  unfold kernelRun2_C
  dsimp only
  rw [View.canon_unit_zero hz]
  simp only [View.readAt_eq_ld, harg3.read_unread, harg4.read_unread, harg5.read_unread, harg6.read_unread, View.ld_unit_zero (S := S1024x256) hz]

theorem found_A_10 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : cond2_0 i) (hc1 : ¬cond2_1 i)
    (x0 x1 : Vec F S1024x64 .f32) (x2 x3 x4 x5 : Vec F S1024x256 .f32) (x6 x7 : Vec F S1024x64 .f32) :
    out2_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k2_pay1 (k2_pay5 x2) (k2_pay6 x3) (k2_pay8 x6) x7 k2_pay3 := by
  unfold out2_A_10
  rw [View.read_writes_eq_canon _ _ _ (cover2_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun2_A
  dsimp only
  sl_unfold_words
  rw [View.canon_cons_unit_zero (S := S1x1) hz, View.readCov_unit_zero (S := S1x1) _ hz]
  simp only [View.readAt_eq_ld, harg3.read_unread, harg4.read_unread, harg7.read_unread, harg8.read_unread, harg11.read_unread, View.ld_unit_zero (S := S1024x256) hz, View.ld_unit_zero (S := S1024x64) hz, View.ld_unit_zero (S := S1x1) hz]

theorem found_B_10 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : ¬cond2_0 i) (hc1 : ¬cond2_1 i)
    (x0 x1 : Vec F S1024x64 .f32) (x2 x3 x4 x5 : Vec F S1024x256 .f32) (x6 x7 : Vec F S1024x64 .f32) (xo10 : Vec F S1x1 .f32) :
    out2_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10 = k2_pay1 (k2_pay5 x2) (k2_pay6 x3) (k2_pay8 x6) x7 xo10 := by
  unfold out2_B_10
  rw [View.read_writes_eq_canon _ _ _ (cover2_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
  unfold kernelRun2_B
  dsimp only
  sl_unfold_words
  rw [View.canon_unit_zero hz]
  simp only [View.readAt_eq_ld, harg3.read_unread, harg4.read_unread, harg7.read_unread, harg8.read_unread, harg11.read_unread, View.ld_unit_zero (S := S1024x256) hz, View.ld_unit_zero (S := S1024x64) hz, View.ld_unit_zero (S := S1x1) hz]

theorem found_C_10 (c : Dev nD) (i : grid2.Coords) (arg1 : Memref sig .tc .vmem S1024x64 .f32) (harg1 : arg1.IsWhole) (arg2 : Memref sig .tc .vmem S1024x64 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1x1 .f32) (harg11 : arg11.IsWhole) (hc0 : ¬cond2_0 i) (hc1 : cond2_1 i)
    (x0 x1 : Vec F S1024x64 .f32) (x2 x3 x4 x5 : Vec F S1024x256 .f32) (x6 x7 : Vec F S1024x64 .f32) (xo10 : Vec F S1x1 .f32) :
    out2_C_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10 = k2_pay2 (k2_pay1 (k2_pay5 x2) (k2_pay6 x3) (k2_pay8 x6) x7 xo10) := by
  unfold out2_C_10
  rw [View.read_writes_eq_canon _ _ _ (cover2_C_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 xo10)]
  unfold kernelRun2_C
  dsimp only
  sl_unfold_words
  rw [View.canon_cons_unit_zero (S := S1x1) hz, View.readCov_unit_zero (S := S1x1) _ hz]
  simp only [View.readAt_eq_ld, harg3.read_unread, harg4.read_unread, harg7.read_unread, harg8.read_unread, harg11.read_unread, View.ld_unit_zero (S := S1024x256) hz, View.ld_unit_zero (S := S1024x64) hz, View.ld_unit_zero (S := S1x1) hz]

end Found

/-! ## The accumulator's arithmetic, read at its one index -/

/-- The sum of the squares of a block of 1024 rows of 64 lanes: along each row, then down the rows. -/
def sq64 (x : Vec Ideal S1024x64 .f32) : EReal := ∑ r : Fin 1024, ∑ k : Fin 64, x (ix2 r k) * x (ix2 r k)

/-- The sum of the squares of a block of 1024 rows of 256 lanes. -/
def sq256 (x : Vec Ideal S1024x256 .f32) : EReal := ∑ r : Fin 1024, ∑ k : Fin 256, x (ix2 r k) * x (ix2 r k)

/-- A lane sum, written as a column, summed down the column, written as a [1, 1] block: the block's sum of squares. -/
theorem sqsum64 (v : FVec Ideal S1024x64 .f32) (hφ hφ' : FKind.Formats .f32)
    (hacc : (0x00000000#32 : BitVec 32) = FKind.add.neutral .f32 hφ)
    (hacc' : (0x00000000#32 : BitVec 32) = FKind.add.neutral .f32 hφ') :
    shapeCast S1x1 (Idealize.ShloMosaic.multiReduction .add [0] S1
      (shapeCast S1024x1 (Idealize.ShloMosaic.multiReduction .add [1] S1024 (mulf v v) 0x00000000#32 reduces_S1024x64_S1024 hφ hacc)
        shapeCasts_S1024_S1024x1) 0x00000000#32 reduces_S1024x1_S1 hφ' hacc') shapeCasts_S1_S1x1 (ix2 (0 : Fin 1) (0 : Fin 1))
      = sq64 v := by
  refine (one_apply _).trans ?_
  refine (sublane _ _ _).trans ?_
  refine Finset.sum_congr rfl fun r _ => ?_
  refine (col_apply _ r).trans ?_
  exact lane64 _ _ _ r

theorem sqsum256 (v : FVec Ideal S1024x256 .f32) (hφ hφ' : FKind.Formats .f32)
    (hacc : (0x00000000#32 : BitVec 32) = FKind.add.neutral .f32 hφ)
    (hacc' : (0x00000000#32 : BitVec 32) = FKind.add.neutral .f32 hφ') :
    shapeCast S1x1 (Idealize.ShloMosaic.multiReduction .add [0] S1
      (shapeCast S1024x1 (Idealize.ShloMosaic.multiReduction .add [1] S1024 (mulf v v) 0x00000000#32 reduces_S1024x256_S1024 hφ hacc)
        shapeCasts_S1024_S1024x1) 0x00000000#32 reduces_S1024x1_S1 hφ' hacc') shapeCasts_S1_S1x1 (ix2 (0 : Fin 1) (0 : Fin 1))
      = sq256 v := by
  refine (one_apply _).trans ?_
  refine (sublane _ _ _).trans ?_
  refine Finset.sum_congr rfl fun r _ => ?_
  refine (col_apply _ r).trans ?_
  exact lane256 _ _ _ r

/-- What one point adds to the accumulator: half the four block sums, added left to right. -/
def part (x2 x3 : Vec Ideal S1024x256 .f32) (x6 x7 : Vec Ideal S1024x64 .f32) : EReal :=
  Cert.Spec.half * (((sq64 x6 + sq64 x7) + sq256 x2) + sq256 x3)

/-- The accumulating store: the accumulator's value plus the point's part. -/
theorem pay1_apply (x2 x3 : Vec Ideal S1024x256 .f32) (x6 x7 : Vec Ideal S1024x64 .f32) (xo : Vec Ideal S1x1 .f32) :
    k2_pay1 (F := Ideal) (k2_pay5 x2) (k2_pay6 x3) (k2_pay8 x6) x7 xo (ix2 (0 : Fin 1) (0 : Fin 1))
      = xo (ix2 (0 : Fin 1) (0 : Fin 1)) + part x2 x3 x6 x7 := by
  unfold k2_pay1 k2_pay5 k2_pay6 k2_pay8 part
  refine congrArg₂ (· + ·) ?_ (congrArg₂ (· * ·) rfl (congrArg₂ (· + ·) (congrArg₂ (· + ·) (congrArg₂ (· + ·) ?_ ?_) ?_) ?_))
  · rw [shapeCast_self]
  · rw [shapeCast_self]; exact sqsum64 x6 _ _ _ _
  · rw [shapeCast_self]; exact sqsum64 x7 _ _ _ _
  · rw [shapeCast_self]; exact sqsum256 x2 _ _ _ _
  · rw [shapeCast_self]; exact sqsum256 x3 _ _ _ _

/-- The last point's second store: the accumulator times the word of 2⁻¹³. -/
theorem pay2_apply (v : Vec Ideal S1x1 .f32) :
    k2_pay2 (F := Ideal) v (ix2 (0 : Fin 1) (0 : Fin 1)) = v (ix2 (0 : Fin 1) (0 : Fin 1)) * Ideal.ofBits .f32 0x39000000#32 := by
  unfold k2_pay2
  rw [shapeCast_self]
  rfl

/-- The first point's reset: the word of zero. -/
theorem pay3_apply : k2_pay3 (F := Ideal) (ix2 (0 : Fin 1) (0 : Fin 1)) = Ideal.ofBits .f32 0x00000000#32 := rfl

/-! ## The outputs after each point -/

section Points
variable (V : (c : Dev nD) → (b : Ref sig .tc) → Buf (Elt Ideal) ((c : Thread nD τ).loc b))

theorem outs8 (c : Dev nD) (t : Fin cfg2.N) : (outsAt2 V c t.val t.isLt).1 = k2_pay4 (iblk2 V c 0 t) (iblk2 V c 1 t) := by
  have hN : cfg2.N = 8 := N_2
  by_cases h0 : t.val % 8 = 0
  · have h1 : ¬t.val % 8 = 7 := by omega
    rw [outsAt2_A V c t h0 h1]
    dsimp only
    exact found_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)
  · by_cases h1 : t.val % 8 = 7
    · rw [outsAt2_C V c t h0 h1]
      dsimp only
      exact found_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2
    · rw [outsAt2_B V c t h0 h1]
      dsimp only
      exact found_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2

theorem outs9 (c : Dev nD) (t : Fin cfg2.N) : (outsAt2 V c t.val t.isLt).2.1 = k2_pay7 (iblk2 V c 2 t) (iblk2 V c 3 t) (iblk2 V c 4 t) (iblk2 V c 5 t) := by
  have hN : cfg2.N = 8 := N_2
  by_cases h0 : t.val % 8 = 0
  · have h1 : ¬t.val % 8 = 7 := by omega
    rw [outsAt2_A V c t h0 h1]
    dsimp only
    exact found_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)
  · by_cases h1 : t.val % 8 = 7
    · rw [outsAt2_C V c t h0 h1]
      dsimp only
      exact found_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2
    · rw [outsAt2_B V c t h0 h1]
      dsimp only
      exact found_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2

end Points

/-! ## A window's block, read at an index: the array at the block's rows -/

section Blocks
variable (V : (c : Dev nD) → (b : Ref sig .tc) → Buf (Elt Ideal) ((c : Thread nD τ).loc b))

theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- Window 0's block at point `t`, entry `(r, k)`: the array's entry at row `1024·t + r`, lane `k`. -/
theorem blk_0 (c : Dev nD) (t : Fin cfg2.N) (t' : Fin 8) (ht : t'.val = t.val) (r : Fin 1024) (k : Fin 64) :
    (iblk2 V c 0 t : Vec Ideal S1024x64 .f32) (ix2 r k) = V c main_v76 (ix2 (Cert.Spec.blockRow t' r) k) := by
  obtain ⟨e0, e1⟩ := idx2_0 t
  unfold iblk2
  rw [View.read_apply]
  show V c main_v76 _ = V c main_v76 _
  refine congrArg (V c main_v76) (funext fun a => Fin.ext ?_)
  match a with
  | ⟨0, _⟩ => show win2_0.index t (0 : Fin 2) * 1024 + 1 * r.val = 1024 * t'.val + r.val; rw [e0, ht]; omega
  | ⟨1, _⟩ => show win2_0.index t (1 : Fin 2) * 64 + 1 * k.val = k.val; rw [e1]; omega

theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)

/-- Window 1's block at point `t`, entry `(r, k)`: the array's entry at row `1024·t + r`, lane `k`. -/
theorem blk_1 (c : Dev nD) (t : Fin cfg2.N) (t' : Fin 8) (ht : t'.val = t.val) (r : Fin 1024) (k : Fin 64) :
    (iblk2 V c 1 t : Vec Ideal S1024x64 .f32) (ix2 r k) = V c main_v83 (ix2 (Cert.Spec.blockRow t' r) k) := by
  obtain ⟨e0, e1⟩ := idx2_1 t
  unfold iblk2
  rw [View.read_apply]
  show V c main_v83 _ = V c main_v83 _
  refine congrArg (V c main_v83) (funext fun a => Fin.ext ?_)
  match a with
  | ⟨0, _⟩ => show win2_1.index t (0 : Fin 2) * 1024 + 1 * r.val = 1024 * t'.val + r.val; rw [e0, ht]; omega
  | ⟨1, _⟩ => show win2_1.index t (1 : Fin 2) * 64 + 1 * k.val = k.val; rw [e1]; omega

theorem idx2_2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)

/-- Window 2's block at point `t`, entry `(r, k)`: the array's entry at row `1024·t + r`, lane `k`. -/
theorem blk_2 (c : Dev nD) (t : Fin cfg2.N) (t' : Fin 8) (ht : t'.val = t.val) (r : Fin 1024) (k : Fin 256) :
    (iblk2 V c 2 t : Vec Ideal S1024x256 .f32) (ix2 r k) = V c main_v90 (ix2 (Cert.Spec.blockRow t' r) k) := by
  obtain ⟨e0, e1⟩ := idx2_2 t
  unfold iblk2
  rw [View.read_apply]
  show V c main_v90 _ = V c main_v90 _
  refine congrArg (V c main_v90) (funext fun a => Fin.ext ?_)
  match a with
  | ⟨0, _⟩ => show win2_2.index t (0 : Fin 2) * 1024 + 1 * r.val = 1024 * t'.val + r.val; rw [e0, ht]; omega
  | ⟨1, _⟩ => show win2_2.index t (1 : Fin 2) * 256 + 1 * k.val = k.val; rw [e1]; omega

theorem idx2_3 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)

/-- Window 3's block at point `t`, entry `(r, k)`: the array's entry at row `1024·t + r`, lane `k`. -/
theorem blk_3 (c : Dev nD) (t : Fin cfg2.N) (t' : Fin 8) (ht : t'.val = t.val) (r : Fin 1024) (k : Fin 256) :
    (iblk2 V c 3 t : Vec Ideal S1024x256 .f32) (ix2 r k) = V c main_v97 (ix2 (Cert.Spec.blockRow t' r) k) := by
  obtain ⟨e0, e1⟩ := idx2_3 t
  unfold iblk2
  rw [View.read_apply]
  show V c main_v97 _ = V c main_v97 _
  refine congrArg (V c main_v97) (funext fun a => Fin.ext ?_)
  match a with
  | ⟨0, _⟩ => show win2_3.index t (0 : Fin 2) * 1024 + 1 * r.val = 1024 * t'.val + r.val; rw [e0, ht]; omega
  | ⟨1, _⟩ => show win2_3.index t (1 : Fin 2) * 256 + 1 * k.val = k.val; rw [e1]; omega

theorem idx2_4 : ∀ t : Fin cfg2.N, win2_4.index t (0 : Fin 2) = t.val ∧ win2_4.index t (1 : Fin 2) = 0 :=
  (by decide +kernel : ∀ t : Fin grid2.N, win2_4.index t (0 : Fin 2) = t.val ∧ win2_4.index t (1 : Fin 2) = 0)

/-- Window 4's block at point `t`, entry `(r, k)`: the array's entry at row `1024·t + r`, lane `k`. -/
theorem blk_4 (c : Dev nD) (t : Fin cfg2.N) (t' : Fin 8) (ht : t'.val = t.val) (r : Fin 1024) (k : Fin 256) :
    (iblk2 V c 4 t : Vec Ideal S1024x256 .f32) (ix2 r k) = V c main_v100 (ix2 (Cert.Spec.blockRow t' r) k) := by
  obtain ⟨e0, e1⟩ := idx2_4 t
  unfold iblk2
  rw [View.read_apply]
  show V c main_v100 _ = V c main_v100 _
  refine congrArg (V c main_v100) (funext fun a => Fin.ext ?_)
  match a with
  | ⟨0, _⟩ => show win2_4.index t (0 : Fin 2) * 1024 + 1 * r.val = 1024 * t'.val + r.val; rw [e0, ht]; omega
  | ⟨1, _⟩ => show win2_4.index t (1 : Fin 2) * 256 + 1 * k.val = k.val; rw [e1]; omega

theorem idx2_5 : ∀ t : Fin cfg2.N, win2_5.index t (0 : Fin 2) = t.val ∧ win2_5.index t (1 : Fin 2) = 0 :=
  (by decide +kernel : ∀ t : Fin grid2.N, win2_5.index t (0 : Fin 2) = t.val ∧ win2_5.index t (1 : Fin 2) = 0)

/-- Window 5's block at point `t`, entry `(r, k)`: the array's entry at row `1024·t + r`, lane `k`. -/
theorem blk_5 (c : Dev nD) (t : Fin cfg2.N) (t' : Fin 8) (ht : t'.val = t.val) (r : Fin 1024) (k : Fin 256) :
    (iblk2 V c 5 t : Vec Ideal S1024x256 .f32) (ix2 r k) = V c main_v103 (ix2 (Cert.Spec.blockRow t' r) k) := by
  obtain ⟨e0, e1⟩ := idx2_5 t
  unfold iblk2
  rw [View.read_apply]
  show V c main_v103 _ = V c main_v103 _
  refine congrArg (V c main_v103) (funext fun a => Fin.ext ?_)
  match a with
  | ⟨0, _⟩ => show win2_5.index t (0 : Fin 2) * 1024 + 1 * r.val = 1024 * t'.val + r.val; rw [e0, ht]; omega
  | ⟨1, _⟩ => show win2_5.index t (1 : Fin 2) * 256 + 1 * k.val = k.val; rw [e1]; omega

theorem idx2_6 : ∀ t : Fin cfg2.N, win2_6.index t (0 : Fin 2) = t.val ∧ win2_6.index t (1 : Fin 2) = 0 :=
  (by decide +kernel : ∀ t : Fin grid2.N, win2_6.index t (0 : Fin 2) = t.val ∧ win2_6.index t (1 : Fin 2) = 0)

/-- Window 6's block at point `t`, entry `(r, k)`: the array's entry at row `1024·t + r`, lane `k`. -/
theorem blk_6 (c : Dev nD) (t : Fin cfg2.N) (t' : Fin 8) (ht : t'.val = t.val) (r : Fin 1024) (k : Fin 64) :
    (iblk2 V c 6 t : Vec Ideal S1024x64 .f32) (ix2 r k) = V c main_v62 (ix2 (Cert.Spec.blockRow t' r) k) := by
  obtain ⟨e0, e1⟩ := idx2_6 t
  unfold iblk2
  rw [View.read_apply]
  show V c main_v62 _ = V c main_v62 _
  refine congrArg (V c main_v62) (funext fun a => Fin.ext ?_)
  match a with
  | ⟨0, _⟩ => show win2_6.index t (0 : Fin 2) * 1024 + 1 * r.val = 1024 * t'.val + r.val; rw [e0, ht]; omega
  | ⟨1, _⟩ => show win2_6.index t (1 : Fin 2) * 64 + 1 * k.val = k.val; rw [e1]; omega

theorem idx2_7 : ∀ t : Fin cfg2.N, win2_7.index t (0 : Fin 2) = t.val ∧ win2_7.index t (1 : Fin 2) = 0 :=
  (by decide +kernel : ∀ t : Fin grid2.N, win2_7.index t (0 : Fin 2) = t.val ∧ win2_7.index t (1 : Fin 2) = 0)

/-- Window 7's block at point `t`, entry `(r, k)`: the array's entry at row `1024·t + r`, lane `k`. -/
theorem blk_7 (c : Dev nD) (t : Fin cfg2.N) (t' : Fin 8) (ht : t'.val = t.val) (r : Fin 1024) (k : Fin 64) :
    (iblk2 V c 7 t : Vec Ideal S1024x64 .f32) (ix2 r k) = V c main_v69 (ix2 (Cert.Spec.blockRow t' r) k) := by
  obtain ⟨e0, e1⟩ := idx2_7 t
  unfold iblk2
  rw [View.read_apply]
  show V c main_v69 _ = V c main_v69 _
  refine congrArg (V c main_v69) (funext fun a => Fin.ext ?_)
  match a with
  | ⟨0, _⟩ => show win2_7.index t (0 : Fin 2) * 1024 + 1 * r.val = 1024 * t'.val + r.val; rw [e0, ht]; omega
  | ⟨1, _⟩ => show win2_7.index t (1 : Fin 2) * 64 + 1 * k.val = k.val; rw [e1]; omega

end Blocks

/-! ## The first two results: every point writes back its block of one function of the arrays -/

section Final
variable (V : (c : Dev nD) → (b : Ref sig .tc) → Buf (Elt Ideal) ((c : Thread nD τ).loc b))

/-- The point as a block number. -/
abbrev blockOf (t : Fin cfg2.N) : Fin 8 := ⟨t.val, lt_of_lt_of_eq t.isLt N_2⟩

theorem idx2_8 : ∀ t : Fin cfg2.N, win2_8.index t (0 : Fin 2) = t.val ∧ win2_8.index t (1 : Fin 2) = 0 :=
  (by decide +kernel : ∀ t : Fin grid2.N, win2_8.index t (0 : Fin 2) = t.val ∧ win2_8.index t (1 : Fin 2) = 0)

theorem idx2_9 : ∀ t : Fin cfg2.N, win2_9.index t (0 : Fin 2) = t.val ∧ win2_9.index t (1 : Fin 2) = 0 :=
  (by decide +kernel : ∀ t : Fin grid2.N, win2_9.index t (0 : Fin 2) = t.val ∧ win2_9.index t (1 : Fin 2) = 0)

/-- The first result as one function of the arrays: at row `i` the logistic of the two rows' dot product. -/
def G8 (c : Dev nD) : S8192x1.Idx → EReal := fun i =>
  Cert.Spec.gm (fun a k => V c main_v76 (ix2 a k)) (fun a k => V c main_v83 (ix2 a k)) (i 0)

/-- What point `t` writes back of the first result is block `t` of `G8`. -/
theorem flushed8_eq (c : Dev nD) (t : Fin cfg2.N) :
    (dat2 V c).flushed 8 t = ((cfg2.win 8).blk t).view.read (Elt Ideal) (G8 V c) := by
  obtain ⟨e0, e1⟩ := idx2_8 t
  show (cfg2.win 8).cut (grid2.coords t) ((dat2 V c).after 8 t) = _
  rw [after2_8, outs8]
  funext j
  rw [View.read_apply]
  obtain ⟨r, rfl⟩ : ∃ r : Fin 1024, j = ix2 r (0 : Fin 1) :=
    ⟨j 0, funext fun a => match a with
      | ⟨0, _⟩ => rfl
      | ⟨1, _⟩ => Fin.ext (by have h : (j 1).val < 1 := (j 1).isLt; show (j 1).val = 0; omega)⟩
  refine (pay4_apply (iblk2 V c 0 t) (iblk2 V c 1 t) r).trans ?_
  have hrow : ((cfg2.win 8).blk t).view.emb (ix2 r (0 : Fin 1)) = ix2 (Cert.Spec.blockRow (blockOf t) r) (0 : Fin 1) := by
    funext a
    apply Fin.ext
    match a with
    | ⟨0, _⟩ => show win2_8.index t (0 : Fin 2) * 1024 + 1 * r.val = 1024 * t.val + r.val; rw [e0]; omega
    | ⟨1, _⟩ => show win2_8.index t (1 : Fin 2) * 1 + 1 * 0 = 0; rw [e1]
  show _ = G8 V c (((cfg2.win 8).blk t).view.emb (ix2 r (0 : Fin 1)))
  rw [hrow]
  show _ = Cert.Spec.gm (fun a k => V c main_v76 (ix2 a k)) (fun a k => V c main_v83 (ix2 a k)) (Cert.Spec.blockRow (blockOf t) r)
  unfold Cert.Spec.gm
  exact congrArg Ideal.logistic (Finset.sum_congr rfl fun k _ =>
    congrArg₂ (· * ·) (blk_0 V c t (blockOf t) rfl r k) (blk_1 V c t (blockOf t) rfl r k))

/-- Row `i` of the first result lies in the block of point `i / 1024`. -/
theorem cover8 (i : S8192x1.Idx) : ∃ t : Fin cfg2.N, (cfg2.win 8).flush t = true ∧ i ∈ ((cfg2.win 8).blk t).view.set := by
  have hN : cfg2.N = 8 := N_2
  have hi0 : (i 0).val < 8192 := (i 0).isLt
  have hi1 : (i 1).val < 1 := (i 1).isLt
  obtain ⟨t, ht⟩ : ∃ t : Fin cfg2.N, t.val = (i 0).val / 1024 := ⟨⟨(i 0).val / 1024, by omega⟩, rfl⟩
  refine ⟨t, flush2_8 t, ?_⟩
  obtain ⟨e0, e1⟩ := idx2_8 t
  show i ∈ ((View.whole main_v104_0).slice (win2_8.rect t)).set
  rw [View.set_slice_whole, Rect.mem_set_unit]
  intro a
  match a with
  | ⟨0, _⟩ => show win2_8.index t (0 : Fin 2) * 1024 ≤ (i 0).val ∧ (i 0).val < win2_8.index t (0 : Fin 2) * 1024 + 1024; rw [e0]; omega
  | ⟨1, _⟩ => show win2_8.index t (1 : Fin 2) * 1 ≤ (i 1).val ∧ (i 1).val < win2_8.index t (1 : Fin 2) * 1 + 1; rw [e1]; omega

/-- THE FIRST RESULT after the region, at row `i`. -/
theorem final8 (c : Dev nD) (i : Fin 8192) : (dat2 (F := Ideal) V c).arrAt 8 cfg2.N (ix2 i (0 : Fin 1))
    = Cert.Spec.gm (fun a k => V c main_v76 (ix2 a k)) (fun a k => V c main_v83 (ix2 a k)) i :=
  congrFun ((dat2 V c).arrAt_eq_of_cover 8 (G8 V c) (fun t _ => flushed8_eq V c t) cover8) (ix2 i (0 : Fin 1))

end Final

section Final9
variable (V : (c : Dev nD) → (b : Ref sig .tc) → Buf (Elt Ideal) ((c : Thread nD τ).loc b))

/-- The second result as one function of the arrays: at row `i` the logistic of the sum of two dot products. -/
def G9 (c : Dev nD) : S8192x1.Idx → EReal := fun i =>
  Cert.Spec.tm (fun a k => V c main_v90 (ix2 a k)) (fun a k => V c main_v97 (ix2 a k))
    (fun a k => V c main_v100 (ix2 a k)) (fun a k => V c main_v103 (ix2 a k)) (i 0)

/-- What point `t` writes back of the second result is block `t` of `G9`. -/
theorem flushed9_eq (c : Dev nD) (t : Fin cfg2.N) :
    (dat2 V c).flushed 9 t = ((cfg2.win 9).blk t).view.read (Elt Ideal) (G9 V c) := by
  obtain ⟨e0, e1⟩ := idx2_9 t
  show (cfg2.win 9).cut (grid2.coords t) ((dat2 V c).after 9 t) = _
  rw [after2_9, outs9]
  funext j
  rw [View.read_apply]
  obtain ⟨r, rfl⟩ : ∃ r : Fin 1024, j = ix2 r (0 : Fin 1) :=
    ⟨j 0, funext fun a => match a with
      | ⟨0, _⟩ => rfl
      | ⟨1, _⟩ => Fin.ext (by have h : (j 1).val < 1 := (j 1).isLt; show (j 1).val = 0; omega)⟩
  refine (pay7_apply (iblk2 V c 2 t) (iblk2 V c 3 t) (iblk2 V c 4 t) (iblk2 V c 5 t) r).trans ?_
  have hrow : ((cfg2.win 9).blk t).view.emb (ix2 r (0 : Fin 1)) = ix2 (Cert.Spec.blockRow (blockOf t) r) (0 : Fin 1) := by
    funext a
    apply Fin.ext
    match a with
    | ⟨0, _⟩ => show win2_9.index t (0 : Fin 2) * 1024 + 1 * r.val = 1024 * t.val + r.val; rw [e0]; omega
    | ⟨1, _⟩ => show win2_9.index t (1 : Fin 2) * 1 + 1 * 0 = 0; rw [e1]
  show _ = G9 V c (((cfg2.win 9).blk t).view.emb (ix2 r (0 : Fin 1)))
  rw [hrow]
  show _ = Cert.Spec.tm (fun a k => V c main_v90 (ix2 a k)) (fun a k => V c main_v97 (ix2 a k))
    (fun a k => V c main_v100 (ix2 a k)) (fun a k => V c main_v103 (ix2 a k)) (Cert.Spec.blockRow (blockOf t) r)
  unfold Cert.Spec.tm
  exact congrArg Ideal.logistic (congrArg₂ (· + ·)
    (Finset.sum_congr rfl fun k _ => congrArg₂ (· * ·) (blk_2 V c t (blockOf t) rfl r k) (blk_4 V c t (blockOf t) rfl r k))
    (Finset.sum_congr rfl fun k _ => congrArg₂ (· * ·) (blk_3 V c t (blockOf t) rfl r k) (blk_5 V c t (blockOf t) rfl r k)))

/-- Row `i` of the second result lies in the block of point `i / 1024`. -/
theorem cover9 (i : S8192x1.Idx) : ∃ t : Fin cfg2.N, (cfg2.win 9).flush t = true ∧ i ∈ ((cfg2.win 9).blk t).view.set := by
  have hN : cfg2.N = 8 := N_2
  have hi0 : (i 0).val < 8192 := (i 0).isLt
  have hi1 : (i 1).val < 1 := (i 1).isLt
  obtain ⟨t, ht⟩ : ∃ t : Fin cfg2.N, t.val = (i 0).val / 1024 := ⟨⟨(i 0).val / 1024, by omega⟩, rfl⟩
  refine ⟨t, flush2_9 t, ?_⟩
  obtain ⟨e0, e1⟩ := idx2_9 t
  show i ∈ ((View.whole main_v104_1).slice (win2_9.rect t)).set
  rw [View.set_slice_whole, Rect.mem_set_unit]
  intro a
  match a with
  | ⟨0, _⟩ => show win2_9.index t (0 : Fin 2) * 1024 ≤ (i 0).val ∧ (i 0).val < win2_9.index t (0 : Fin 2) * 1024 + 1024; rw [e0]; omega
  | ⟨1, _⟩ => show win2_9.index t (1 : Fin 2) * 1 ≤ (i 1).val ∧ (i 1).val < win2_9.index t (1 : Fin 2) * 1 + 1; rw [e1]; omega

/-- THE SECOND RESULT after the region, at row `i`. -/
theorem final9 (c : Dev nD) (i : Fin 8192) : (dat2 (F := Ideal) V c).arrAt 9 cfg2.N (ix2 i (0 : Fin 1))
    = Cert.Spec.tm (fun a k => V c main_v90 (ix2 a k)) (fun a k => V c main_v97 (ix2 a k)) (fun a k => V c main_v100 (ix2 a k)) (fun a k => V c main_v103 (ix2 a k)) i :=
  congrFun ((dat2 V c).arrAt_eq_of_cover 9 (G9 V c) (fun t _ => flushed9_eq V c t) (cover9)) (ix2 i (0 : Fin 1))

end Final9

/-! ## The third result: the accumulator, point by point -/

section Acc
variable (V : (c : Dev nD) → (b : Ref sig .tc) → Buf (Elt Ideal) ((c : Thread nD τ).loc b))

/-- What point `t` adds to the accumulator. -/
def partAt (c : Dev nD) (t : Fin cfg2.N) : EReal :=
  part (iblk2 V c 2 t) (iblk2 V c 3 t) (iblk2 V c 6 t) (iblk2 V c 7 t)

/-- The first point: the reset, then its part. -/
theorem acc_A (c : Dev nD) (t : Fin cfg2.N) (h0 : t.val % 8 = 0) (h1 : ¬t.val % 8 = 7) :
    (outsAt2 V c t.val t.isLt).2.2 (ix2 (0 : Fin 1) (0 : Fin 1)) = Ideal.ofBits .f32 0x00000000#32 + partAt V c t := by
  rw [outsAt2_A V c t h0 h1]
  dsimp only
  refine (congrFun (found_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)) (ix2 (0 : Fin 1) (0 : Fin 1))).trans ?_
  exact pay1_apply (iblk2 V c 2 t) (iblk2 V c 3 t) (iblk2 V c 6 t) (iblk2 V c 7 t) (k2_pay3 (F := Ideal))

/-- A middle point: what the point before left, plus its part. -/
theorem acc_B (c : Dev nD) (t : Fin cfg2.N) (h0 : ¬t.val % 8 = 0) (h1 : ¬t.val % 8 = 7) :
    (outsAt2 V c t.val t.isLt).2.2 (ix2 (0 : Fin 1) (0 : Fin 1))
      = (outsAt2 V c (t.val - 1) (Nat.lt_of_le_of_lt (Nat.sub_le _ _) t.isLt)).2.2 (ix2 (0 : Fin 1) (0 : Fin 1)) + partAt V c t := by
  rw [outsAt2_B V c t h0 h1]
  dsimp only
  refine (congrFun (found_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2) (ix2 (0 : Fin 1) (0 : Fin 1))).trans ?_
  exact pay1_apply (iblk2 V c 2 t) (iblk2 V c 3 t) (iblk2 V c 6 t) (iblk2 V c 7 t) (outsAt2 V c (t.val - 1) (Nat.lt_of_le_of_lt (Nat.sub_le _ _) t.isLt)).2.2

/-- The last point: the same, then times the word of 2⁻¹³. -/
theorem acc_C (c : Dev nD) (t : Fin cfg2.N) (h0 : ¬t.val % 8 = 0) (h1 : t.val % 8 = 7) :
    (outsAt2 V c t.val t.isLt).2.2 (ix2 (0 : Fin 1) (0 : Fin 1))
      = ((outsAt2 V c (t.val - 1) (Nat.lt_of_le_of_lt (Nat.sub_le _ _) t.isLt)).2.2 (ix2 (0 : Fin 1) (0 : Fin 1)) + partAt V c t) * Ideal.ofBits .f32 0x39000000#32 := by
  rw [outsAt2_C V c t h0 h1]
  dsimp only
  refine (congrFun (found_C_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2) (ix2 (0 : Fin 1) (0 : Fin 1))).trans ?_
  refine (pay2_apply _).trans ?_
  exact congrArg (· * Ideal.ofBits .f32 0x39000000#32)
    (pay1_apply (iblk2 V c 2 t) (iblk2 V c 3 t) (iblk2 V c 6 t) (iblk2 V c 7 t) (outsAt2 V c (t.val - 1) (Nat.lt_of_le_of_lt (Nat.sub_le _ _) t.isLt)).2.2)

/-- A point's part, by its number (zero past the grid). -/
def partN (c : Dev nD) (n : ℕ) : EReal := if h : n < cfg2.N then partAt V c ⟨n, h⟩ else 0

/-- Before the last point the accumulator holds the parts so far, added in point order. -/
theorem acc_eq (c : Dev nD) : ∀ (n : ℕ) (h : n < cfg2.N), n < 7 →
    (outsAt2 V c n h).2.2 (ix2 (0 : Fin 1) (0 : Fin 1)) = ∑ t ∈ Finset.range (n + 1), partN V c t
  | 0, h, _ => by
    have e := acc_A V c ⟨0, h⟩ rfl (by dsimp only; omega)
    rw [Finset.sum_range_one, partN, dif_pos h]
    refine e.trans ?_
    rw [Ideal.ofBits_zero_f32, zero_add]
  | n + 1, h, h7 => by
    have e := acc_B V c ⟨n + 1, h⟩ (by dsimp only; omega) (by dsimp only; omega)
    rw [Finset.sum_range_succ, ← acc_eq c n (Nat.lt_of_succ_lt h) (by omega), partN, dif_pos h]
    exact e

/-- After the last point: the eight parts added up, times the word of 2⁻¹³. -/
theorem acc_last (c : Dev nD) (h : 7 < cfg2.N) :
    (outsAt2 V c 7 h).2.2 (ix2 (0 : Fin 1) (0 : Fin 1)) = (∑ t ∈ Finset.range 8, partN V c t) * Ideal.ofBits .f32 0x39000000#32 := by
  have e := acc_C V c ⟨7, h⟩ (by dsimp only; omega) rfl
  rw [Finset.sum_range_succ, ← acc_eq V c 6 (Nat.lt_of_succ_lt h) (by omega), partN, dif_pos h]
  exact e

end Acc

/-! ## The third result as the blocked regularizer of the arrays -/

section Final10
variable (V : (c : Dev nD) → (b : Ref sig .tc) → Buf (Elt Ideal) ((c : Thread nD τ).loc b))

theorem idx2_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)

/-- The sums of squares of the four blocks the accumulation reads at point `t` are the arrays' block sums. -/
theorem sq_blk6 (c : Dev nD) (t : Fin cfg2.N) :
    sq64 (iblk2 V c 6 t) = Cert.Spec.blockSq (fun a k => V c main_v62 (ix2 a k)) (blockOf t) := by
  unfold sq64 Cert.Spec.blockSq
  exact Finset.sum_congr rfl fun r _ => Finset.sum_congr rfl fun k _ =>
    congrArg₂ (· * ·) (blk_6 V c t (blockOf t) rfl r k) (blk_6 V c t (blockOf t) rfl r k)

theorem sq_blk7 (c : Dev nD) (t : Fin cfg2.N) :
    sq64 (iblk2 V c 7 t) = Cert.Spec.blockSq (fun a k => V c main_v69 (ix2 a k)) (blockOf t) := by
  unfold sq64 Cert.Spec.blockSq
  exact Finset.sum_congr rfl fun r _ => Finset.sum_congr rfl fun k _ =>
    congrArg₂ (· * ·) (blk_7 V c t (blockOf t) rfl r k) (blk_7 V c t (blockOf t) rfl r k)

theorem sq_blk2 (c : Dev nD) (t : Fin cfg2.N) :
    sq256 (iblk2 V c 2 t) = Cert.Spec.blockSq (fun a k => V c main_v90 (ix2 a k)) (blockOf t) := by
  unfold sq256 Cert.Spec.blockSq
  exact Finset.sum_congr rfl fun r _ => Finset.sum_congr rfl fun k _ =>
    congrArg₂ (· * ·) (blk_2 V c t (blockOf t) rfl r k) (blk_2 V c t (blockOf t) rfl r k)

theorem sq_blk3 (c : Dev nD) (t : Fin cfg2.N) :
    sq256 (iblk2 V c 3 t) = Cert.Spec.blockSq (fun a k => V c main_v97 (ix2 a k)) (blockOf t) := by
  unfold sq256 Cert.Spec.blockSq
  exact Finset.sum_congr rfl fun r _ => Finset.sum_congr rfl fun k _ =>
    congrArg₂ (· * ·) (blk_3 V c t (blockOf t) rfl r k) (blk_3 V c t (blockOf t) rfl r k)

/-- So a point's part is the block's partial regularizer. -/
theorem partAt_eq (c : Dev nD) (t : Fin cfg2.N) :
    partAt V c t = Cert.Spec.partialReg (fun a k => V c main_v62 (ix2 a k)) (fun a k => V c main_v69 (ix2 a k)) (fun a k => V c main_v90 (ix2 a k)) (fun a k => V c main_v97 (ix2 a k)) (blockOf t) := by
  unfold partAt part Cert.Spec.partialReg
  exact congrArg (Cert.Spec.half * ·) (congrArg₂ (· + ·) (congrArg₂ (· + ·) (congrArg₂ (· + ·)
    (sq_blk6 V c t) (sq_blk7 V c t)) (sq_blk2 V c t)) (sq_blk3 V c t))

/-- The eight parts by number are the eight blocks' partial regularizers. -/
theorem sum_parts (c : Dev nD) : ∑ t ∈ Finset.range 8, partN V c t
    = ∑ t : Fin 8, Cert.Spec.partialReg (fun a k => V c main_v62 (ix2 a k)) (fun a k => V c main_v69 (ix2 a k)) (fun a k => V c main_v90 (ix2 a k)) (fun a k => V c main_v97 (ix2 a k)) t := by
  rw [Finset.sum_range]
  refine Finset.sum_congr rfl fun t _ => ?_
  have h : t.val < cfg2.N := lt_of_lt_of_eq t.isLt N_2.symm
  rw [partN, dif_pos h]
  exact partAt_eq V c ⟨t.val, h⟩

/-- The third result as one function of the arrays: the blocked regularizer, at its one index. -/
def G10 (c : Dev nD) : S1x1.Idx → EReal := fun _ =>
  Cert.Spec.regBlocked (fun a k => V c main_v62 (ix2 a k)) (fun a k => V c main_v69 (ix2 a k)) (fun a k => V c main_v90 (ix2 a k)) (fun a k => V c main_v97 (ix2 a k))

/-- The one write-back of the accumulator, after the last point, writes it. -/
theorem flushed10_eq (c : Dev nD) (t : Fin cfg2.N) (hf : (cfg2.win 10).flush t = true) :
    (dat2 V c).flushed 10 t = ((cfg2.win 10).blk t).view.read (Elt Ideal) (G10 V c) := by
  have hN : cfg2.N = 8 := N_2
  have h7N : 7 < cfg2.N := by rw [hN]; decide
  have h7 : t.val = 7 := by have := (flush2_10 t).mp hf; have := t.isLt; omega
  obtain rfl : t = ⟨7, h7N⟩ := Fin.ext h7
  show (cfg2.win 10).cut (grid2.coords ⟨7, _⟩) ((dat2 V c).after 10 ⟨7, _⟩) = _
  rw [after2_10]
  funext j
  rw [View.read_apply]
  obtain rfl : j = (ix2 (0 : Fin 1) (0 : Fin 1)) := funext fun a => match a with
    | ⟨0, _⟩ => Fin.ext (by have h : (j 0).val < 1 := (j 0).isLt; show (j 0).val = 0; omega)
    | ⟨1, _⟩ => Fin.ext (by have h : (j 1).val < 1 := (j 1).isLt; show (j 1).val = 0; omega)
  show (outsAt2 V c 7 _).2.2 (ix2 (0 : Fin 1) (0 : Fin 1)) = Cert.Spec.regBlocked (fun a k => V c main_v62 (ix2 a k)) (fun a k => V c main_v69 (ix2 a k)) (fun a k => V c main_v90 (ix2 a k)) (fun a k => V c main_v97 (ix2 a k))
  rw [acc_last, sum_parts]
  rfl

/-- The accumulator's one entry lies in the last point's block. -/
theorem cover10 (i : S1x1.Idx) : ∃ t : Fin cfg2.N, (cfg2.win 10).flush t = true ∧ i ∈ ((cfg2.win 10).blk t).view.set := by
  have hN : cfg2.N = 8 := N_2
  have hi0 : (i 0).val < 1 := (i 0).isLt
  have hi1 : (i 1).val < 1 := (i 1).isLt
  obtain ⟨t, ht⟩ : ∃ t : Fin cfg2.N, t.val = 7 := ⟨⟨7, by omega⟩, rfl⟩
  refine ⟨t, (flush2_10 t).mpr (by rw [ht]), ?_⟩
  obtain ⟨e0, e1⟩ := idx2_10 t
  show i ∈ ((View.whole main_v104_2).slice (win2_10.rect t)).set
  rw [View.set_slice_whole, Rect.mem_set_unit]
  intro a
  match a with
  | ⟨0, _⟩ => show win2_10.index t (0 : Fin 2) * 1 ≤ (i 0).val ∧ (i 0).val < win2_10.index t (0 : Fin 2) * 1 + 1; rw [e0]; omega
  | ⟨1, _⟩ => show win2_10.index t (1 : Fin 2) * 1 ≤ (i 1).val ∧ (i 1).val < win2_10.index t (1 : Fin 2) * 1 + 1; rw [e1]; omega

/-- THE THIRD RESULT after the region. -/
theorem final10 (c : Dev nD) : (dat2 (F := Ideal) V c).arrAt 10 cfg2.N (ix2 (0 : Fin 1) (0 : Fin 1))
    = Cert.Spec.regBlocked (fun a k => V c main_v62 (ix2 a k)) (fun a k => V c main_v69 (ix2 a k)) (fun a k => V c main_v90 (ix2 a k)) (fun a k => V c main_v97 (ix2 a k)) :=
  congrFun ((dat2 V c).arrAt_eq_of_cover 10 (G10 V c) (flushed10_eq V c) cover10) (ix2 (0 : Fin 1) (0 : Fin 1))

end Final10

end Cert.KFin

end
-- ==== Proof.RefRun.lean ====
import proofs.«111852_j28475633172831_1_alg».proof.Proof.RefOps
import proofs.«111852_j28475633172831_1_alg».proof.Proof.RefOut

/-!
  The reference's run, read back.

  The reference is a straight line of 197 array operations, so every buffer ends at the fold of the operations'
  results over the launch contents. The line is read in twelve consecutive stretches. Over ANY contents `W` found at
  a stretch's start, a buffer the stretch writes ends at a composed term of what `W` holds in the buffers the stretch
  reads (`sK_…`), and a buffer it does not write keeps what `W` held (`keepK`). Walking a result back through the
  stretches, from the last to the first, replaces every buffer by its term until only the argument arrays are left:
  the three results as functions of the arguments (`res_…`), which are the functions `Cert.RefOut` names. No
  operation writes an argument, so each argument ends as launched (`keep_all`).
-/

noncomputable section

namespace Cert.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The two embedding tables stacked along the rows. -/
def cat0 (a : (⟨S60000x64, .f32⟩ : BufTy).Contents (Elt F)) (b : (⟨S40000x64, .f32⟩ : BufTy).Contents (Elt F)) :
    (⟨S100000x64, .f32⟩ : BufTy).Contents (Elt F) :=
  concatenate S100000x64 0 [⟨S60000x64, a⟩, ⟨S40000x64, b⟩] concatenates_S60000x64_S40000x64_S100000x64_d0

/-- A batch of time features beside its expansion, along the columns. -/
def cat1 (a b : (⟨S8192x128, .f32⟩ : BufTy).Contents (Elt F)) : (⟨S8192x256, .f32⟩ : BufTy).Contents (Elt F) :=
  concatenate S8192x256 1 [⟨S8192x128, a⟩, ⟨S8192x128, b⟩] concatenates_S8192x128_S8192x128_S8192x256_d1

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation that writes the one buffer `y` writes within any list of buffers holding `y`. -/
theorem wr {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-! ## What each stretch leaves in the buffers later stretches read -/

theorem s1_main_v0 (W : Valuation τ sig (Elt F)) :
    after ops1 W (Proc.devRef .tc main_v0) = cat0 (W (Proc.devRef .tc main_arg5)) (W (Proc.devRef .tc main_arg6)) := by
  after_results_simp <;> (try simp only [TRef.toBuf, TRef.ofBuf, cast_eq, id]) <;> rfl

theorem s1_main_v12 (W : Valuation τ sig (Elt F)) :
    after ops1 W (Proc.devRef .tc main_v12) = broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (W (Proc.devRef .tc main_arg14))) (broadcastInDim S1600000 ![] bcast_S_S1600000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (W (Proc.devRef .tc main_arg14))) (broadcastInDim S1600000 ![] bcast_S_S1600000 (constant S_ .f32 0x3F800000#32))) (broadcastInDim S100000 ![] bcast_S_S100000 (constant S_ .f32 0x3F800000#32)))) (broadcastInDim S100000 ![] bcast_S_S100000 (id (constant S_ .f32 0x00000000#32)))) := by
  after_results_simp <;> (try simp only [TRef.toBuf, TRef.ofBuf, cast_eq, id]) <;> rfl

theorem s2_main_v25 (W : Valuation τ sig (Elt F)) :
    after ops2 W (Proc.devRef .tc main_v25) = addf (W (Proc.devRef .tc main_v0)) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (Proc.devRef .tc main_arg14))) (Host.gather gather_S100000x64_S1600000x1_S1600000x64_1_0_n_n_0_1_164 (W (Proc.devRef .tc main_v0)) (broadcastInDim S1600000x1 ![0] bcast_S1600000_S1600000x1_0 (select (cmpi .slt (W (Proc.devRef .tc main_arg13)) (broadcastInDim S1600000 ![] bcast_S_S1600000 (constantI S_ 32 0#32))) (addi (W (Proc.devRef .tc main_arg13)) (broadcastInDim S1600000 ![] bcast_S_S1600000 (constantI S_ 32 100000#32))) (W (Proc.devRef .tc main_arg13)))))) (broadcastInDim S100000x64 ![0, 1] bcast_S100000x1_S100000x64_0_1 (W (Proc.devRef .tc main_v12)))) := by
  after_results_simp <;> rfl

theorem s2_main_v24 (W : Valuation τ sig (Elt F)) :
    after ops2 W (Proc.devRef .tc main_v24) = mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (Proc.devRef .tc main_arg14))) (Host.gather gather_S100000x64_S1600000x1_S1600000x64_1_0_n_n_0_1_164 (W (Proc.devRef .tc main_v0)) (broadcastInDim S1600000x1 ![0] bcast_S1600000_S1600000x1_0 (select (cmpi .slt (W (Proc.devRef .tc main_arg13)) (broadcastInDim S1600000 ![] bcast_S_S1600000 (constantI S_ 32 0#32))) (addi (W (Proc.devRef .tc main_arg13)) (broadcastInDim S1600000 ![] bcast_S_S1600000 (constantI S_ 32 100000#32))) (W (Proc.devRef .tc main_arg13)))))) (broadcastInDim S100000x64 ![0, 1] bcast_S100000x1_S100000x64_0_1 (W (Proc.devRef .tc main_v12))) := by
  after_results_simp <;> rfl

theorem s3_main_v38 (W : Valuation τ sig (Elt F)) :
    after ops3 W (Proc.devRef .tc main_v38) = addf (W (Proc.devRef .tc main_v25)) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (Proc.devRef .tc main_arg14))) (Host.gather gather_S100000x64_S1600000x1_S1600000x64_1_0_n_n_0_1_164 (W (Proc.devRef .tc main_v24)) (broadcastInDim S1600000x1 ![0] bcast_S1600000_S1600000x1_0 (select (cmpi .slt (W (Proc.devRef .tc main_arg13)) (broadcastInDim S1600000 ![] bcast_S_S1600000 (constantI S_ 32 0#32))) (addi (W (Proc.devRef .tc main_arg13)) (broadcastInDim S1600000 ![] bcast_S_S1600000 (constantI S_ 32 100000#32))) (W (Proc.devRef .tc main_arg13)))))) (broadcastInDim S100000x64 ![0, 1] bcast_S100000x1_S100000x64_0_1 (W (Proc.devRef .tc main_v12)))) := by
  after_results_simp <;> rfl

theorem s3_main_v37 (W : Valuation τ sig (Elt F)) :
    after ops3 W (Proc.devRef .tc main_v37) = mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (Proc.devRef .tc main_arg14))) (Host.gather gather_S100000x64_S1600000x1_S1600000x64_1_0_n_n_0_1_164 (W (Proc.devRef .tc main_v24)) (broadcastInDim S1600000x1 ![0] bcast_S1600000_S1600000x1_0 (select (cmpi .slt (W (Proc.devRef .tc main_arg13)) (broadcastInDim S1600000 ![] bcast_S_S1600000 (constantI S_ 32 0#32))) (addi (W (Proc.devRef .tc main_arg13)) (broadcastInDim S1600000 ![] bcast_S_S1600000 (constantI S_ 32 100000#32))) (W (Proc.devRef .tc main_arg13)))))) (broadcastInDim S100000x64 ![0, 1] bcast_S100000x1_S100000x64_0_1 (W (Proc.devRef .tc main_v12))) := by
  after_results_simp <;> rfl

theorem s4_main_v54 (W : Valuation τ sig (Elt F)) :
    after ops4 W (Proc.devRef .tc main_v54) = extractStridedSlice S60000x64 ![0, 0] (Host.divf (addf (W (Proc.devRef .tc main_v38)) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (Proc.devRef .tc main_arg14))) (Host.gather gather_S100000x64_S1600000x1_S1600000x64_1_0_n_n_0_1_164 (W (Proc.devRef .tc main_v37)) (broadcastInDim S1600000x1 ![0] bcast_S1600000_S1600000x1_0 (select (cmpi .slt (W (Proc.devRef .tc main_arg13)) (broadcastInDim S1600000 ![] bcast_S_S1600000 (constantI S_ 32 0#32))) (addi (W (Proc.devRef .tc main_arg13)) (broadcastInDim S1600000 ![] bcast_S_S1600000 (constantI S_ 32 100000#32))) (W (Proc.devRef .tc main_arg13)))))) (broadcastInDim S100000x64 ![0, 1] bcast_S100000x1_S100000x64_0_1 (W (Proc.devRef .tc main_v12))))) (broadcastInDim S100000x64 ![] bcast_S_S100000x64 (constant S_ .f32 0x40800000#32))) slices_S100000x64_S60000x64_0_0 := by
  after_results_simp <;> rfl

theorem s4_main_v55 (W : Valuation τ sig (Elt F)) :
    after ops4 W (Proc.devRef .tc main_v55) = extractStridedSlice S40000x64 ![60000, 0] (Host.divf (addf (W (Proc.devRef .tc main_v38)) (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (Proc.devRef .tc main_arg14))) (Host.gather gather_S100000x64_S1600000x1_S1600000x64_1_0_n_n_0_1_164 (W (Proc.devRef .tc main_v37)) (broadcastInDim S1600000x1 ![0] bcast_S1600000_S1600000x1_0 (select (cmpi .slt (W (Proc.devRef .tc main_arg13)) (broadcastInDim S1600000 ![] bcast_S_S1600000 (constantI S_ 32 0#32))) (addi (W (Proc.devRef .tc main_arg13)) (broadcastInDim S1600000 ![] bcast_S_S1600000 (constantI S_ 32 100000#32))) (W (Proc.devRef .tc main_arg13)))))) (broadcastInDim S100000x64 ![0, 1] bcast_S100000x1_S100000x64_0_1 (W (Proc.devRef .tc main_v12))))) (broadcastInDim S100000x64 ![] bcast_S_S100000x64 (constant S_ .f32 0x40800000#32))) slices_S100000x64_S40000x64_60000_0 := by
  after_results_simp <;> rfl

theorem s5_main_v71 (W : Valuation τ sig (Elt F)) :
    after ops5 W (Proc.devRef .tc main_v71) = Host.reduceAdd (mulf (Host.gather gather_S60000x64_S8192x1_S8192x64_1_0_n_n_0_1_164 (W (Proc.devRef .tc main_v54)) (broadcastInDim S8192x1 ![0] bcast_S8192_S8192x1_0 (select (cmpi .slt (W (Proc.devRef .tc main_arg0)) (broadcastInDim S8192 ![] bcast_S_S8192 (constantI S_ 32 0#32))) (addi (W (Proc.devRef .tc main_arg0)) (broadcastInDim S8192 ![] bcast_S_S8192 (constantI S_ 32 60000#32))) (W (Proc.devRef .tc main_arg0))))) (Host.gather gather_S40000x64_S8192x1_S8192x64_1_0_n_n_0_1_164 (W (Proc.devRef .tc main_v55)) (broadcastInDim S8192x1 ![0] bcast_S8192_S8192x1_0 (select (cmpi .slt (W (Proc.devRef .tc main_arg1)) (broadcastInDim S8192 ![] bcast_S_S8192 (constantI S_ 32 0#32))) (addi (W (Proc.devRef .tc main_arg1)) (broadcastInDim S8192 ![] bcast_S_S8192 (constantI S_ 32 40000#32))) (W (Proc.devRef .tc main_arg1)))))) (constant S_ .f32 0x00000000#32) reducesTo_S8192x64_S8192_d1 h_S_ := by
  after_results_simp <;> rfl

theorem s6_main_v78 (W : Valuation τ sig (Elt F)) :
    after ops6 W (Proc.devRef .tc main_v78) = Host.gather gather_S60000x256_S8192x1_S8192x256_1_0_n_n_0_1_1256 (W (Proc.devRef .tc main_arg7)) (broadcastInDim S8192x1 ![0] bcast_S8192_S8192x1_0 (select (cmpi .slt (W (Proc.devRef .tc main_arg0)) (broadcastInDim S8192 ![] bcast_S_S8192 (constantI S_ 32 0#32))) (addi (W (Proc.devRef .tc main_arg0)) (broadcastInDim S8192 ![] bcast_S_S8192 (constantI S_ 32 60000#32))) (W (Proc.devRef .tc main_arg0)))) := by
  after_results_simp <;> rfl

theorem s6_main_v85 (W : Valuation τ sig (Elt F)) :
    after ops6 W (Proc.devRef .tc main_v85) = Host.gather gather_S40000x256_S8192x1_S8192x256_1_0_n_n_0_1_1256 (W (Proc.devRef .tc main_arg8)) (broadcastInDim S8192x1 ![0] bcast_S8192_S8192x1_0 (select (cmpi .slt (W (Proc.devRef .tc main_arg1)) (broadcastInDim S8192 ![] bcast_S_S8192 (constantI S_ 32 0#32))) (addi (W (Proc.devRef .tc main_arg1)) (broadcastInDim S8192 ![] bcast_S_S8192 (constantI S_ 32 40000#32))) (W (Proc.devRef .tc main_arg1)))) := by
  after_results_simp <;> rfl

theorem s7_main_v94 (W : Valuation τ sig (Elt F)) :
    after ops7 W (Proc.devRef .tc main_v94) = addf (Host.dotGeneral dot_S8192x32_S32x128_S8192x128_1_0_0_1_n_n none (maximumf (addf (Host.dotGeneral dot_S8192x128_S128x32_S8192x32_1_0_0_1_n_n none (W (Proc.devRef .tc main_arg3)) (W (Proc.devRef .tc main_arg9))) (broadcastInDim S8192x32 ![0, 1] bcast_S1x32_S8192x32_0_1 (broadcastInDim S1x32 ![1] bcast_S32_S1x32_1 (W (Proc.devRef .tc main_arg10))))) (broadcastInDim S8192x32 ![] bcast_S_S8192x32 (constant S_ .f32 0x00000000#32))) (W (Proc.devRef .tc main_arg11))) (broadcastInDim S8192x128 ![0, 1] bcast_S1x128_S8192x128_0_1 (broadcastInDim S1x128 ![1] bcast_S128_S1x128_1 (W (Proc.devRef .tc main_arg12)))) := by
  after_results_simp <;> (try simp only [TRef.toBuf, TRef.ofBuf, cast_eq, id]) <;> rfl

theorem s8_main_v95 (W : Valuation τ sig (Elt F)) :
    after ops8 W (Proc.devRef .tc main_v95) = cat1 (W (Proc.devRef .tc main_arg3)) (W (Proc.devRef .tc main_v94)) := by
  after_results_simp <;> (try simp only [TRef.toBuf, TRef.ofBuf, cast_eq, id]) <;> rfl

theorem s8_main_v104 (W : Valuation τ sig (Elt F)) :
    after ops8 W (Proc.devRef .tc main_v104) = addf (Host.dotGeneral dot_S8192x32_S32x128_S8192x128_1_0_0_1_n_n none (maximumf (addf (Host.dotGeneral dot_S8192x128_S128x32_S8192x32_1_0_0_1_n_n none (W (Proc.devRef .tc main_arg4)) (W (Proc.devRef .tc main_arg9))) (broadcastInDim S8192x32 ![0, 1] bcast_S1x32_S8192x32_0_1 (broadcastInDim S1x32 ![1] bcast_S32_S1x32_1 (W (Proc.devRef .tc main_arg10))))) (broadcastInDim S8192x32 ![] bcast_S_S8192x32 (constant S_ .f32 0x00000000#32))) (W (Proc.devRef .tc main_arg11))) (broadcastInDim S8192x128 ![0, 1] bcast_S1x128_S8192x128_0_1 (broadcastInDim S1x128 ![1] bcast_S128_S1x128_1 (W (Proc.devRef .tc main_arg12)))) := by
  after_results_simp <;> (try simp only [TRef.toBuf, TRef.ofBuf, cast_eq, id]) <;> rfl

theorem s9_main_v107 (W : Valuation τ sig (Elt F)) :
    after ops9 W (Proc.devRef .tc main_v107) = Host.reduceAdd (mulf (W (Proc.devRef .tc main_v78)) (W (Proc.devRef .tc main_v95))) (constant S_ .f32 0x00000000#32) reducesTo_S8192x256_S8192_d1 h_S_ := by
  after_results_simp <;> rfl

theorem s9_main_v109 (W : Valuation τ sig (Elt F)) :
    after ops9 W (Proc.devRef .tc main_v109) = Host.reduceAdd (mulf (W (Proc.devRef .tc main_v85)) (cat1 (W (Proc.devRef .tc main_arg4)) (W (Proc.devRef .tc main_v104)))) (constant S_ .f32 0x00000000#32) reducesTo_S8192x256_S8192_d1 h_S_ := by
  after_results_simp <;> rfl

theorem s10_main_v116 (W : Valuation τ sig (Elt F)) :
    after ops10 W (Proc.devRef .tc main_v116) = Host.gather gather_S60000x64_S8192x1_S8192x64_1_0_n_n_0_1_164 (W (Proc.devRef .tc main_arg5)) (broadcastInDim S8192x1 ![0] bcast_S8192_S8192x1_0 (select (cmpi .slt (W (Proc.devRef .tc main_arg0)) (broadcastInDim S8192 ![] bcast_S_S8192 (constantI S_ 32 0#32))) (addi (W (Proc.devRef .tc main_arg0)) (broadcastInDim S8192 ![] bcast_S_S8192 (constantI S_ 32 60000#32))) (W (Proc.devRef .tc main_arg0)))) := by
  after_results_simp <;> rfl

theorem s10_main_v123 (W : Valuation τ sig (Elt F)) :
    after ops10 W (Proc.devRef .tc main_v123) = Host.gather gather_S40000x64_S8192x1_S8192x64_1_0_n_n_0_1_164 (W (Proc.devRef .tc main_arg6)) (broadcastInDim S8192x1 ![0] bcast_S8192_S8192x1_0 (select (cmpi .slt (W (Proc.devRef .tc main_arg1)) (broadcastInDim S8192 ![] bcast_S_S8192 (constantI S_ 32 0#32))) (addi (W (Proc.devRef .tc main_arg1)) (broadcastInDim S8192 ![] bcast_S_S8192 (constantI S_ 32 40000#32))) (W (Proc.devRef .tc main_arg1)))) := by
  after_results_simp <;> rfl

theorem s11_main_v136 (W : Valuation τ sig (Elt F)) :
    after ops11 W (Proc.devRef .tc main_v136) = Host.divf (mulf (constant S_ .f32 0x3F000000#32) (addf (addf (addf (Host.reduceAdd (mulf (W (Proc.devRef .tc main_v116)) (W (Proc.devRef .tc main_v116))) (constant S_ .f32 0x00000000#32) reducesTo_S8192x64_S_d0_1 h_S_) (Host.reduceAdd (mulf (W (Proc.devRef .tc main_v123)) (W (Proc.devRef .tc main_v123))) (constant S_ .f32 0x00000000#32) reducesTo_S8192x64_S_d0_1 h_S_)) (Host.reduceAdd (mulf (W (Proc.devRef .tc main_v78)) (W (Proc.devRef .tc main_v78))) (constant S_ .f32 0x00000000#32) reducesTo_S8192x256_S_d0_1 h_S_)) (Host.reduceAdd (mulf (W (Proc.devRef .tc main_v85)) (W (Proc.devRef .tc main_v85))) (constant S_ .f32 0x00000000#32) reducesTo_S8192x256_S_d0_1 h_S_))) (constant S_ .f32 0x46000000#32) := by
  after_results_simp <;> rfl

theorem s12_main_v142 (W : Valuation τ sig (Elt F)) :
    after ops12 W (Proc.devRef .tc main_v142) = Host.divf (broadcastInDim S8192 ![] bcast_S_S8192 (constant S_ .f32 0x3F800000#32)) (addf (broadcastInDim S8192 ![] bcast_S_S8192 (constant S_ .f32 0x3F800000#32)) (Host.exp (Host.negf (W (Proc.devRef .tc main_v71))))) := by
  after_results_simp <;> rfl

theorem s12_main_v149 (W : Valuation τ sig (Elt F)) :
    after ops12 W (Proc.devRef .tc main_v149) = Host.divf (broadcastInDim S8192 ![] bcast_S_S8192 (constant S_ .f32 0x3F800000#32)) (addf (broadcastInDim S8192 ![] bcast_S_S8192 (constant S_ .f32 0x3F800000#32)) (Host.exp (Host.negf (addf (W (Proc.devRef .tc main_v107)) (W (Proc.devRef .tc main_v109)))))) := by
  after_results_simp <;> rfl

/-! ## A stretch keeps what it does not write -/

/-- The buffers stretch 1 writes. -/
abbrev writes1 : List (Ref sig .tc) :=
  [main_v0, main_cst, main_v1, main_cst_0, main_v2, main_v3, main_v4, main_cst_1, main_v5, main_v6, main_cst_2, main_v7, main_v8, main_cst_3, main_v9, main_v10, main_cst_4, main_call0_v0, main_call0_v1, main_v11, main_v12]
theorem writes_sub1 : (ops1 : List (HloOp τ sig (Elt F))).Forall fun op =>
    op.writes ⊆ ((writes1).map (Proc.devRef (τ := τ) .tc)).toFinset :=
  ⟨wr (y := main_v0) (by decide), wr (y := main_cst) (by decide), wr (y := main_v1) (by decide), wr (y := main_cst_0) (by decide), wr (y := main_v2) (by decide), wr (y := main_v3) (by decide), wr (y := main_v4) (by decide), wr (y := main_cst_1) (by decide), wr (y := main_v5) (by decide), wr (y := main_v6) (by decide), wr (y := main_cst_2) (by decide), wr (y := main_v7) (by decide), wr (y := main_v8) (by decide), wr (y := main_cst_3) (by decide), wr (y := main_v9) (by decide), wr (y := main_v10) (by decide), wr (y := main_cst_4) (by decide), wr (y := main_call0_v0) (by decide), wr (y := main_call0_v1) (by decide), wr (y := main_v11) (by decide), wr (y := main_v12) (by decide)⟩
theorem keep1 (W : Valuation τ sig (Elt F)) (r : Ref sig .tc) (hr : r ∉ writes1) :
    after ops1 W (Proc.devRef .tc r) = W (Proc.devRef .tc r) :=
  after_of_writes_sub ops1 W writes_sub1 hr

/-- The buffers stretch 2 writes. -/
abbrev writes2 : List (Ref sig .tc) :=
  [main_c, main_v13, main_v14, main_c_5, main_v15, main_v16, main_v17, main_v18, main_v19, main_cst_6, main_v20, main_v21, main_v22, main_v23, main_v24, main_v25]
theorem writes_sub2 : (ops2 : List (HloOp τ sig (Elt F))).Forall fun op =>
    op.writes ⊆ ((writes2).map (Proc.devRef (τ := τ) .tc)).toFinset :=
  ⟨wr (y := main_c) (by decide), wr (y := main_v13) (by decide), wr (y := main_v14) (by decide), wr (y := main_c_5) (by decide), wr (y := main_v15) (by decide), wr (y := main_v16) (by decide), wr (y := main_v17) (by decide), wr (y := main_v18) (by decide), wr (y := main_v19) (by decide), wr (y := main_cst_6) (by decide), wr (y := main_v20) (by decide), wr (y := main_v21) (by decide), wr (y := main_v22) (by decide), wr (y := main_v23) (by decide), wr (y := main_v24) (by decide), wr (y := main_v25) (by decide)⟩
theorem keep2 (W : Valuation τ sig (Elt F)) (r : Ref sig .tc) (hr : r ∉ writes2) :
    after ops2 W (Proc.devRef .tc r) = W (Proc.devRef .tc r) :=
  after_of_writes_sub ops2 W writes_sub2 hr

/-- The buffers stretch 3 writes. -/
abbrev writes3 : List (Ref sig .tc) :=
  [main_c_7, main_v26, main_v27, main_c_8, main_v28, main_v29, main_v30, main_v31, main_v32, main_cst_9, main_v33, main_v34, main_v35, main_v36, main_v37, main_v38]
theorem writes_sub3 : (ops3 : List (HloOp τ sig (Elt F))).Forall fun op =>
    op.writes ⊆ ((writes3).map (Proc.devRef (τ := τ) .tc)).toFinset :=
  ⟨wr (y := main_c_7) (by decide), wr (y := main_v26) (by decide), wr (y := main_v27) (by decide), wr (y := main_c_8) (by decide), wr (y := main_v28) (by decide), wr (y := main_v29) (by decide), wr (y := main_v30) (by decide), wr (y := main_v31) (by decide), wr (y := main_v32) (by decide), wr (y := main_cst_9) (by decide), wr (y := main_v33) (by decide), wr (y := main_v34) (by decide), wr (y := main_v35) (by decide), wr (y := main_v36) (by decide), wr (y := main_v37) (by decide), wr (y := main_v38) (by decide)⟩
theorem keep3 (W : Valuation τ sig (Elt F)) (r : Ref sig .tc) (hr : r ∉ writes3) :
    after ops3 W (Proc.devRef .tc r) = W (Proc.devRef .tc r) :=
  after_of_writes_sub ops3 W writes_sub3 hr

/-- The buffers stretch 4 writes. -/
abbrev writes4 : List (Ref sig .tc) :=
  [main_c_10, main_v39, main_v40, main_c_11, main_v41, main_v42, main_v43, main_v44, main_v45, main_cst_12, main_v46, main_v47, main_v48, main_v49, main_v50, main_v51, main_cst_13, main_v52, main_v53, main_v54, main_v55]
theorem writes_sub4 : (ops4 : List (HloOp τ sig (Elt F))).Forall fun op =>
    op.writes ⊆ ((writes4).map (Proc.devRef (τ := τ) .tc)).toFinset :=
  ⟨wr (y := main_c_10) (by decide), wr (y := main_v39) (by decide), wr (y := main_v40) (by decide), wr (y := main_c_11) (by decide), wr (y := main_v41) (by decide), wr (y := main_v42) (by decide), wr (y := main_v43) (by decide), wr (y := main_v44) (by decide), wr (y := main_v45) (by decide), wr (y := main_cst_12) (by decide), wr (y := main_v46) (by decide), wr (y := main_v47) (by decide), wr (y := main_v48) (by decide), wr (y := main_v49) (by decide), wr (y := main_v50) (by decide), wr (y := main_v51) (by decide), wr (y := main_cst_13) (by decide), wr (y := main_v52) (by decide), wr (y := main_v53) (by decide), wr (y := main_v54) (by decide), wr (y := main_v55) (by decide)⟩
theorem keep4 (W : Valuation τ sig (Elt F)) (r : Ref sig .tc) (hr : r ∉ writes4) :
    after ops4 W (Proc.devRef .tc r) = W (Proc.devRef .tc r) :=
  after_of_writes_sub ops4 W writes_sub4 hr

/-- The buffers stretch 5 writes. -/
abbrev writes5 : List (Ref sig .tc) :=
  [main_c_14, main_v56, main_v57, main_c_15, main_v58, main_v59, main_v60, main_v61, main_v62, main_c_16, main_v63, main_v64, main_c_17, main_v65, main_v66, main_v67, main_v68, main_v69, main_v70, main_cst_18, main_v71]
theorem writes_sub5 : (ops5 : List (HloOp τ sig (Elt F))).Forall fun op =>
    op.writes ⊆ ((writes5).map (Proc.devRef (τ := τ) .tc)).toFinset :=
  ⟨wr (y := main_c_14) (by decide), wr (y := main_v56) (by decide), wr (y := main_v57) (by decide), wr (y := main_c_15) (by decide), wr (y := main_v58) (by decide), wr (y := main_v59) (by decide), wr (y := main_v60) (by decide), wr (y := main_v61) (by decide), wr (y := main_v62) (by decide), wr (y := main_c_16) (by decide), wr (y := main_v63) (by decide), wr (y := main_v64) (by decide), wr (y := main_c_17) (by decide), wr (y := main_v65) (by decide), wr (y := main_v66) (by decide), wr (y := main_v67) (by decide), wr (y := main_v68) (by decide), wr (y := main_v69) (by decide), wr (y := main_v70) (by decide), wr (y := main_cst_18) (by decide), wr (y := main_v71) (by decide)⟩
theorem keep5 (W : Valuation τ sig (Elt F)) (r : Ref sig .tc) (hr : r ∉ writes5) :
    after ops5 W (Proc.devRef .tc r) = W (Proc.devRef .tc r) :=
  after_of_writes_sub ops5 W writes_sub5 hr

/-- The buffers stretch 6 writes. -/
abbrev writes6 : List (Ref sig .tc) :=
  [main_c_19, main_v72, main_v73, main_c_20, main_v74, main_v75, main_v76, main_v77, main_v78, main_c_21, main_v79, main_v80, main_c_22, main_v81, main_v82, main_v83, main_v84, main_v85]
theorem writes_sub6 : (ops6 : List (HloOp τ sig (Elt F))).Forall fun op =>
    op.writes ⊆ ((writes6).map (Proc.devRef (τ := τ) .tc)).toFinset :=
  ⟨wr (y := main_c_19) (by decide), wr (y := main_v72) (by decide), wr (y := main_v73) (by decide), wr (y := main_c_20) (by decide), wr (y := main_v74) (by decide), wr (y := main_v75) (by decide), wr (y := main_v76) (by decide), wr (y := main_v77) (by decide), wr (y := main_v78) (by decide), wr (y := main_c_21) (by decide), wr (y := main_v79) (by decide), wr (y := main_v80) (by decide), wr (y := main_c_22) (by decide), wr (y := main_v81) (by decide), wr (y := main_v82) (by decide), wr (y := main_v83) (by decide), wr (y := main_v84) (by decide), wr (y := main_v85) (by decide)⟩
theorem keep6 (W : Valuation τ sig (Elt F)) (r : Ref sig .tc) (hr : r ∉ writes6) :
    after ops6 W (Proc.devRef .tc r) = W (Proc.devRef .tc r) :=
  after_of_writes_sub ops6 W writes_sub6 hr

/-- The buffers stretch 7 writes. -/
abbrev writes7 : List (Ref sig .tc) :=
  [main_v86, main_v87, main_v88, main_v89, main_call1_cst, main_call1_v0, main_v90, main_v91, main_v92, main_v93, main_v94]
theorem writes_sub7 : (ops7 : List (HloOp τ sig (Elt F))).Forall fun op =>
    op.writes ⊆ ((writes7).map (Proc.devRef (τ := τ) .tc)).toFinset :=
  ⟨wr (y := main_v86) (by decide), wr (y := main_v87) (by decide), wr (y := main_v88) (by decide), wr (y := main_v89) (by decide), wr (y := main_call1_cst) (by decide), wr (y := main_call1_v0) (by decide), wr (y := main_v90) (by decide), wr (y := main_v91) (by decide), wr (y := main_v92) (by decide), wr (y := main_v93) (by decide), wr (y := main_v94) (by decide)⟩
theorem keep7 (W : Valuation τ sig (Elt F)) (r : Ref sig .tc) (hr : r ∉ writes7) :
    after ops7 W (Proc.devRef .tc r) = W (Proc.devRef .tc r) :=
  after_of_writes_sub ops7 W writes_sub7 hr

/-- The buffers stretch 8 writes. -/
abbrev writes8 : List (Ref sig .tc) :=
  [main_v95, main_v96, main_v97, main_v98, main_v99, main_call2_cst, main_call2_v0, main_v100, main_v101, main_v102, main_v103, main_v104]
theorem writes_sub8 : (ops8 : List (HloOp τ sig (Elt F))).Forall fun op =>
    op.writes ⊆ ((writes8).map (Proc.devRef (τ := τ) .tc)).toFinset :=
  ⟨wr (y := main_v95) (by decide), wr (y := main_v96) (by decide), wr (y := main_v97) (by decide), wr (y := main_v98) (by decide), wr (y := main_v99) (by decide), wr (y := main_call2_cst) (by decide), wr (y := main_call2_v0) (by decide), wr (y := main_v100) (by decide), wr (y := main_v101) (by decide), wr (y := main_v102) (by decide), wr (y := main_v103) (by decide), wr (y := main_v104) (by decide)⟩
theorem keep8 (W : Valuation τ sig (Elt F)) (r : Ref sig .tc) (hr : r ∉ writes8) :
    after ops8 W (Proc.devRef .tc r) = W (Proc.devRef .tc r) :=
  after_of_writes_sub ops8 W writes_sub8 hr

/-- The buffers stretch 9 writes. -/
abbrev writes9 : List (Ref sig .tc) :=
  [main_v105, main_v106, main_cst_23, main_v107, main_v108, main_cst_24, main_v109]
theorem writes_sub9 : (ops9 : List (HloOp τ sig (Elt F))).Forall fun op =>
    op.writes ⊆ ((writes9).map (Proc.devRef (τ := τ) .tc)).toFinset :=
  ⟨wr (y := main_v105) (by decide), wr (y := main_v106) (by decide), wr (y := main_cst_23) (by decide), wr (y := main_v107) (by decide), wr (y := main_v108) (by decide), wr (y := main_cst_24) (by decide), wr (y := main_v109) (by decide)⟩
theorem keep9 (W : Valuation τ sig (Elt F)) (r : Ref sig .tc) (hr : r ∉ writes9) :
    after ops9 W (Proc.devRef .tc r) = W (Proc.devRef .tc r) :=
  after_of_writes_sub ops9 W writes_sub9 hr

/-- The buffers stretch 10 writes. -/
abbrev writes10 : List (Ref sig .tc) :=
  [main_c_25, main_v110, main_v111, main_c_26, main_v112, main_v113, main_v114, main_v115, main_v116, main_c_27, main_v117, main_v118, main_c_28, main_v119, main_v120, main_v121, main_v122, main_v123]
theorem writes_sub10 : (ops10 : List (HloOp τ sig (Elt F))).Forall fun op =>
    op.writes ⊆ ((writes10).map (Proc.devRef (τ := τ) .tc)).toFinset :=
  ⟨wr (y := main_c_25) (by decide), wr (y := main_v110) (by decide), wr (y := main_v111) (by decide), wr (y := main_c_26) (by decide), wr (y := main_v112) (by decide), wr (y := main_v113) (by decide), wr (y := main_v114) (by decide), wr (y := main_v115) (by decide), wr (y := main_v116) (by decide), wr (y := main_c_27) (by decide), wr (y := main_v117) (by decide), wr (y := main_v118) (by decide), wr (y := main_c_28) (by decide), wr (y := main_v119) (by decide), wr (y := main_v120) (by decide), wr (y := main_v121) (by decide), wr (y := main_v122) (by decide), wr (y := main_v123) (by decide)⟩
theorem keep10 (W : Valuation τ sig (Elt F)) (r : Ref sig .tc) (hr : r ∉ writes10) :
    after ops10 W (Proc.devRef .tc r) = W (Proc.devRef .tc r) :=
  after_of_writes_sub ops10 W writes_sub10 hr

/-- The buffers stretch 11 writes. -/
abbrev writes11 : List (Ref sig .tc) :=
  [main_v124, main_cst_29, main_v125, main_v126, main_cst_30, main_v127, main_v128, main_v129, main_cst_31, main_v130, main_v131, main_v132, main_cst_32, main_v133, main_v134, main_cst_33, main_v135, main_cst_34, main_v136]
theorem writes_sub11 : (ops11 : List (HloOp τ sig (Elt F))).Forall fun op =>
    op.writes ⊆ ((writes11).map (Proc.devRef (τ := τ) .tc)).toFinset :=
  ⟨wr (y := main_v124) (by decide), wr (y := main_cst_29) (by decide), wr (y := main_v125) (by decide), wr (y := main_v126) (by decide), wr (y := main_cst_30) (by decide), wr (y := main_v127) (by decide), wr (y := main_v128) (by decide), wr (y := main_v129) (by decide), wr (y := main_cst_31) (by decide), wr (y := main_v130) (by decide), wr (y := main_v131) (by decide), wr (y := main_v132) (by decide), wr (y := main_cst_32) (by decide), wr (y := main_v133) (by decide), wr (y := main_v134) (by decide), wr (y := main_cst_33) (by decide), wr (y := main_v135) (by decide), wr (y := main_cst_34) (by decide), wr (y := main_v136) (by decide)⟩
theorem keep11 (W : Valuation τ sig (Elt F)) (r : Ref sig .tc) (hr : r ∉ writes11) :
    after ops11 W (Proc.devRef .tc r) = W (Proc.devRef .tc r) :=
  after_of_writes_sub ops11 W writes_sub11 hr

/-- The buffers stretch 12 writes. -/
abbrev writes12 : List (Ref sig .tc) :=
  [main_v137, main_v138, main_cst_35, main_v139, main_v140, main_cst_36, main_v141, main_v142, main_v143, main_v144, main_v145, main_cst_37, main_v146, main_v147, main_cst_38, main_v148, main_v149]
theorem writes_sub12 : (ops12 : List (HloOp τ sig (Elt F))).Forall fun op =>
    op.writes ⊆ ((writes12).map (Proc.devRef (τ := τ) .tc)).toFinset :=
  ⟨wr (y := main_v137) (by decide), wr (y := main_v138) (by decide), wr (y := main_cst_35) (by decide), wr (y := main_v139) (by decide), wr (y := main_v140) (by decide), wr (y := main_cst_36) (by decide), wr (y := main_v141) (by decide), wr (y := main_v142) (by decide), wr (y := main_v143) (by decide), wr (y := main_v144) (by decide), wr (y := main_v145) (by decide), wr (y := main_cst_37) (by decide), wr (y := main_v146) (by decide), wr (y := main_v147) (by decide), wr (y := main_cst_38) (by decide), wr (y := main_v148) (by decide), wr (y := main_v149) (by decide)⟩
theorem keep12 (W : Valuation τ sig (Elt F)) (r : Ref sig .tc) (hr : r ∉ writes12) :
    after ops12 W (Proc.devRef .tc r) = W (Proc.devRef .tc r) :=
  after_of_writes_sub ops12 W writes_sub12 hr

/-- A buffer no stretch writes ends as it was found. -/
theorem keep_all (W : Valuation τ sig (Elt F)) (r : Ref sig .tc)
    (h1 : r ∉ writes1) (h2 : r ∉ writes2) (h3 : r ∉ writes3) (h4 : r ∉ writes4) (h5 : r ∉ writes5) (h6 : r ∉ writes6) (h7 : r ∉ writes7) (h8 : r ∉ writes8) (h9 : r ∉ writes9) (h10 : r ∉ writes10) (h11 : r ∉ writes11) (h12 : r ∉ writes12) :
    after ops W (Proc.devRef .tc r) = W (Proc.devRef .tc r) := by
  simp only [ops, after_app]
  rw [keep12 _ r h12, keep11 _ r h11, keep10 _ r h10, keep9 _ r h9, keep8 _ r h8, keep7 _ r h7, keep6 _ r h6, keep5 _ r h5, keep4 _ r h4, keep3 _ r h3, keep2 _ r h2, keep1 _ r h1]

/-! ## The three results, walked back to the arguments -/

/-- The embedding match: walked back, it reads the batch's indices, the two embedding tables and the edge lists. -/
theorem res_main_v142 (m : (ℓ : Loc nD τ sig) → Buf (Elt F) ℓ) (c : Dev nD) :
    after ops (launchContents m c) (Proc.devRef .tc main_v142)
      = Cert.RefOut.out0 (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg13)) (m ((c.tc : Thread nD τ).loc main_arg14)) := by
  simp only [ops, after_app]
  -- stretch 12
  rw [s12_main_v142]
  -- stretch 11
  rw [keep11 _ main_v71 (by decide)]
  -- stretch 10
  rw [keep10 _ main_v71 (by decide)]
  -- stretch 9
  rw [keep9 _ main_v71 (by decide)]
  -- stretch 8
  rw [keep8 _ main_v71 (by decide)]
  -- stretch 7
  rw [keep7 _ main_v71 (by decide)]
  -- stretch 6
  rw [keep6 _ main_v71 (by decide)]
  -- stretch 5
  rw [s5_main_v71]
  -- stretch 4
  rw [s4_main_v54,
    keep4 _ main_arg0 (by decide),
    s4_main_v55,
    keep4 _ main_arg1 (by decide)]
  -- stretch 3
  rw [s3_main_v38,
    keep3 _ main_arg14 (by decide),
    s3_main_v37,
    keep3 _ main_arg13 (by decide),
    keep3 _ main_v12 (by decide),
    keep3 _ main_arg0 (by decide),
    keep3 _ main_arg1 (by decide)]
  -- stretch 2
  rw [s2_main_v25,
    keep2 _ main_arg14 (by decide),
    s2_main_v24,
    keep2 _ main_arg13 (by decide),
    keep2 _ main_v12 (by decide),
    keep2 _ main_arg0 (by decide),
    keep2 _ main_arg1 (by decide)]
  -- stretch 1
  rw [s1_main_v0,
    keep1 _ main_arg14 (by decide),
    keep1 _ main_arg13 (by decide),
    s1_main_v12,
    keep1 _ main_arg0 (by decide),
    keep1 _ main_arg1 (by decide)]
  unfold Cert.RefOut.out0 Cert.HostR.ue Cert.HostR.ie Cert.HostR.graph cat0
  rfl

/-- The time match: walked back, it reads the batch's indices and time features, the two time tables and the expansion's weights. -/
theorem res_main_v149 (m : (ℓ : Loc nD τ sig) → Buf (Elt F) ℓ) (c : Dev nD) :
    after ops (launchContents m c) (Proc.devRef .tc main_v149)
      = Cert.RefOut.out1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  simp only [ops, after_app]
  -- stretch 12
  rw [s12_main_v149]
  -- stretch 11
  rw [keep11 _ main_v107 (by decide),
    keep11 _ main_v109 (by decide)]
  -- stretch 10
  rw [keep10 _ main_v107 (by decide),
    keep10 _ main_v109 (by decide)]
  -- stretch 9
  rw [s9_main_v107,
    s9_main_v109]
  -- stretch 8
  rw [keep8 _ main_v78 (by decide),
    s8_main_v95,
    keep8 _ main_v85 (by decide),
    keep8 _ main_arg4 (by decide),
    s8_main_v104]
  -- stretch 7
  rw [keep7 _ main_v78 (by decide),
    keep7 _ main_arg3 (by decide),
    s7_main_v94,
    keep7 _ main_v85 (by decide),
    keep7 _ main_arg4 (by decide),
    keep7 _ main_arg9 (by decide),
    keep7 _ main_arg10 (by decide),
    keep7 _ main_arg11 (by decide),
    keep7 _ main_arg12 (by decide)]
  -- stretch 6
  rw [s6_main_v78,
    keep6 _ main_arg3 (by decide),
    keep6 _ main_arg9 (by decide),
    keep6 _ main_arg10 (by decide),
    keep6 _ main_arg11 (by decide),
    keep6 _ main_arg12 (by decide),
    s6_main_v85,
    keep6 _ main_arg4 (by decide)]
  -- stretch 5
  rw [keep5 _ main_arg7 (by decide),
    keep5 _ main_arg0 (by decide),
    keep5 _ main_arg3 (by decide),
    keep5 _ main_arg9 (by decide),
    keep5 _ main_arg10 (by decide),
    keep5 _ main_arg11 (by decide),
    keep5 _ main_arg12 (by decide),
    keep5 _ main_arg8 (by decide),
    keep5 _ main_arg1 (by decide),
    keep5 _ main_arg4 (by decide)]
  -- stretch 4
  rw [keep4 _ main_arg7 (by decide),
    keep4 _ main_arg0 (by decide),
    keep4 _ main_arg3 (by decide),
    keep4 _ main_arg9 (by decide),
    keep4 _ main_arg10 (by decide),
    keep4 _ main_arg11 (by decide),
    keep4 _ main_arg12 (by decide),
    keep4 _ main_arg8 (by decide),
    keep4 _ main_arg1 (by decide),
    keep4 _ main_arg4 (by decide)]
  -- stretch 3
  rw [keep3 _ main_arg7 (by decide),
    keep3 _ main_arg0 (by decide),
    keep3 _ main_arg3 (by decide),
    keep3 _ main_arg9 (by decide),
    keep3 _ main_arg10 (by decide),
    keep3 _ main_arg11 (by decide),
    keep3 _ main_arg12 (by decide),
    keep3 _ main_arg8 (by decide),
    keep3 _ main_arg1 (by decide),
    keep3 _ main_arg4 (by decide)]
  -- stretch 2
  rw [keep2 _ main_arg7 (by decide),
    keep2 _ main_arg0 (by decide),
    keep2 _ main_arg3 (by decide),
    keep2 _ main_arg9 (by decide),
    keep2 _ main_arg10 (by decide),
    keep2 _ main_arg11 (by decide),
    keep2 _ main_arg12 (by decide),
    keep2 _ main_arg8 (by decide),
    keep2 _ main_arg1 (by decide),
    keep2 _ main_arg4 (by decide)]
  -- stretch 1
  rw [keep1 _ main_arg7 (by decide),
    keep1 _ main_arg0 (by decide),
    keep1 _ main_arg3 (by decide),
    keep1 _ main_arg9 (by decide),
    keep1 _ main_arg10 (by decide),
    keep1 _ main_arg11 (by decide),
    keep1 _ main_arg12 (by decide),
    keep1 _ main_arg8 (by decide),
    keep1 _ main_arg1 (by decide),
    keep1 _ main_arg4 (by decide)]
  unfold Cert.RefOut.out1 Cert.HostR.ute Cert.HostR.ite cat1
  rfl

/-- The regularizer: walked back, it reads the batch's indices and the four tables. -/
theorem res_main_v136 (m : (ℓ : Loc nD τ sig) → Buf (Elt F) ℓ) (c : Dev nD) :
    after ops (launchContents m c) (Proc.devRef .tc main_v136)
      = Cert.RefOut.out2 (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) := by
  simp only [ops, after_app]
  -- stretch 12
  rw [keep12 _ main_v136 (by decide)]
  -- stretch 11
  rw [s11_main_v136]
  -- stretch 10
  rw [s10_main_v116,
    s10_main_v123,
    keep10 _ main_v78 (by decide),
    keep10 _ main_v85 (by decide)]
  -- stretch 9
  rw [keep9 _ main_arg5 (by decide),
    keep9 _ main_arg0 (by decide),
    keep9 _ main_arg6 (by decide),
    keep9 _ main_arg1 (by decide),
    keep9 _ main_v78 (by decide),
    keep9 _ main_v85 (by decide)]
  -- stretch 8
  rw [keep8 _ main_arg5 (by decide),
    keep8 _ main_arg0 (by decide),
    keep8 _ main_arg6 (by decide),
    keep8 _ main_arg1 (by decide),
    keep8 _ main_v78 (by decide),
    keep8 _ main_v85 (by decide)]
  -- stretch 7
  rw [keep7 _ main_arg5 (by decide),
    keep7 _ main_arg0 (by decide),
    keep7 _ main_arg6 (by decide),
    keep7 _ main_arg1 (by decide),
    keep7 _ main_v78 (by decide),
    keep7 _ main_v85 (by decide)]
  -- stretch 6
  rw [keep6 _ main_arg5 (by decide),
    keep6 _ main_arg0 (by decide),
    keep6 _ main_arg6 (by decide),
    keep6 _ main_arg1 (by decide),
    s6_main_v78,
    s6_main_v85]
  -- stretch 5
  rw [keep5 _ main_arg5 (by decide),
    keep5 _ main_arg0 (by decide),
    keep5 _ main_arg6 (by decide),
    keep5 _ main_arg1 (by decide),
    keep5 _ main_arg7 (by decide),
    keep5 _ main_arg8 (by decide)]
  -- stretch 4
  rw [keep4 _ main_arg5 (by decide),
    keep4 _ main_arg0 (by decide),
    keep4 _ main_arg6 (by decide),
    keep4 _ main_arg1 (by decide),
    keep4 _ main_arg7 (by decide),
    keep4 _ main_arg8 (by decide)]
  -- stretch 3
  rw [keep3 _ main_arg5 (by decide),
    keep3 _ main_arg0 (by decide),
    keep3 _ main_arg6 (by decide),
    keep3 _ main_arg1 (by decide),
    keep3 _ main_arg7 (by decide),
    keep3 _ main_arg8 (by decide)]
  -- stretch 2
  rw [keep2 _ main_arg5 (by decide),
    keep2 _ main_arg0 (by decide),
    keep2 _ main_arg6 (by decide),
    keep2 _ main_arg1 (by decide),
    keep2 _ main_arg7 (by decide),
    keep2 _ main_arg8 (by decide)]
  -- stretch 1
  rw [keep1 _ main_arg5 (by decide),
    keep1 _ main_arg0 (by decide),
    keep1 _ main_arg6 (by decide),
    keep1 _ main_arg1 (by decide),
    keep1 _ main_arg7 (by decide),
    keep1 _ main_arg8 (by decide)]
  unfold Cert.RefOut.out2 Cert.HostR.ue0 Cert.HostR.ie0 Cert.HostR.ute Cert.HostR.ite
  rfl

/-! ## The run -/

/-- On every device, for any float values, from any memory with zero counters: every weakly fair execution of
    @main terminates with each result at its function of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142) = Cert.RefOut.out0 (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg13)) (m ((c.tc : Thread nD τ).loc main_arg14))
      ∧ r.2.mem ((c.tc : Thread nD τ).loc main_v149) = Cert.RefOut.out1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v136) = Cert.RefOut.out2 (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v142).trans (res_main_v142 m c),
      (h c main_v149).trans (res_main_v149 m c),
      (h c main_v136).trans (res_main_v136 m c),
      (h c main_arg0).trans (keep_all _ main_arg0 (by decide) (by decide) (by decide) (by decide) (by decide) (by decide) (by decide) (by decide) (by decide) (by decide) (by decide) (by decide)),
      (h c main_arg1).trans (keep_all _ main_arg1 (by decide) (by decide) (by decide) (by decide) (by decide) (by decide) (by decide) (by decide) (by decide) (by decide) (by decide) (by decide)),
      (h c main_arg2).trans (keep_all _ main_arg2 (by decide) (by decide) (by decide) (by decide) (by decide) (by decide) (by decide) (by decide) (by decide) (by decide) (by decide) (by decide)),
      (h c main_arg3).trans (keep_all _ main_arg3 (by decide) (by decide) (by decide) (by decide) (by decide) (by decide) (by decide) (by decide) (by decide) (by decide) (by decide) (by decide)),
      (h c main_arg4).trans (keep_all _ main_arg4 (by decide) (by decide) (by decide) (by decide) (by decide) (by decide) (by decide) (by decide) (by decide) (by decide) (by decide) (by decide)),
      (h c main_arg5).trans (keep_all _ main_arg5 (by decide) (by decide) (by decide) (by decide) (by decide) (by decide) (by decide) (by decide) (by decide) (by decide) (by decide) (by decide)),
      (h c main_arg6).trans (keep_all _ main_arg6 (by decide) (by decide) (by decide) (by decide) (by decide) (by decide) (by decide) (by decide) (by decide) (by decide) (by decide) (by decide)),
      (h c main_arg7).trans (keep_all _ main_arg7 (by decide) (by decide) (by decide) (by decide) (by decide) (by decide) (by decide) (by decide) (by decide) (by decide) (by decide) (by decide)),
      (h c main_arg8).trans (keep_all _ main_arg8 (by decide) (by decide) (by decide) (by decide) (by decide) (by decide) (by decide) (by decide) (by decide) (by decide) (by decide) (by decide)),
      (h c main_arg9).trans (keep_all _ main_arg9 (by decide) (by decide) (by decide) (by decide) (by decide) (by decide) (by decide) (by decide) (by decide) (by decide) (by decide) (by decide)),
      (h c main_arg10).trans (keep_all _ main_arg10 (by decide) (by decide) (by decide) (by decide) (by decide) (by decide) (by decide) (by decide) (by decide) (by decide) (by decide) (by decide)),
      (h c main_arg11).trans (keep_all _ main_arg11 (by decide) (by decide) (by decide) (by decide) (by decide) (by decide) (by decide) (by decide) (by decide) (by decide) (by decide) (by decide)),
      (h c main_arg12).trans (keep_all _ main_arg12 (by decide) (by decide) (by decide) (by decide) (by decide) (by decide) (by decide) (by decide) (by decide) (by decide) (by decide) (by decide)),
      (h c main_arg13).trans (keep_all _ main_arg13 (by decide) (by decide) (by decide) (by decide) (by decide) (by decide) (by decide) (by decide) (by decide) (by decide) (by decide) (by decide)),
      (h c main_arg14).trans (keep_all _ main_arg14 (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.RefRun

end
-- ==== Proof.RefValue.lean ====
import proofs.«111852_j28475633172831_1_alg».proof.Proof.Spec
import proofs.«111852_j28475633172831_1_alg».proof.Proof.RefOut
import Idealize.ShloMosaic.Lib.ValueIdx
import Idealize.ShloMosaic.Lib.Pipeline.Value
import Idealize.ShloMosaic.Lib.ValueLayout
import Idealize.ShloMosaic.PureOps.Ideal.Laws

/-!
  The reference's three results read at an index, over the extended reals: each is the specification's
  function of the gathered rows and the argument arrays.

  * the embedding match at row `i` is the logistic of the dot product of the two gathered 64-feature rows;
  * the time match at row `i` is the logistic of the sum of the two dot products of a gathered 256-feature row with
    the expanded trend (the trend row followed by its two-layer perceptron);
  * the regularizer is half the four whole sums of squares over the word of 8192.

  The gathered arrays stay opaque throughout: every step is stated over an arbitrary array of the literal shape.
-/

noncomputable section

open scoped BigOperators

namespace Cert.RefValue

open Cert.ReferenceIdeal Cert.ReferenceIdeal.Gen Idealize.ShloMosaic Idealize.ShloMosaic.TcCoe Idealize.SL.Sem Idealize.ShloMosaic.StableHlo Idealize.ShloMosaic.ValueIdx

/-! ## Words -/

/-- The float word of one is the extended real `1`. -/
theorem ofBits_one : Ideal.ofBits .f32 0x3F800000#32 = 1 := by
  simp [Ideal.ofBits, Ideal.ieee, -EReal.coe_mul]; norm_num

/-! ## The logistic, spelt `1 / (1 + exp (-x))` over a vector of 8192 numbers -/

/-- The scalar one broadcast to 8192 numbers reads `1` everywhere. -/
theorem ones_apply (i : Fin 8192) :
    broadcastInDim S8192 ![] bcast_S_S8192 (constant (F := Ideal) S_ .f32 0x3F800000#32) (ix1 i) = 1 :=
  (broadcastInDim_apply _ bcast_S_S8192 (constant (F := Ideal) S_ .f32 0x3F800000#32) (ix1 i) ix0 (fun a => a.elim0)).trans ofBits_one

/-- `1 / (1 + exp (-x))` at row `i` is the logistic of `x` there (the logistic is that expression by definition). -/
theorem sigmoid_apply (x : (⟨S8192, .f32⟩ : BufTy).Contents (Elt Ideal)) (i : Fin 8192) :
    Host.divf (F := Ideal) (broadcastInDim S8192 ![] bcast_S_S8192 (constant (F := Ideal) S_ .f32 0x3F800000#32))
      (addf (broadcastInDim S8192 ![] bcast_S_S8192 (constant (F := Ideal) S_ .f32 0x3F800000#32)) (Host.exp (Host.negf x))) (ix1 i)
      = Ideal.logistic (x (ix1 i)) := by
  show Ideal.div (broadcastInDim S8192 ![] bcast_S_S8192 (constant (F := Ideal) S_ .f32 0x3F800000#32) (ix1 i))
      (broadcastInDim S8192 ![] bcast_S_S8192 (constant (F := Ideal) S_ .f32 0x3F800000#32) (ix1 i) + Ideal.exp (-(x (ix1 i)))) = _
  rw [ones_apply]
  rfl

/-! ## Sums along a row, and over a whole table -/

/-- The sum along the 64 features of row `i`, from the zero word. -/
theorem rowsum64_apply (y : (⟨S8192x64, .f32⟩ : BufTy).Contents (Elt Ideal)) (i : Fin 8192) :
    Host.reduceAdd (F := Ideal) y (constant (F := Ideal) S_ .f32 0x00000000#32) reducesTo_S8192x64_S8192_d1 h_S_ (ix1 i)
      = ∑ k : Fin 64, y (ix2 i k) := by
  simp only [Host.reduceAdd, Ideal.hostReduceAdd_def]
  rw [Ideal.hostReduceAdd_single reducesTo_S8192x64_S8192_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The sum along the 256 features of row `i`, from the zero word. -/
theorem rowsum256_apply (y : (⟨S8192x256, .f32⟩ : BufTy).Contents (Elt Ideal)) (i : Fin 8192) :
    Host.reduceAdd (F := Ideal) y (constant (F := Ideal) S_ .f32 0x00000000#32) reducesTo_S8192x256_S8192_d1 h_S_ (ix1 i)
      = ∑ k : Fin 256, y (ix2 i k) := by
  simp only [Host.reduceAdd, Ideal.hostReduceAdd_def]
  rw [Ideal.hostReduceAdd_single reducesTo_S8192x256_S8192_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The sum of a whole 8192 × 64 table, from the zero word: the double sum over rows and features. -/
theorem total64_apply (y : (⟨S8192x64, .f32⟩ : BufTy).Contents (Elt Ideal)) :
    Host.reduceAdd (F := Ideal) y (constant (F := Ideal) S_ .f32 0x00000000#32) reducesTo_S8192x64_S_d0_1 h_S_ ix0
      = ∑ i : Fin 8192, ∑ k : Fin 64, y (ix2 i k) := by
  simp only [Host.reduceAdd, Ideal.hostReduceAdd_def]
  rw [Ideal.hostReduceAdd_total reducesTo_S8192x64_S_d0_1 (fun b => b.elim0)]
  rw [constant_apply, Ideal.ofBits_zero_f32, zero_add, sum_idx2]

/-- The sum of a whole 8192 × 256 table, from the zero word. -/
theorem total256_apply (y : (⟨S8192x256, .f32⟩ : BufTy).Contents (Elt Ideal)) :
    Host.reduceAdd (F := Ideal) y (constant (F := Ideal) S_ .f32 0x00000000#32) reducesTo_S8192x256_S_d0_1 h_S_ ix0
      = ∑ i : Fin 8192, ∑ k : Fin 256, y (ix2 i k) := by
  simp only [Host.reduceAdd, Ideal.hostReduceAdd_def]
  rw [Ideal.hostReduceAdd_total reducesTo_S8192x256_S_d0_1 (fun b => b.elim0)]
  rw [constant_apply, Ideal.ofBits_zero_f32, zero_add, sum_idx2]

/-! ## The embedding match -/

section
variable (a0 a1 : (⟨S8192, .i32⟩ : BufTy).Contents (Elt Ideal))
  (a3 a4 : (⟨S8192x128, .f32⟩ : BufTy).Contents (Elt Ideal))
  (a5 : (⟨S60000x64, .f32⟩ : BufTy).Contents (Elt Ideal)) (a6 : (⟨S40000x64, .f32⟩ : BufTy).Contents (Elt Ideal))
  (a7 : (⟨S60000x256, .f32⟩ : BufTy).Contents (Elt Ideal)) (a8 : (⟨S40000x256, .f32⟩ : BufTy).Contents (Elt Ideal))
  (a9 : (⟨S128x32, .f32⟩ : BufTy).Contents (Elt Ideal)) (a10 : (⟨S32, .f32⟩ : BufTy).Contents (Elt Ideal))
  (a11 : (⟨S32x128, .f32⟩ : BufTy).Contents (Elt Ideal)) (a12 : (⟨S128, .f32⟩ : BufTy).Contents (Elt Ideal))
  (a13 a14 : (⟨S1600000, .i32⟩ : BufTy).Contents (Elt Ideal))

/-- The reference's first result at row `i`: the logistic of the dot product of the two gathered rows. -/
theorem out0_apply (i : Fin 8192) : Cert.RefOut.out0 (F := Ideal) a0 a1 a5 a6 a13 a14 (ix1 i)
    = Cert.Spec.gm (fun a k => Cert.HostR.ue (F := Ideal) a5 a6 a13 a14 a0 (ix2 a k)) (fun a k => Cert.HostR.ie (F := Ideal) a5 a6 a13 a14 a1 (ix2 a k)) i := by
  unfold Cert.RefOut.out0
  generalize Cert.HostR.ue (F := Ideal) a5 a6 a13 a14 a0 = UE
  generalize Cert.HostR.ie (F := Ideal) a5 a6 a13 a14 a1 = IE
  rw [sigmoid_apply, rowsum64_apply]
  rfl

/-- The reference's third result: half the four whole sums of squares, over the word of 8192. -/
theorem out2_apply : Cert.RefOut.out2 (F := Ideal) a0 a1 a5 a6 a7 a8 ix0
    = Cert.Spec.regWhole (fun a k => Cert.HostR.ue0 (F := Ideal) a5 a0 (ix2 a k)) (fun a k => Cert.HostR.ie0 (F := Ideal) a6 a1 (ix2 a k)) (fun a k => Cert.HostR.ute (F := Ideal) a7 a0 (ix2 a k)) (fun a k => Cert.HostR.ite (F := Ideal) a8 a1 (ix2 a k)) := by
  unfold Cert.RefOut.out2
  generalize Cert.HostR.ue0 (F := Ideal) a5 a0 = A
  generalize Cert.HostR.ie0 (F := Ideal) a6 a1 = B
  generalize Cert.HostR.ute (F := Ideal) a7 a0 = C
  generalize Cert.HostR.ite (F := Ideal) a8 a1 = D
  show Ideal.div (Ideal.ofBits .f32 0x3F000000#32 *
      (((Host.reduceAdd (F := Ideal) (mulf A A) (constant (F := Ideal) S_ .f32 0x00000000#32) reducesTo_S8192x64_S_d0_1 h_S_ ix0
        + Host.reduceAdd (F := Ideal) (mulf B B) (constant (F := Ideal) S_ .f32 0x00000000#32) reducesTo_S8192x64_S_d0_1 h_S_ ix0)
        + Host.reduceAdd (F := Ideal) (mulf C C) (constant (F := Ideal) S_ .f32 0x00000000#32) reducesTo_S8192x256_S_d0_1 h_S_ ix0)
        + Host.reduceAdd (F := Ideal) (mulf D D) (constant (F := Ideal) S_ .f32 0x00000000#32) reducesTo_S8192x256_S_d0_1 h_S_ ix0))
      (Ideal.ofBits .f32 0x46000000#32) = _
  rw [total64_apply, total64_apply, total256_apply, total256_apply]
  rfl

end

/-! ## The perceptron, one operation at a time at an index -/

/-- The first layer's product's left operand index at output `j`, contraction `q`: row `j 0` … -/
theorem dot1_lhs0 (j : S8192x32.Idx) (q : dot_S8192x128_S128x32_S8192x32_1_0_0_1_n_n.contr.Idx) :
    (dot_S8192x128_S128x32_S8192x32_1_0_0_1_n_n.lhsIdx j q 0).val = (j 0).val := by
  unfold DotDims.lhsIdx
  rw [dif_neg (show ¬(0 : Fin S8192x128.rank) ∈ dot_S8192x128_S128x32_S8192x32_1_0_0_1_n_n.lhsBatch by decide), dif_pos (show (0 : Fin S8192x128.rank) ∈ dot_S8192x128_S128x32_S8192x32_1_0_0_1_n_n.lhsNonContracting by decide)]
  rfl
/-- … column `q`; -/
theorem dot1_lhs1 (j : S8192x32.Idx) (q : dot_S8192x128_S128x32_S8192x32_1_0_0_1_n_n.contr.Idx) :
    (dot_S8192x128_S128x32_S8192x32_1_0_0_1_n_n.lhsIdx j q 1).val = (q ⟨0, by decide⟩).val :=
  dot_S8192x128_S128x32_S8192x32_1_0_0_1_n_n.lhsIdx_val_of_single rfl j q
/-- its right operand index: row `q` … -/
theorem dot1_rhs0 (j : S8192x32.Idx) (q : dot_S8192x128_S128x32_S8192x32_1_0_0_1_n_n.contr.Idx) :
    (dot_S8192x128_S128x32_S8192x32_1_0_0_1_n_n.rhsIdx j q 0).val = (q ⟨0, by decide⟩).val :=
  dot_S8192x128_S128x32_S8192x32_1_0_0_1_n_n.rhsIdx_val_of_single rfl j q
/-- … column `j 1`. -/
theorem dot1_rhs1 (j : S8192x32.Idx) (q : dot_S8192x128_S128x32_S8192x32_1_0_0_1_n_n.contr.Idx) :
    (dot_S8192x128_S128x32_S8192x32_1_0_0_1_n_n.rhsIdx j q 1).val = (j 1).val := by
  unfold DotDims.rhsIdx
  rw [dif_neg (show ¬(1 : Fin S128x32.rank) ∈ dot_S8192x128_S128x32_S8192x32_1_0_0_1_n_n.rhsBatch by decide), dif_pos (show (1 : Fin S128x32.rank) ∈ dot_S8192x128_S128x32_S8192x32_1_0_0_1_n_n.rhsNonContracting by decide)]
  rfl

/-- The first layer's product at row `i`, unit `k`: the sum over the 128 trend features. -/
theorem dot1_apply (x : (⟨S8192x128, .f32⟩ : BufTy).Contents (Elt Ideal)) (w : (⟨S128x32, .f32⟩ : BufTy).Contents (Elt Ideal))
    (i : Fin 8192) (k : Fin 32) :
    Host.dotGeneral (F := Ideal) (φ₁ := .f32) (φ₂ := .f32) dot_S8192x128_S128x32_S8192x32_1_0_0_1_n_n none x w (ix2 i k)
      = ∑ l : Fin 128, x (ix2 i l) * w (ix2 l k) := by
  simp only [Host.dotGeneral]
  rw [Ideal.dotGeneral_apply, ← Equiv.sum_comp (contrEquiv1 dot_S8192x128_S128x32_S8192x32_1_0_0_1_n_n 128 rfl rfl).symm]
  refine Finset.sum_congr rfl fun l _ => ?_
  have hs := contrEquiv1_symm_val dot_S8192x128_S128x32_S8192x32_1_0_0_1_n_n 128 rfl rfl l
  have el : dot_S8192x128_S128x32_S8192x32_1_0_0_1_n_n.lhsIdx (ix2 i k) ((contrEquiv1 dot_S8192x128_S128x32_S8192x32_1_0_0_1_n_n 128 rfl rfl).symm l) = ix2 i l :=
    funext fun a => Fin.ext (by
      match a with
      | ⟨0, _⟩ => exact dot1_lhs0 _ _
      | ⟨1, _⟩ => exact (dot1_lhs1 _ _).trans hs)
  have er : dot_S8192x128_S128x32_S8192x32_1_0_0_1_n_n.rhsIdx (ix2 i k) ((contrEquiv1 dot_S8192x128_S128x32_S8192x32_1_0_0_1_n_n 128 rfl rfl).symm l) = ix2 l k :=
    funext fun a => Fin.ext (by
      match a with
      | ⟨0, _⟩ => exact (dot1_rhs0 _ _).trans hs
      | ⟨1, _⟩ => exact dot1_rhs1 _ _)
  rw [el, er]

/-- The second layer's product's left operand index at output `j`, contraction `q`: row `j 0` … -/
theorem dot2_lhs0 (j : S8192x128.Idx) (q : dot_S8192x32_S32x128_S8192x128_1_0_0_1_n_n.contr.Idx) :
    (dot_S8192x32_S32x128_S8192x128_1_0_0_1_n_n.lhsIdx j q 0).val = (j 0).val := by
  unfold DotDims.lhsIdx
  rw [dif_neg (show ¬(0 : Fin S8192x32.rank) ∈ dot_S8192x32_S32x128_S8192x128_1_0_0_1_n_n.lhsBatch by decide), dif_pos (show (0 : Fin S8192x32.rank) ∈ dot_S8192x32_S32x128_S8192x128_1_0_0_1_n_n.lhsNonContracting by decide)]
  rfl
/-- … column `q`; -/
theorem dot2_lhs1 (j : S8192x128.Idx) (q : dot_S8192x32_S32x128_S8192x128_1_0_0_1_n_n.contr.Idx) :
    (dot_S8192x32_S32x128_S8192x128_1_0_0_1_n_n.lhsIdx j q 1).val = (q ⟨0, by decide⟩).val :=
  dot_S8192x32_S32x128_S8192x128_1_0_0_1_n_n.lhsIdx_val_of_single rfl j q
/-- its right operand index: row `q` … -/
theorem dot2_rhs0 (j : S8192x128.Idx) (q : dot_S8192x32_S32x128_S8192x128_1_0_0_1_n_n.contr.Idx) :
    (dot_S8192x32_S32x128_S8192x128_1_0_0_1_n_n.rhsIdx j q 0).val = (q ⟨0, by decide⟩).val :=
  dot_S8192x32_S32x128_S8192x128_1_0_0_1_n_n.rhsIdx_val_of_single rfl j q
/-- … column `j 1`. -/
theorem dot2_rhs1 (j : S8192x128.Idx) (q : dot_S8192x32_S32x128_S8192x128_1_0_0_1_n_n.contr.Idx) :
    (dot_S8192x32_S32x128_S8192x128_1_0_0_1_n_n.rhsIdx j q 1).val = (j 1).val := by
  unfold DotDims.rhsIdx
  rw [dif_neg (show ¬(1 : Fin S32x128.rank) ∈ dot_S8192x32_S32x128_S8192x128_1_0_0_1_n_n.rhsBatch by decide), dif_pos (show (1 : Fin S32x128.rank) ∈ dot_S8192x32_S32x128_S8192x128_1_0_0_1_n_n.rhsNonContracting by decide)]
  rfl

/-- The second layer's product at row `i`, feature `j`: the sum over the 32 hidden units. -/
theorem dot2_apply (x : (⟨S8192x32, .f32⟩ : BufTy).Contents (Elt Ideal)) (w : (⟨S32x128, .f32⟩ : BufTy).Contents (Elt Ideal))
    (i : Fin 8192) (j : Fin 128) :
    Host.dotGeneral (F := Ideal) (φ₁ := .f32) (φ₂ := .f32) dot_S8192x32_S32x128_S8192x128_1_0_0_1_n_n none x w (ix2 i j)
      = ∑ k : Fin 32, x (ix2 i k) * w (ix2 k j) := by
  simp only [Host.dotGeneral]
  rw [Ideal.dotGeneral_apply, ← Equiv.sum_comp (contrEquiv1 dot_S8192x32_S32x128_S8192x128_1_0_0_1_n_n 32 rfl rfl).symm]
  refine Finset.sum_congr rfl fun k _ => ?_
  have hs := contrEquiv1_symm_val dot_S8192x32_S32x128_S8192x128_1_0_0_1_n_n 32 rfl rfl k
  have el : dot_S8192x32_S32x128_S8192x128_1_0_0_1_n_n.lhsIdx (ix2 i j) ((contrEquiv1 dot_S8192x32_S32x128_S8192x128_1_0_0_1_n_n 32 rfl rfl).symm k) = ix2 i k :=
    funext fun a => Fin.ext (by
      match a with
      | ⟨0, _⟩ => exact dot2_lhs0 _ _
      | ⟨1, _⟩ => exact (dot2_lhs1 _ _).trans hs)
  have er : dot_S8192x32_S32x128_S8192x128_1_0_0_1_n_n.rhsIdx (ix2 i j) ((contrEquiv1 dot_S8192x32_S32x128_S8192x128_1_0_0_1_n_n 32 rfl rfl).symm k) = ix2 k j :=
    funext fun a => Fin.ext (by
      match a with
      | ⟨0, _⟩ => exact (dot2_rhs0 _ _).trans hs
      | ⟨1, _⟩ => exact dot2_rhs1 _ _)
  rw [el, er]

/-- The first bias as a row under every batch row: [32] → [1, 32] → [8192, 32] reads `b k` at `(i, k)`. -/
theorem bias32_apply (b : (⟨S32, .f32⟩ : BufTy).Contents (Elt Ideal)) (i : Fin 8192) (k : Fin 32) :
    broadcastInDim S8192x32 ![0, 1] bcast_S1x32_S8192x32_0_1 (broadcastInDim S1x32 ![1] bcast_S32_S1x32_1 b) (ix2 i k) = b (ix1 k) := by
  refine (broadcastInDim_apply _ bcast_S1x32_S8192x32_0_1 _ (ix2 i k) (ix2 (0 : Fin 1) k) (fun a => match a with
    | ⟨0, _⟩ => by show 0 = if (1 : Nat) = 1 then 0 else i.val; rw [if_pos rfl]
    | ⟨1, _⟩ => by show k.val = if (32 : Nat) = 1 then 0 else k.val; rw [if_neg (by decide)])).trans ?_
  exact broadcastInDim_apply _ bcast_S32_S1x32_1 b (ix2 (0 : Fin 1) k) (ix1 k) (fun a => match a with
    | ⟨0, _⟩ => by show k.val = if (32 : Nat) = 1 then 0 else k.val; rw [if_neg (by decide)])

/-- The second bias as a row under every batch row: [128] → [1, 128] → [8192, 128] reads `b j` at `(i, j)`. -/
theorem bias128_apply (b : (⟨S128, .f32⟩ : BufTy).Contents (Elt Ideal)) (i : Fin 8192) (j : Fin 128) :
    broadcastInDim S8192x128 ![0, 1] bcast_S1x128_S8192x128_0_1 (broadcastInDim S1x128 ![1] bcast_S128_S1x128_1 b) (ix2 i j) = b (ix1 j) := by
  refine (broadcastInDim_apply _ bcast_S1x128_S8192x128_0_1 _ (ix2 i j) (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- The scalar zero broadcast to [8192, 32] reads `0` everywhere. -/
theorem zeros32_apply (i : Fin 8192) (k : Fin 32) :
    broadcastInDim S8192x32 ![] bcast_S_S8192x32 (constant (F := Ideal) S_ .f32 0x00000000#32) (ix2 i k) = 0 :=
  (broadcastInDim_apply _ bcast_S_S8192x32 (constant (F := Ideal) S_ .f32 0x00000000#32) (ix2 i k) ix0 (fun a => a.elim0)).trans Ideal.ofBits_zero_f32

/-- The hidden layer at `(i, k)`: `max (∑ₗ x i l · W1 l k + b1 k) 0`. -/
theorem hidden_apply (x : (⟨S8192x128, .f32⟩ : BufTy).Contents (Elt Ideal)) (w1 : (⟨S128x32, .f32⟩ : BufTy).Contents (Elt Ideal))
    (b1 : (⟨S32, .f32⟩ : BufTy).Contents (Elt Ideal)) (i : Fin 8192) (k : Fin 32) :
    maximumf (addf (Host.dotGeneral (F := Ideal) (φ₁ := .f32) (φ₂ := .f32) dot_S8192x128_S128x32_S8192x32_1_0_0_1_n_n none x w1)
        (broadcastInDim S8192x32 ![0, 1] bcast_S1x32_S8192x32_0_1 (broadcastInDim S1x32 ![1] bcast_S32_S1x32_1 b1)))
      (broadcastInDim S8192x32 ![] bcast_S_S8192x32 (constant (F := Ideal) S_ .f32 0x00000000#32)) (ix2 i k)
      = Cert.Spec.hidden (fun a l => x (ix2 a l)) (fun l k => w1 (ix2 l k)) (fun k => b1 (ix1 k)) i k := by
  show max (Host.dotGeneral (F := Ideal) (φ₁ := .f32) (φ₂ := .f32) dot_S8192x128_S128x32_S8192x32_1_0_0_1_n_n none x w1 (ix2 i k)
        + broadcastInDim S8192x32 ![0, 1] bcast_S1x32_S8192x32_0_1 (broadcastInDim S1x32 ![1] bcast_S32_S1x32_1 b1) (ix2 i k))
      (broadcastInDim S8192x32 ![] bcast_S_S8192x32 (constant (F := Ideal) S_ .f32 0x00000000#32) (ix2 i k)) = _
  rw [dot1_apply, bias32_apply, zeros32_apply]
  rfl

/-- The perceptron's output at `(i, j)`: `∑ₖ hidden i k · W2 k j + b2 j`. -/
theorem mlp_apply (x : (⟨S8192x128, .f32⟩ : BufTy).Contents (Elt Ideal)) (w1 : (⟨S128x32, .f32⟩ : BufTy).Contents (Elt Ideal))
    (b1 : (⟨S32, .f32⟩ : BufTy).Contents (Elt Ideal)) (w2 : (⟨S32x128, .f32⟩ : BufTy).Contents (Elt Ideal))
    (b2 : (⟨S128, .f32⟩ : BufTy).Contents (Elt Ideal)) (i : Fin 8192) (j : Fin 128) :
    addf (Host.dotGeneral (F := Ideal) (φ₁ := .f32) (φ₂ := .f32) dot_S8192x32_S32x128_S8192x128_1_0_0_1_n_n none
        (maximumf (addf (Host.dotGeneral (F := Ideal) (φ₁ := .f32) (φ₂ := .f32) dot_S8192x128_S128x32_S8192x32_1_0_0_1_n_n none x w1)
            (broadcastInDim S8192x32 ![0, 1] bcast_S1x32_S8192x32_0_1 (broadcastInDim S1x32 ![1] bcast_S32_S1x32_1 b1)))
          (broadcastInDim S8192x32 ![] bcast_S_S8192x32 (constant (F := Ideal) S_ .f32 0x00000000#32))) w2)
      (broadcastInDim S8192x128 ![0, 1] bcast_S1x128_S8192x128_0_1 (broadcastInDim S1x128 ![1] bcast_S128_S1x128_1 b2)) (ix2 i j)
      = Cert.Spec.mlp (fun a l => x (ix2 a l)) (fun l k => w1 (ix2 l k)) (fun k => b1 (ix1 k)) (fun k j => w2 (ix2 k j)) (fun j => b2 (ix1 j)) i j := by
  show Host.dotGeneral (F := Ideal) (φ₁ := .f32) (φ₂ := .f32) dot_S8192x32_S32x128_S8192x128_1_0_0_1_n_n none
        (maximumf (addf (Host.dotGeneral (F := Ideal) (φ₁ := .f32) (φ₂ := .f32) dot_S8192x128_S128x32_S8192x32_1_0_0_1_n_n none x w1)
            (broadcastInDim S8192x32 ![0, 1] bcast_S1x32_S8192x32_0_1 (broadcastInDim S1x32 ![1] bcast_S32_S1x32_1 b1)))
          (broadcastInDim S8192x32 ![] bcast_S_S8192x32 (constant (F := Ideal) S_ .f32 0x00000000#32))) w2 (ix2 i j)
      + broadcastInDim S8192x128 ![0, 1] bcast_S1x128_S8192x128_0_1 (broadcastInDim S1x128 ![1] bcast_S128_S1x128_1 b2) (ix2 i j) = _
  rw [dot2_apply, bias128_apply]
  unfold Cert.Spec.mlp
  refine congrArg (· + b2 (ix1 j)) (Finset.sum_congr rfl fun k _ => ?_)
  rw [hidden_apply]

/-! ## The expanded trend: the trend row, then its perceptron -/

/-- Two [8192, 128] arrays side by side, at `(i, k)`: the first for `k < 128`, the second at `k − 128` otherwise. -/
theorem concat_apply (x y : (⟨S8192x128, .f32⟩ : BufTy).Contents (Elt Ideal)) (i : Fin 8192) (k : Fin 256) :
    concatenate S8192x256 1 [⟨S8192x128, x⟩, ⟨S8192x128, y⟩] concatenates_S8192x128_S8192x128_S8192x256_d1 (ix2 i k)
      = if h : k.val < 128 then x (ix2 i ⟨k.val, h⟩) else y (ix2 i ⟨k.val - 128, by omega⟩) := by
  by_cases h : k.val < 128
  · rw [dif_pos h]
    exact concatenate_pair_apply_left (1 : Fin S8192x256.rank) x y concatenates_S8192x128_S8192x128_S8192x256_d1 (ix2 i k) rfl
      (ix2 i ⟨k.val, h⟩) (fun b => match b with | ⟨0, _⟩ => rfl | ⟨1, _⟩ => rfl)
  · rw [dif_neg h]
    exact concatenate_pair_apply_right (1 : Fin S8192x256.rank) x y concatenates_S8192x128_S8192x128_S8192x256_d1 (ix2 i k) rfl rfl
      (ix2 i ⟨k.val - 128, by omega⟩) (fun b => match b with
        | ⟨0, _⟩ => fun _ => rfl
        | ⟨1, _⟩ => fun hb => absurd rfl hb)
      (by show k.val - 128 + 128 = k.val; omega)

/-- The expanded trend at `(i, k)` is the specification's `expand`. -/
theorem expand_apply (x : (⟨S8192x128, .f32⟩ : BufTy).Contents (Elt Ideal)) (w1 : (⟨S128x32, .f32⟩ : BufTy).Contents (Elt Ideal))
    (b1 : (⟨S32, .f32⟩ : BufTy).Contents (Elt Ideal)) (w2 : (⟨S32x128, .f32⟩ : BufTy).Contents (Elt Ideal))
    (b2 : (⟨S128, .f32⟩ : BufTy).Contents (Elt Ideal)) (i : Fin 8192) (k : Fin 256) :
    concatenate S8192x256 1 [⟨S8192x128, x⟩, ⟨S8192x128,
      (addf (Host.dotGeneral (F := Ideal) (φ₁ := .f32) (φ₂ := .f32) dot_S8192x32_S32x128_S8192x128_1_0_0_1_n_n none
        (maximumf (addf (Host.dotGeneral (F := Ideal) (φ₁ := .f32) (φ₂ := .f32) dot_S8192x128_S128x32_S8192x32_1_0_0_1_n_n none x w1)
            (broadcastInDim S8192x32 ![0, 1] bcast_S1x32_S8192x32_0_1 (broadcastInDim S1x32 ![1] bcast_S32_S1x32_1 b1)))
          (broadcastInDim S8192x32 ![] bcast_S_S8192x32 (constant (F := Ideal) S_ .f32 0x00000000#32))) w2)
      (broadcastInDim S8192x128 ![0, 1] bcast_S1x128_S8192x128_0_1 (broadcastInDim S1x128 ![1] bcast_S128_S1x128_1 b2)))⟩]
      concatenates_S8192x128_S8192x128_S8192x256_d1 (ix2 i k)
      = Cert.Spec.expand (fun a l => x (ix2 a l)) (fun l k => w1 (ix2 l k)) (fun k => b1 (ix1 k)) (fun k j => w2 (ix2 k j)) (fun j => b2 (ix1 j)) i k := by
  rw [concat_apply]
  unfold Cert.Spec.expand
  by_cases h : k.val < 128
  · rw [dif_pos h, dif_pos h]
  · rw [dif_neg h, dif_neg h, mlp_apply]

/-! ## The time match -/

/-- One half of the time match at row `i`: the dot product of a gathered 256-feature row with the expanded trend. -/
theorem timedot_apply (g : (⟨S8192x256, .f32⟩ : BufTy).Contents (Elt Ideal)) (x : (⟨S8192x128, .f32⟩ : BufTy).Contents (Elt Ideal))
    (w1 : (⟨S128x32, .f32⟩ : BufTy).Contents (Elt Ideal)) (b1 : (⟨S32, .f32⟩ : BufTy).Contents (Elt Ideal))
    (w2 : (⟨S32x128, .f32⟩ : BufTy).Contents (Elt Ideal)) (b2 : (⟨S128, .f32⟩ : BufTy).Contents (Elt Ideal)) (i : Fin 8192) :
    Host.reduceAdd (F := Ideal) (mulf g (concatenate S8192x256 1 [⟨S8192x128, x⟩, ⟨S8192x128,
      (addf (Host.dotGeneral (F := Ideal) (φ₁ := .f32) (φ₂ := .f32) dot_S8192x32_S32x128_S8192x128_1_0_0_1_n_n none
        (maximumf (addf (Host.dotGeneral (F := Ideal) (φ₁ := .f32) (φ₂ := .f32) dot_S8192x128_S128x32_S8192x32_1_0_0_1_n_n none x w1)
            (broadcastInDim S8192x32 ![0, 1] bcast_S1x32_S8192x32_0_1 (broadcastInDim S1x32 ![1] bcast_S32_S1x32_1 b1)))
          (broadcastInDim S8192x32 ![] bcast_S_S8192x32 (constant (F := Ideal) S_ .f32 0x00000000#32))) w2)
      (broadcastInDim S8192x128 ![0, 1] bcast_S1x128_S8192x128_0_1 (broadcastInDim S1x128 ![1] bcast_S128_S1x128_1 b2)))⟩]
      concatenates_S8192x128_S8192x128_S8192x256_d1))
      (constant (F := Ideal) S_ .f32 0x00000000#32) reducesTo_S8192x256_S8192_d1 h_S_ (ix1 i)
      = ∑ k : Fin 256, g (ix2 i k) * Cert.Spec.expand (fun a l => x (ix2 a l)) (fun l k => w1 (ix2 l k)) (fun k => b1 (ix1 k)) (fun k j => w2 (ix2 k j)) (fun j => b2 (ix1 j)) i k := by
  rw [rowsum256_apply]
  refine Finset.sum_congr rfl fun k _ => ?_
  rw [mulf_apply, expand_apply]

section
variable (a0 a1 : (⟨S8192, .i32⟩ : BufTy).Contents (Elt Ideal))
  (a3 a4 : (⟨S8192x128, .f32⟩ : BufTy).Contents (Elt Ideal))
  (a7 : (⟨S60000x256, .f32⟩ : BufTy).Contents (Elt Ideal)) (a8 : (⟨S40000x256, .f32⟩ : BufTy).Contents (Elt Ideal))
  (a9 : (⟨S128x32, .f32⟩ : BufTy).Contents (Elt Ideal)) (a10 : (⟨S32, .f32⟩ : BufTy).Contents (Elt Ideal))
  (a11 : (⟨S32x128, .f32⟩ : BufTy).Contents (Elt Ideal)) (a12 : (⟨S128, .f32⟩ : BufTy).Contents (Elt Ideal))

/-- The reference's second result at row `i`: the logistic of the sum of the two dot products with the expanded trends. -/
theorem out1_apply (i : Fin 8192) : Cert.RefOut.out1 (F := Ideal) a0 a1 a3 a4 a7 a8 a9 a10 a11 a12 (ix1 i)
    = Cert.Spec.tm (fun a k => Cert.HostR.ute (F := Ideal) a7 a0 (ix2 a k)) (fun a k => Cert.HostR.ite (F := Ideal) a8 a1 (ix2 a k))
        (Cert.Spec.expand (fun a l => a3 (ix2 a l)) (fun l k => a9 (ix2 l k)) (fun k => a10 (ix1 k)) (fun k j => a11 (ix2 k j)) (fun j => a12 (ix1 j)))
        (Cert.Spec.expand (fun a l => a4 (ix2 a l)) (fun l k => a9 (ix2 l k)) (fun k => a10 (ix1 k)) (fun k j => a11 (ix2 k j)) (fun j => a12 (ix1 j))) i := by
  unfold Cert.RefOut.out1
  generalize Cert.HostR.ute (F := Ideal) a7 a0 = C
  generalize Cert.HostR.ite (F := Ideal) a8 a1 = D
  rw [sigmoid_apply, addf_apply, timedot_apply, timedot_apply]
  rfl

end

end Cert.RefValue

end
-- ==== Proof.lean ====
/-
  The kernel program — a LightGCN-style graph propagation on the host (three hops of gather and scatter-add over the
  edge list), six row gathers, two launches of a two-layer perceptron kernel that expand the 128 trend features to 256,
  and a finalize kernel that takes two logistic matches per batch row and accumulates a regularizer over eight row
  blocks — against the jnp reference of the same model, at the ideal instance (floats are extended reals).

  Both programs run the same host operations for the propagated table and the six gathered arrays (one function of
  the argument arrays, spelt once per program: the two spellings agree by unfolding). On those arrays:
  the perceptron kernel's block is the reference's `concatenate [t, max (t·W1 + b1) 0 · W2 + b2]` index by index (a
  matmul into a zero accumulator is the dot product's sum; the casts to bf16 are the identity); the finalize kernel's
  two match outputs are the logistic of the same row sums; and its accumulator ends at
  (∑ over the 8 blocks of ½·(the block's four sums of squares))·2⁻¹³, which is ½·(the four whole sums)/8192: a nonnegative
  real factor distributes over a sum of extended reals, and the 8192 rows are the 8 blocks of 1024. The precondition is
  not used: no step cancels or distributes a possibly infinite factor.
-/
import proofs.«111852_j28475633172831_1_alg».proof.Defs
import proofs.«111852_j28475633172831_1_alg».proof.Proof.Gen.Kernel
import proofs.«111852_j28475633172831_1_alg».proof.Proof.Gen.Kernel.Skeleton
import proofs.«111852_j28475633172831_1_alg».proof.Proof.Gen.Kernel.Launch
import proofs.«111852_j28475633172831_1_alg».proof.Proof.Gen.Kernel.Points
import proofs.«111852_j28475633172831_1_alg».proof.Proof.Gen.Kernel.Frame
import proofs.«111852_j28475633172831_1_alg».proof.Proof.Gen.KernelIdeal
import proofs.«111852_j28475633172831_1_alg».proof.Proof.Gen.KernelIdeal.Skeleton
import proofs.«111852_j28475633172831_1_alg».proof.Proof.Gen.KernelIdeal.Launch
import proofs.«111852_j28475633172831_1_alg».proof.Proof.Gen.KernelIdeal.Points
import proofs.«111852_j28475633172831_1_alg».proof.Proof.Gen.KernelIdeal.Frame
import proofs.«111852_j28475633172831_1_alg».proof.Proof.Gen.ReferenceIdeal
import proofs.«111852_j28475633172831_1_alg».proof.Proof.Gen.Pre_finite_inputs
import proofs.«111852_j28475633172831_1_alg».proof.Proof.Spec
import proofs.«111852_j28475633172831_1_alg».proof.Proof.HostK
import proofs.«111852_j28475633172831_1_alg».proof.Proof.HostR
import proofs.«111852_j28475633172831_1_alg».proof.Proof.RefOut
import proofs.«111852_j28475633172831_1_alg».proof.Proof.Algebra
import proofs.«111852_j28475633172831_1_alg».proof.Proof.HostEq
import proofs.«111852_j28475633172831_1_alg».proof.Proof.KRun
import proofs.«111852_j28475633172831_1_alg».proof.Proof.KHost
import proofs.«111852_j28475633172831_1_alg».proof.Proof.KMlp0
import proofs.«111852_j28475633172831_1_alg».proof.Proof.KMlp1
import proofs.«111852_j28475633172831_1_alg».proof.Proof.KFin
import proofs.«111852_j28475633172831_1_alg».proof.Proof.RefRun
import proofs.«111852_j28475633172831_1_alg».proof.Proof.RefValue
import Idealize.ShloMosaic.Lib.Pipeline.Value
import Idealize.ShloMosaic.Lib.ValueIdx
import Idealize.ShloMosaic.Lib.StableHlo.Run
import Idealize.ShloMosaic.Adequacy
import Idealize.ShloMosaic.Init

noncomputable section

open Idealize.ShloMosaic Idealize.ShloMosaic.TcCoe Idealize.SL.Sem Idealize.ShloMosaic.ValueIdx

/-! ## The assembly -/
namespace Cert.Proof.Parts

open Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- The user trends, expanded, as a function of the kernel program's arguments. -/
def utK (c : Dev Cert.KernelIdeal.nD) : Fin 8192 → Fin 256 → EReal :=
  Cert.Spec.expand (fun a l => (m ((c.tc : Thread Cert.KernelIdeal.nD Cert.KernelIdeal.τ).loc Cert.KernelIdeal.main_arg3)) (ix2 a l)) (fun l k => (m ((c.tc : Thread Cert.KernelIdeal.nD Cert.KernelIdeal.τ).loc Cert.KernelIdeal.main_arg9)) (ix2 l k)) (fun k => (m ((c.tc : Thread Cert.KernelIdeal.nD Cert.KernelIdeal.τ).loc Cert.KernelIdeal.main_arg10)) (ix1 k))
    (fun k j => (m ((c.tc : Thread Cert.KernelIdeal.nD Cert.KernelIdeal.τ).loc Cert.KernelIdeal.main_arg11)) (ix2 k j)) (fun j => (m ((c.tc : Thread Cert.KernelIdeal.nD Cert.KernelIdeal.τ).loc Cert.KernelIdeal.main_arg12)) (ix1 j))

/-- The item trends, expanded. -/
def itK (c : Dev Cert.KernelIdeal.nD) : Fin 8192 → Fin 256 → EReal :=
  Cert.Spec.expand (fun a l => (m ((c.tc : Thread Cert.KernelIdeal.nD Cert.KernelIdeal.τ).loc Cert.KernelIdeal.main_arg4)) (ix2 a l)) (fun l k => (m ((c.tc : Thread Cert.KernelIdeal.nD Cert.KernelIdeal.τ).loc Cert.KernelIdeal.main_arg9)) (ix2 l k)) (fun k => (m ((c.tc : Thread Cert.KernelIdeal.nD Cert.KernelIdeal.τ).loc Cert.KernelIdeal.main_arg10)) (ix1 k))
    (fun k j => (m ((c.tc : Thread Cert.KernelIdeal.nD Cert.KernelIdeal.τ).loc Cert.KernelIdeal.main_arg11)) (ix2 k j)) (fun j => (m ((c.tc : Thread Cert.KernelIdeal.nD Cert.KernelIdeal.τ).loc Cert.KernelIdeal.main_arg12)) (ix1 j))

/-- The embedding match as a function of the kernel program's arguments. -/
def res0 (c : Dev Cert.KernelIdeal.nD) : Buf (Elt Ideal) ((c.tc : Thread Cert.KernelIdeal.nD Cert.KernelIdeal.τ).loc Cert.KernelIdeal.main_v105) :=
  fun y => Cert.Spec.gm (fun a k => Cert.HostK.ue (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg0)) (ix2 a k))
    (fun a k => Cert.HostK.ie (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg1)) (ix2 a k)) (y 0)

/-- The time match. -/
def res1 (c : Dev Cert.KernelIdeal.nD) : Buf (Elt Ideal) ((c.tc : Thread Cert.KernelIdeal.nD Cert.KernelIdeal.τ).loc Cert.KernelIdeal.main_v106) :=
  fun y => Cert.Spec.tm (fun a k => Cert.HostK.ute (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (ix2 a k))
    (fun a k => Cert.HostK.ite (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg1)) (ix2 a k)) (utK m c) (itK m c) (y 0)

/-- The regularizer. -/
def res2 (c : Dev Cert.KernelIdeal.nD) : Buf (Elt Ideal) ((c.tc : Thread Cert.KernelIdeal.nD Cert.KernelIdeal.τ).loc Cert.KernelIdeal.main_v107) :=
  fun _ => Cert.Spec.regWhole (fun a k => Cert.HostK.ue0 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (ix2 a k))
    (fun a k => Cert.HostK.ie0 (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg1)) (ix2 a k))
    (fun a k => Cert.HostK.ute (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (ix2 a k))
    (fun a k => Cert.HostK.ite (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg1)) (ix2 a k))

open Cert.KernelIdeal.Gen in
theorem kernel0 (c : Dev Cert.KernelIdeal.nD) : W8 m ρ c (Proc.devRef .tc Cert.KernelIdeal.main_v105) = res0 m c := by
  funext y
  obtain ⟨i, rfl⟩ : ∃ i : Fin 8192, y = ix1 i := ⟨y 0, eq_ix1 y⟩
  rw [Cert.KRun.W8_v105, Cert.KRun.V7_v104_0, Cert.KFin.final8, Cert.KHost.V6_v76, Cert.KHost.V6_v83]
  rfl

open Cert.KernelIdeal.Gen in
theorem ut_eq (c : Dev Cert.KernelIdeal.nD) : (fun a k => V6 m ρ c Cert.KernelIdeal.main_v100 (ix2 a k)) = utK m c := by
  funext a k
  rw [Cert.KRun.V6_v100, Cert.KMlp0.final, Cert.KRun.V3_arg3, Cert.KRun.V3_arg9, Cert.KRun.V3_arg11]
  rw [show (fun k => V3 m ρ c Cert.KernelIdeal.main_v98 (ix2 (0 : Fin 1) k)) = fun k => (m ((c.tc : Thread Cert.KernelIdeal.nD Cert.KernelIdeal.τ).loc Cert.KernelIdeal.main_arg10)) (ix1 k) from funext fun k => Cert.KRun.V3_v98 m ρ c k,
    show (fun j => V3 m ρ c Cert.KernelIdeal.main_v99 (ix2 (0 : Fin 1) j)) = fun j => (m ((c.tc : Thread Cert.KernelIdeal.nD Cert.KernelIdeal.τ).loc Cert.KernelIdeal.main_arg12)) (ix1 j) from funext fun j => Cert.KRun.V3_v99 m ρ c j]
  rfl

open Cert.KernelIdeal.Gen in
theorem it_eq (c : Dev Cert.KernelIdeal.nD) : (fun a k => V6 m ρ c Cert.KernelIdeal.main_v103 (ix2 a k)) = itK m c := by
  funext a k
  rw [Cert.KRun.V6_v103, Cert.KMlp1.final, Cert.KRun.V5_arg4, Cert.KRun.V5_arg9, Cert.KRun.V5_arg11]
  rw [show (fun k => V5 m ρ c Cert.KernelIdeal.main_v101 (ix2 (0 : Fin 1) k)) = fun k => (m ((c.tc : Thread Cert.KernelIdeal.nD Cert.KernelIdeal.τ).loc Cert.KernelIdeal.main_arg10)) (ix1 k) from funext fun k => Cert.KRun.V5_v101 m ρ c k,
    show (fun j => V5 m ρ c Cert.KernelIdeal.main_v102 (ix2 (0 : Fin 1) j)) = fun j => (m ((c.tc : Thread Cert.KernelIdeal.nD Cert.KernelIdeal.τ).loc Cert.KernelIdeal.main_arg12)) (ix1 j) from funext fun j => Cert.KRun.V5_v102 m ρ c j]
  rfl

open Cert.KernelIdeal.Gen in
theorem kernel1 (c : Dev Cert.KernelIdeal.nD) : W8 m ρ c (Proc.devRef .tc Cert.KernelIdeal.main_v106) = res1 m c := by
  funext y
  obtain ⟨i, rfl⟩ : ∃ i : Fin 8192, y = ix1 i := ⟨y 0, eq_ix1 y⟩
  rw [Cert.KRun.W8_v106, Cert.KRun.V7_v104_1, Cert.KFin.final9, ut_eq, it_eq, Cert.KHost.V6_v90, Cert.KHost.V6_v97]
  rfl

open Cert.KernelIdeal.Gen in
theorem kernel2 (c : Dev Cert.KernelIdeal.nD) : W8 m ρ c (Proc.devRef .tc Cert.KernelIdeal.main_v107) = res2 m c := by
  funext y
  obtain rfl : y = ix0 := eq_ix0 y
  rw [Cert.KRun.W8_v107, Cert.KRun.V7_v104_2, Cert.KFin.final10, Cert.Alg.regBlocked_eq_regWhole,
    Cert.KHost.V6_v62, Cert.KHost.V6_v69, Cert.KHost.V6_v90, Cert.KHost.V6_v97]
  rfl

end Cert.Proof.Parts

namespace Cert.Proof

open Cert.Proof.Parts

/-- The word-level kernel program runs and keeps its arguments: the generated frame. -/
theorem frame_k : Cert.frame_Kernel := fun m ρ _ => Cert.Kernel.Gen.frame m ρ
/-- The idealized kernel program runs and keeps its arguments: the generated frame. -/
theorem frame_ki : Cert.frame_KernelIdeal := fun m ρ _ => Cert.KernelIdeal.Gen.frame m ρ
/-- The reference runs and keeps its arguments: its run with the results dropped. -/
theorem frame_ri : Cert.frame_ReferenceIdeal := fun m ρ _ =>
  (θ_run Cert.ReferenceIdeal.defs _ _).mono (fun _ h c => (h c).2.2.2) (Cert.RefRun.run m ρ)
/-- The idealization rewrote nothing. -/
theorem preserves : Cert.preserves_Kernel_KernelIdeal := trivial

/-- Both programs end with the same three results: the logistic of the embedding rows' dot product, the logistic of the two
    time dot products with the expanded trends, and the regularizer — the kernel's block-by-block accumulation being
    the reference's whole sums. -/
theorem algebraic : Cert.algebraic_KernelIdeal_ReferenceIdeal := by
  intro m ρ m' ρ' _ hagree
  refine ⟨res0 m, res1 m, res2 m, ?_, ?_⟩
  · exact (θ_run Cert.KernelIdeal.defs _ _).mono (fun _ h c => ⟨(h c).1.trans (kernel0 m ρ c), (h c).2.1.trans (kernel1 m ρ c),
      (h c).2.2.1.trans (kernel2 m ρ c), (h c).2.2.2⟩) (Cert.KRun.run_named m ρ)
  · refine (θ_run Cert.ReferenceIdeal.defs _ _).mono (fun _ h c => ?_) (Cert.RefRun.run m' ρ')
    obtain ⟨h0, h1, h2, h3, h4, h5, h6, h7, h8, h9, h10, h11, h12, h13, h14⟩ := hagree c
    refine ⟨(h c).1.trans ?_, (h c).2.1.trans ?_, (h c).2.2.1.trans ?_, (h c).2.2.2⟩
    · funext y
      obtain ⟨i, rfl⟩ : ∃ i : Fin 8192, y = ix1 i := ⟨y 0, eq_ix1 y⟩
      rw [h0, h1, h5, h6, h13, h14, Cert.RefValue.out0_apply]
      rfl
    · funext y
      obtain ⟨i, rfl⟩ : ∃ i : Fin 8192, y = ix1 i := ⟨y 0, eq_ix1 y⟩
      rw [h0, h1, h3, h4, h7, h8, h9, h10, h11, h12, Cert.RefValue.out1_apply]
      rfl
    · funext y
      obtain rfl : y = ix0 := eq_ix0 y
      rw [h0, h1, h5, h6, h7, h8, Cert.RefValue.out2_apply]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
